-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x128x64 : Shape := ⟨3, ![4, 128, 64]⟩
abbrev S4x64 : Shape := ⟨2, ![4, 64]⟩
abbrev S4x1000000 : Shape := ⟨2, ![4, 1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S100000x128 .f32) (main_arg1 : FVec F S4x128x64 .f32) (main_arg2 : FVec F S4x64 .f32) (main_arg3 : IVec S4x1000000 32) (main_arg4 : IVec S4x1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x64 .f32 := Host.absf main_arg1
  let main_cst_0 : FVec F S_ .f32 := constant S_ .f32 0x7F800000#32
  let main_v5 : FVec F S4x128x64 .f32 := broadcastInDim S4x128x64 ![] bcast_S_S4x128x64 main_cst_0
  let main_v6 : IVec S4x128x64 1 := cmpf .olt main_v4 main_v5
  let main_c_1 : IVec S_ 1 := constantI S_ 1 1#1
  let main_v7 : IVec S_ 1 := (fun x v => Host.reduce IntOp.andi x v reducesTo_S4x128x64_S_d0_1_2 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S100000x128 : Shape := ⟨2, ![100000, 128]⟩
abbrev S4x128x64 : Shape := ⟨3, ![4, 128, 64]⟩
abbrev S4x64 : Shape := ⟨2, ![4, 64]⟩
abbrev S4x1000000 : Shape := ⟨2, ![4, 1000000]⟩
abbrev S_ : Shape := ⟨0, ![]⟩
abbrev S1000000 : Shape := ⟨1, ![1000000]⟩
abbrev S1x1000000 : Shape := ⟨2, ![1, 1000000]⟩
abbrev S100000 : Shape := ⟨1, ![100000]⟩
abbrev S1000000x1 : Shape := ⟨2, ![1000000, 1]⟩
abbrev S1x100000 : Shape := ⟨2, ![1, 100000]⟩
abbrev S4x100000 : Shape := ⟨2, ![4, 100000]⟩
abbrev S4x100000x1 : Shape := ⟨3, ![4, 100000, 1]⟩
abbrev S4x100000x64 : Shape := ⟨3, ![4, 100000, 64]⟩
abbrev S10000x128 : Shape := ⟨2, ![10000, 128]⟩
abbrev S1x128x64 : Shape := ⟨3, ![1, 128, 64]⟩
abbrev S1x10000x1 : Shape := ⟨3, ![1, 10000, 1]⟩
abbrev S1x10000x64 : Shape := ⟨3, ![1, 10000, 64]⟩
abbrev S10000x1 : Shape := ⟨2, ![10000, 1]⟩
abbrev S128x64 : Shape := ⟨2, ![128, 64]⟩
abbrev S10000x64 : Shape := ⟨2, ![10000, 64]⟩
abbrev S1x100000x64 : Shape := ⟨3, ![1, 100000, 64]⟩
abbrev S100000x64 : Shape := ⟨2, ![100000, 64]⟩
abbrev S1000000x64 : Shape := ⟨2, ![1000000, 64]⟩
abbrev S1x64 : Shape := ⟨2, ![1, 64]⟩
abbrev S64 : Shape := ⟨1, ![64]⟩

abbrev nBuf : Space → Nat
  | .hbm => 196
  | .vmem => 15
  | .smem => 0
  | _ => 0

abbrev hbmTy0_0 (i : Nat) : BufTy := match i % 128 with
  | 0 => ⟨S100000x128, .f32⟩
  | 1 => ⟨S4x128x64, .f32⟩
  | 2 => ⟨S4x64, .f32⟩
  | 3 => ⟨S4x1000000, .i32⟩
  | 4 => ⟨S4x1000000, .i32⟩
  | 5 => ⟨S_, .f32⟩
  | 6 => ⟨S1000000, .f32⟩
  | 7 => ⟨S1x1000000, .i32⟩
  | 8 => ⟨S1000000, .i32⟩
  | 9 => ⟨S_, .f32⟩
  | 10 => ⟨S100000, .f32⟩
  | 11 => ⟨S1000000x1, .i32⟩
  | 12 => ⟨S100000, .f32⟩
  | 13 => ⟨S1x1000000, .i32⟩
  | 14 => ⟨S1000000, .i32⟩
  | 15 => ⟨S_, .f32⟩
  | 16 => ⟨S100000, .f32⟩
  | 17 => ⟨S1000000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S100000, .f32⟩
  | 29 => ⟨S_, .f32⟩
  | 30 => ⟨S1000000, .f32⟩
  | 31 => ⟨S1x1000000, .i32⟩
  | 32 => ⟨S1000000, .i32⟩
  | 33 => ⟨S_, .f32⟩
  | 34 => ⟨S100000, .f32⟩
  | 35 => ⟨S1000000x1, .i32⟩
  | 36 => ⟨S100000, .f32⟩
  | 37 => ⟨S1x1000000, .i32⟩
  | 38 => ⟨S1000000, .i32⟩
  | 39 => ⟨S_, .f32⟩
  | 40 => ⟨S100000, .f32⟩
  | 41 => ⟨S1000000x1, .i32⟩
  | 42 => ⟨S100000, .f32⟩
  | 43 => ⟨S_, .f32⟩
  | 44 => ⟨S_, .f32⟩
  | 45 => ⟨S100000, .f32⟩
  | 46 => ⟨S100000, .f32⟩
  | 47 => ⟨S100000, .f32⟩
  | 48 => ⟨S_, .f32⟩
  | 49 => ⟨S_, .f32⟩
  | 50 => ⟨S100000, .f32⟩
  | 51 => ⟨S100000, .f32⟩
  | 52 => ⟨S100000, .f32⟩
  | 53 => ⟨S_, .f32⟩
  | 54 => ⟨S1000000, .f32⟩
  | 55 => ⟨S1x1000000, .i32⟩
  | 56 => ⟨S1000000, .i32⟩
  | 57 => ⟨S_, .f32⟩
  | 58 => ⟨S100000, .f32⟩
  | 59 => ⟨S1000000x1, .i32⟩
  | 60 => ⟨S100000, .f32⟩
  | 61 => ⟨S1x1000000, .i32⟩
  | 62 => ⟨S1000000, .i32⟩
  | 63 => ⟨S_, .f32⟩
  | 64 => ⟨S100000, .f32⟩
  | 65 => ⟨S1000000x1, .i32⟩
  | 66 => ⟨S100000, .f32⟩
  | 67 => ⟨S_, .f32⟩
  | 68 => ⟨S_, .f32⟩
  | 69 => ⟨S100000, .f32⟩
  | 70 => ⟨S100000, .f32⟩
  | 71 => ⟨S100000, .f32⟩
  | 72 => ⟨S_, .f32⟩
  | 73 => ⟨S_, .f32⟩
  | 74 => ⟨S100000, .f32⟩
  | 75 => ⟨S100000, .f32⟩
  | 76 => ⟨S100000, .f32⟩
  | 77 => ⟨S_, .f32⟩
  | 78 => ⟨S1000000, .f32⟩
  | 79 => ⟨S1x1000000, .i32⟩
  | 80 => ⟨S1000000, .i32⟩
  | 81 => ⟨S_, .f32⟩
  | 82 => ⟨S100000, .f32⟩
  | 83 => ⟨S1000000x1, .i32⟩
  | 84 => ⟨S100000, .f32⟩
  | 85 => ⟨S1x1000000, .i32⟩
  | 86 => ⟨S1000000, .i32⟩
  | 87 => ⟨S_, .f32⟩
  | 88 => ⟨S100000, .f32⟩
  | 89 => ⟨S1000000x1, .i32⟩
  | 90 => ⟨S100000, .f32⟩
  | 91 => ⟨S_, .f32⟩
  | 92 => ⟨S_, .f32⟩
  | 93 => ⟨S100000, .f32⟩
  | 94 => ⟨S100000, .f32⟩
  | 95 => ⟨S100000, .f32⟩
  | 96 => ⟨S_, .f32⟩
  | 97 => ⟨S_, .f32⟩
  | 98 => ⟨S100000, .f32⟩
  | 99 => ⟨S100000, .f32⟩
  | 100 => ⟨S100000, .f32⟩
  | 101 => ⟨S1x100000, .f32⟩
  | 102 => ⟨S1x100000, .f32⟩
  | 103 => ⟨S1x100000, .f32⟩
  | 104 => ⟨S1x100000, .f32⟩
  | 105 => ⟨S4x100000, .f32⟩
  | 106 => ⟨S4x100000x1, .f32⟩
  | 107 => ⟨S1x100000, .f32⟩
  | 108 => ⟨S1x100000, .f32⟩
  | 109 => ⟨S1x100000, .f32⟩
  | 110 => ⟨S1x100000, .f32⟩
  | 111 => ⟨S4x100000, .f32⟩
  | 112 => ⟨S4x100000x1, .f32⟩
  | 113 => ⟨S4x100000x64, .f32⟩
  | 114 => ⟨S1x100000x64, .f32⟩
  | 115 => ⟨S100000x64, .f32⟩
  | 116 => ⟨S1x1000000, .i32⟩
  | 117 => ⟨S1000000, .i32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x64, .f32⟩
  | 127 => ⟨S1x1000000, .i32⟩
  | _ => ⟨S100000x128, .f32⟩

abbrev hbmTy0_1 (i : Nat) : BufTy := match i % 128 with
  | 0 => ⟨S1000000, .i32⟩
  | 1 => ⟨S_, .f32⟩
  | 2 => ⟨S100000x64, .f32⟩
  | 3 => ⟨S1000000x1, .i32⟩
  | 4 => ⟨S100000x64, .f32⟩
  | 5 => ⟨S1x100000x64, .f32⟩
  | 6 => ⟨S100000x64, .f32⟩
  | 7 => ⟨S1x1000000, .i32⟩
  | 8 => ⟨S1000000, .i32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000x64, .f32⟩
  | 18 => ⟨S1x1000000, .i32⟩
  | 19 => ⟨S1000000, .i32⟩
  | 20 => ⟨S_, .f32⟩
  | 21 => ⟨S100000x64, .f32⟩
  | 22 => ⟨S1000000x1, .i32⟩
  | 23 => ⟨S100000x64, .f32⟩
  | 24 => ⟨S1x100000x64, .f32⟩
  | 25 => ⟨S100000x64, .f32⟩
  | 26 => ⟨S1x1000000, .i32⟩
  | 27 => ⟨S1000000, .i32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x64, .f32⟩
  | 37 => ⟨S1x1000000, .i32⟩
  | 38 => ⟨S1000000, .i32⟩
  | 39 => ⟨S_, .f32⟩
  | 40 => ⟨S100000x64, .f32⟩
  | 41 => ⟨S1000000x1, .i32⟩
  | 42 => ⟨S100000x64, .f32⟩
  | 43 => ⟨S1x100000x64, .f32⟩
  | 44 => ⟨S100000x64, .f32⟩
  | 45 => ⟨S1x1000000, .i32⟩
  | 46 => ⟨S1000000, .i32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x64, .f32⟩
  | 56 => ⟨S1x1000000, .i32⟩
  | 57 => ⟨S1000000, .i32⟩
  | 58 => ⟨S_, .f32⟩
  | 59 => ⟨S100000x64, .f32⟩
  | 60 => ⟨S1000000x1, .i32⟩
  | 61 => ⟨S100000x64, .f32⟩
  | 62 => ⟨S1x100000x64, .f32⟩
  | 63 => ⟨S1x100000x64, .f32⟩
  | 64 => ⟨S1x100000x64, .f32⟩
  | 65 => ⟨S1x100000x64, .f32⟩
  | 66 => ⟨S4x100000x64, .f32⟩
  | 67 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S1x128x64, .f32⟩
  | .local _ .vmem, ⟨3, _⟩ => ⟨S1x128x64, .f32⟩
  | .local _ .vmem, ⟨4, _⟩ => ⟨S1x10000x1, .f32⟩
  | .local _ .vmem, ⟨5, _⟩ => ⟨S1x10000x1, .f32⟩
  | .local _ .vmem, ⟨6, _⟩ => ⟨S1x10000x64, .f32⟩
  | .local _ .vmem, ⟨7, _⟩ => ⟨S1x10000x64, .f32⟩
  | .local _ .vmem, ⟨8, _⟩ => ⟨S1x10000x64, .f32⟩
  | .local _ .vmem, ⟨9, _⟩ => ⟨S1x10000x64, .f32⟩
  | .local _ .vmem, ⟨10, _⟩ => ⟨S1x10000x1, .f32⟩
  | .local _ .vmem, ⟨11, _⟩ => ⟨S1x10000x1, .f32⟩
  | .local _ .vmem, ⟨12, _⟩ => ⟨S4x64, .f32⟩
  | .local _ .vmem, ⟨13, _⟩ => ⟨S10000x64, .f32⟩
  | .local _ .vmem, ⟨14, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_12 : Ref sig .tc := ⟨.hbm, 67, rfl⟩
abbrev main_call4_v0 : Ref sig .tc := ⟨.hbm, 68, rfl⟩
abbrev main_call4_v1 : Ref sig .tc := ⟨.hbm, 69, rfl⟩
abbrev main_v41 : Ref sig .tc := ⟨.hbm, 70, rfl⟩
abbrev main_v42 : Ref sig .tc := ⟨.hbm, 71, rfl⟩
abbrev main_cst_13 : Ref sig .tc := ⟨.hbm, 72, rfl⟩
abbrev main_call5_v0 : Ref sig .tc := ⟨.hbm, 73, rfl⟩
abbrev main_call5_v1 : Ref sig .tc := ⟨.hbm, 74, rfl⟩
abbrev main_v43 : Ref sig .tc := ⟨.hbm, 75, rfl⟩
abbrev main_v44 : Ref sig .tc := ⟨.hbm, 76, rfl⟩
abbrev main_cst_14 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_15 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_16 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_17 : Ref sig .tc := ⟨.hbm, 91, rfl⟩
abbrev main_call6_v0 : Ref sig .tc := ⟨.hbm, 92, rfl⟩
abbrev main_call6_v1 : Ref sig .tc := ⟨.hbm, 93, rfl⟩
abbrev main_v56 : Ref sig .tc := ⟨.hbm, 94, rfl⟩
abbrev main_v57 : Ref sig .tc := ⟨.hbm, 95, rfl⟩
abbrev main_cst_18 : Ref sig .tc := ⟨.hbm, 96, rfl⟩
abbrev main_call7_v0 : Ref sig .tc := ⟨.hbm, 97, rfl⟩
abbrev main_call7_v1 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c : Ref sig .tc := ⟨.hbm, 118, rfl⟩
abbrev main_v77 : Ref sig .tc := ⟨.hbm, 119, rfl⟩
abbrev main_v78 : Ref sig .tc := ⟨.hbm, 120, rfl⟩
abbrev main_c_19 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_20 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_21 : Ref sig .tc := ⟨.hbm, 137, rfl⟩
abbrev main_v93 : Ref sig .tc := ⟨.hbm, 138, rfl⟩
abbrev main_v94 : Ref sig .tc := ⟨.hbm, 139, rfl⟩
abbrev main_c_22 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_c_24 : Ref sig .tc := ⟨.hbm, 156, rfl⟩
abbrev main_v109 : Ref sig .tc := ⟨.hbm, 157, rfl⟩
abbrev main_v110 : Ref sig .tc := ⟨.hbm, 158, rfl⟩
abbrev main_c_25 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_26 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_c_27 : Ref sig .tc := ⟨.hbm, 175, rfl⟩
abbrev main_v125 : Ref sig .tc := ⟨.hbm, 176, rfl⟩
abbrev main_v126 : Ref sig .tc := ⟨.hbm, 177, rfl⟩
abbrev main_c_28 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_29 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![10, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![10, 4], ![false, false]⟩

def k1_off1 (i : grid1.Coords) : Fin 2 → Nat :=
  let arg1 : BitVec 32 := BitVec.ofNat 32 (i 1).val
  let v3 : Index := Scalar.indexCast arg1
  let c0 : Index := 0#32
  ![v3.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1000000 : S_.BroadcastsInDim S1000000 (![] : Fin 0 → Fin S1000000.rank)
  slices_S4x1000000_S1x1000000_0_0 : S4x1000000.Slices ![0, 0] S1x1000000
  shapeCasts_S1x1000000_S1000000 : S1x1000000.ShapeCasts S1000000
  bcast_S_S100000 : S_.BroadcastsInDim S100000 (![] : Fin 0 → Fin S100000.rank)
  bcast_S1000000_S1000000x1_0 : S1000000.BroadcastsInDim S1000000x1 (![0] : Fin 1 → Fin S1000000x1.rank)
  slices_S4x1000000_S1x1000000_1_0 : S4x1000000.Slices ![1, 0] S1x1000000
  slices_S4x1000000_S1x1000000_2_0 : S4x1000000.Slices ![2, 0] S1x1000000
  slices_S4x1000000_S1x1000000_3_0 : S4x1000000.Slices ![3, 0] S1x1000000
  bcast_S100000_S1x100000_1 : S100000.BroadcastsInDim S1x100000 (![1] : Fin 1 → Fin S1x100000.rank)
  concatenates_S1x100000_S1x100000_S1x100000_S1x100000_S4x100000_d0 : Shape.Concatenates [S1x100000, S1x100000, S1x100000, S1x100000] S4x100000 0
  bcast_S4x100000_S4x100000x1_0_1 : S4x100000.BroadcastsInDim S4x100000x1 (![0, 1] : Fin 2 → Fin S4x100000x1.rank)
  inb_S10000x128_S10000x128_0_0 : ∀ a, (![0, 0] : Fin 2 → Nat) a + S10000x128.size a ≤ S10000x128.size a
  h_S10000x128 : 0 < S10000x128.numel
  inb_S1x10000x1_S1x10000x1_0_0_0 : ∀ a, (![0, 0, 0] : Fin 3 → Nat) a + S1x10000x1.size a ≤ S1x10000x1.size a
  h_S1x10000x1 : 0 < S1x10000x1.numel
  shapeCasts_S1x10000x1_S10000x1 : S1x10000x1.ShapeCasts S10000x1
  broadcasts_S10000x1_S10000x128 : S10000x1.Broadcasts S10000x128
  bitsLt_bf16_f32 : FTy.bits .bf16 < FTy.bits .f32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  shapeCasts_S10000x64_S1x10000x64 : S10000x64.ShapeCasts S1x10000x64
  slices_S4x100000x64_S1x100000x64_0_0_0 : S4x100000x64.Slices ![0, 0, 0] S1x100000x64
  shapeCasts_S1x100000x64_S100000x64 : S1x100000x64.ShapeCasts S100000x64
  bcast_S_S100000x64 : S_.BroadcastsInDim S100000x64 (![] : Fin 0 → Fin S100000x64.rank)
  slices_S4x100000x64_S1x100000x64_1_0_0 : S4x100000x64.Slices ![1, 0, 0] S1x100000x64
  slices_S4x100000x64_S1x100000x64_2_0_0 : S4x100000x64.Slices ![2, 0, 0] S1x100000x64
  slices_S4x100000x64_S1x100000x64_3_0_0 : S4x100000x64.Slices ![3, 0, 0] S1x100000x64
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  inb_S10000x64_S10000x64_0_0 : ∀ a, (![0, 0] : Fin 2 → Nat) a + S10000x64.size a ≤ S10000x64.size a
  h_S10000x64 : 0 < S10000x64.numel
  h_S1x64 : 0 < S1x64.numel
  shapeCasts_S1x64_S64 : S1x64.ShapeCasts S64
  broadcasts_S10000x1_S10000x64 : S10000x1.Broadcasts S10000x64
  shapeCasts_S64_S1x64 : S64.ShapeCasts S1x64
  broadcasts_S1x64_S10000x64 : S1x64.Broadcasts S10000x64
  shapeCasts_S10000x64_S10000x64 : S10000x64.ShapeCasts S10000x64
  scatter_S100000_S1000000x1_S1000000_n_0_0_1_wf : ScatterDims.WF S100000 S1000000x1 S1000000 [] [0] [0] 1
  dot_S10000x128_S128x64_S10000x64_1_0_0_1_n_n_wf : DotDims.WF S10000x128 S128x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S4x128x64.size a
  hwx0_1 : ∀ i : grid0.Coords, EltTy.bits .f32 = 32 ∨ (Rect.block (s := S4x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x1.size a ≤ S4x100000x1.size a
  hwx0_2 : ∀ i : grid0.Coords, EltTy.bits .f32 = 32 ∨ (Rect.block (s := S4x100000x1) S1x10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10000x64.size a ≤ S4x100000x64.size a
  hwx0_3 : ∀ i : grid0.Coords, EltTy.bits .f32 = 32 ∨ (Rect.block (s := S4x100000x64) S1x10000x64.size (cc0_transform_3 i) (hinb0_3 i)).WholeWords (EltTy.packing .f32)
  hrank1 : 0 < grid1.rank
  k1_off1_inb : ∀ i : grid1.Coords, ∀ a, (k1_off1 i) a + S1x64.size a ≤ S4x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x10000x64.size a ≤ S4x100000x64.size a
  hwx1_0 : ∀ i : grid1.Coords, EltTy.bits .f32 = 32 ∨ (Rect.block (s := S4x100000x64) S1x10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x10000x1.size a ≤ S4x100000x1.size a
  hwx1_1 : ∀ i : grid1.Coords, EltTy.bits .f32 = 32 ∨ (Rect.block (s := S4x100000x1) S1x10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x64.size a ≤ S4x64.size a
  hwx1_2 : ∀ i : grid1.Coords, EltTy.bits .f32 = 32 ∨ (Rect.block (s := S4x64) S4x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v65) S1x10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S1x10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v141) S1x10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S1x10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v142) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S4x128x64 : Shape := ⟨3, ![4, 128, 64]⟩
abbrev S4x64 : Shape := ⟨2, ![4, 64]⟩
abbrev S4x1000000 : Shape := ⟨2, ![4, 1000000]⟩
abbrev S_ : Shape := ⟨0, ![]⟩
abbrev S100000x64 : Shape := ⟨2, ![100000, 64]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩

abbrev nBuf : Space → Nat
  | .hbm => 215
  | .vmem => 0
  | .smem => 0
  | _ => 0

abbrev hbmTy0_0 (i : Nat) : BufTy := match i % 128 with
  | 0 => ⟨S100000x128, .f32⟩
  | 1 => ⟨S4x128x64, .f32⟩
  | 2 => ⟨S4x64, .f32⟩
  | 3 => ⟨S4x1000000, .i32⟩
  | 4 => ⟨S4x1000000, .i32⟩
  | 5 => ⟨S_, .f32⟩
  | 6 => ⟨S100000x64, .f32⟩
  | 7 => ⟨S1x128x64, .f32⟩
  | 8 => ⟨S128x64, .f32⟩
  | 9 => ⟨S1x64, .f32⟩
  | 10 => ⟨S64, .f32⟩
  | 11 => ⟨S1x1000000, .i32⟩
  | 12 => ⟨S1000000, .i32⟩
  | 13 => ⟨S1x1000000, .i32⟩
  | 14 => ⟨S1000000, .i32⟩
  | 15 => ⟨S_, .f32⟩
  | 16 => ⟨S1000000, .f32⟩
  | 17 => ⟨S_, .f32⟩
  | 18 => ⟨S100000, .f32⟩
  | 19 => ⟨S1000000x1, .i32⟩
  | 20 => ⟨S100000, .f32⟩
  | 21 => ⟨S_, .f32⟩
  | 22 => ⟨S100000, .f32⟩
  | 23 => ⟨S1000000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S100000x64, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x64, .f32⟩
  | 48 => ⟨S_, .f32⟩
  | 49 => ⟨S100000x64, .f32⟩
  | 50 => ⟨S1000000x1, .i32⟩
  | 51 => ⟨S100000x64, .f32⟩
  | 52 => ⟨S100000x1, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S100000x64, .f32⟩
  | 59 => ⟨S1x128x64, .f32⟩
  | 60 => ⟨S128x64, .f32⟩
  | 61 => ⟨S1x64, .f32⟩
  | 62 => ⟨S64, .f32⟩
  | 63 => ⟨S1x1000000, .i32⟩
  | 64 => ⟨S1000000, .i32⟩
  | 65 => ⟨S1x1000000, .i32⟩
  | 66 => ⟨S1000000, .i32⟩
  | 67 => ⟨S_, .f32⟩
  | 68 => ⟨S1000000, .f32⟩
  | 69 => ⟨S_, .f32⟩
  | 70 => ⟨S100000, .f32⟩
  | 71 => ⟨S1000000x1, .i32⟩
  | 72 => ⟨S100000, .f32⟩
  | 73 => ⟨S_, .f32⟩
  | 74 => ⟨S100000, .f32⟩
  | 75 => ⟨S1000000x1, .i32⟩
  | 76 => ⟨S100000, .f32⟩
  | 77 => ⟨S_, .f32⟩
  | 78 => ⟨S_, .f32⟩
  | 79 => ⟨S100000, .f32⟩
  | 80 => ⟨S100000, .f32⟩
  | 81 => ⟨S100000, .f32⟩
  | 82 => ⟨S_, .f32⟩
  | 83 => ⟨S_, .f32⟩
  | 84 => ⟨S100000, .f32⟩
  | 85 => ⟨S100000, .f32⟩
  | 86 => ⟨S100000, .f32⟩
  | 87 => ⟨S100000x1, .f32⟩
  | 88 => ⟨S100000x128, .f32⟩
  | 89 => ⟨S100000x128, .f32⟩
  | 90 => ⟨S100000x64, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S_, .f32⟩
  | 101 => ⟨S100000x64, .f32⟩
  | 102 => ⟨S1000000x1, .i32⟩
  | 103 => ⟨S100000x64, .f32⟩
  | 104 => ⟨S100000x1, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S100000x64, .f32⟩
  | 111 => ⟨S1x128x64, .f32⟩
  | 112 => ⟨S128x64, .f32⟩
  | 113 => ⟨S1x64, .f32⟩
  | 114 => ⟨S64, .f32⟩
  | 115 => ⟨S1x1000000, .i32⟩
  | 116 => ⟨S1000000, .i32⟩
  | 117 => ⟨S1x1000000, .i32⟩
  | 118 => ⟨S1000000, .i32⟩
  | 119 => ⟨S_, .f32⟩
  | 120 => ⟨S1000000, .f32⟩
  | 121 => ⟨S_, .f32⟩
  | 122 => ⟨S100000, .f32⟩
  | 123 => ⟨S1000000x1, .i32⟩
  | 124 => ⟨S100000, .f32⟩
  | 125 => ⟨S_, .f32⟩
  | 126 => ⟨S100000, .f32⟩
  | 127 => ⟨S1000000x1, .i32⟩
  | _ => ⟨S100000x128, .f32⟩

abbrev hbmTy0_1 (i : Nat) : BufTy := match i % 128 with
  | 0 => ⟨S100000, .f32⟩
  | 1 => ⟨S_, .f32⟩
  | 2 => ⟨S_, .f32⟩
  | 3 => ⟨S100000, .f32⟩
  | 4 => ⟨S100000, .f32⟩
  | 5 => ⟨S100000, .f32⟩
  | 6 => ⟨S_, .f32⟩
  | 7 => ⟨S_, .f32⟩
  | 8 => ⟨S100000, .f32⟩
  | 9 => ⟨S100000, .f32⟩
  | 10 => ⟨S100000, .f32⟩
  | 11 => ⟨S100000x1, .f32⟩
  | 12 => ⟨S100000x128, .f32⟩
  | 13 => ⟨S100000x128, .f32⟩
  | 14 => ⟨S100000x64, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S_, .f32⟩
  | 25 => ⟨S100000x64, .f32⟩
  | 26 => ⟨S1000000x1, .i32⟩
  | 27 => ⟨S100000x64, .f32⟩
  | 28 => ⟨S100000x1, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S100000x64, .f32⟩
  | 35 => ⟨S1x128x64, .f32⟩
  | 36 => ⟨S128x64, .f32⟩
  | 37 => ⟨S1x64, .f32⟩
  | 38 => ⟨S64, .f32⟩
  | 39 => ⟨S1x1000000, .i32⟩
  | 40 => ⟨S1000000, .i32⟩
  | 41 => ⟨S1x1000000, .i32⟩
  | 42 => ⟨S1000000, .i32⟩
  | 43 => ⟨S_, .f32⟩
  | 44 => ⟨S1000000, .f32⟩
  | 45 => ⟨S_, .f32⟩
  | 46 => ⟨S100000, .f32⟩
  | 47 => ⟨S1000000x1, .i32⟩
  | 48 => ⟨S100000, .f32⟩
  | 49 => ⟨S_, .f32⟩
  | 50 => ⟨S100000, .f32⟩
  | 51 => ⟨S1000000x1, .i32⟩
  | 52 => ⟨S100000, .f32⟩
  | 53 => ⟨S_, .f32⟩
  | 54 => ⟨S_, .f32⟩
  | 55 => ⟨S100000, .f32⟩
  | 56 => ⟨S100000, .f32⟩
  | 57 => ⟨S100000, .f32⟩
  | 58 => ⟨S_, .f32⟩
  | 59 => ⟨S_, .f32⟩
  | 60 => ⟨S100000, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x64, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x64, .f32⟩
  | 76 => ⟨S_, .f32⟩
  | 77 => ⟨S100000x64, .f32⟩
  | 78 => ⟨S1000000x1, .i32⟩
  | 79 => ⟨S100000x64, .f32⟩
  | 80 => ⟨S100000x1, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_call2_v0 : Ref sig .tc := ⟨.hbm, 78, rfl⟩
abbrev main_call2_v1 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_call3_v0 : Ref sig .tc := ⟨.hbm, 83, rfl⟩
abbrev main_call3_v1 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_15 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_18 : Ref sig .tc := ⟨.hbm, 129, rfl⟩
abbrev main_call4_v0 : Ref sig .tc := ⟨.hbm, 130, rfl⟩
abbrev main_call4_v1 : Ref sig .tc := ⟨.hbm, 131, rfl⟩
abbrev main_v96 : Ref sig .tc := ⟨.hbm, 132, rfl⟩
abbrev main_v97 : Ref sig .tc := ⟨.hbm, 133, rfl⟩
abbrev main_cst_19 : Ref sig .tc := ⟨.hbm, 134, rfl⟩
abbrev main_call5_v0 : Ref sig .tc := ⟨.hbm, 135, rfl⟩
abbrev main_call5_v1 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_20 : Ref sig .tc := ⟨.hbm, 143, rfl⟩
abbrev main_v104 : Ref sig .tc := ⟨.hbm, 144, rfl⟩
abbrev main_v105 : Ref sig .tc := ⟨.hbm, 145, rfl⟩
abbrev main_c_21 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_22 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_23 : Ref sig .tc := ⟨.hbm, 171, rfl⟩
abbrev main_v129 : Ref sig .tc := ⟨.hbm, 172, rfl⟩
abbrev main_cst_24 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_25 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_26 : Ref sig .tc := ⟨.hbm, 181, rfl⟩
abbrev main_call6_v0 : Ref sig .tc := ⟨.hbm, 182, rfl⟩
abbrev main_call6_v1 : Ref sig .tc := ⟨.hbm, 183, rfl⟩
abbrev main_v136 : Ref sig .tc := ⟨.hbm, 184, rfl⟩
abbrev main_v137 : Ref sig .tc := ⟨.hbm, 185, rfl⟩
abbrev main_cst_27 : Ref sig .tc := ⟨.hbm, 186, rfl⟩
abbrev main_call7_v0 : Ref sig .tc := ⟨.hbm, 187, rfl⟩
abbrev main_call7_v1 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_c_28 : Ref sig .tc := ⟨.hbm, 195, rfl⟩
abbrev main_v144 : Ref sig .tc := ⟨.hbm, 196, rfl⟩
abbrev main_v145 : Ref sig .tc := ⟨.hbm, 197, rfl⟩
abbrev main_c_29 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_30 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  slices_S4x1000000_S1x1000000_0_0 : S4x1000000.Slices ![0, 0] S1x1000000
  shapeCasts_S1x1000000_S1000000 : S1x1000000.ShapeCasts S1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x128x64_S1x128x64_1_0_0 : S4x128x64.Slices ![1, 0, 0] S1x128x64
  slices_S4x64_S1x64_1_0 : S4x64.Slices ![1, 0] S1x64
  slices_S4x1000000_S1x1000000_1_0 : S4x1000000.Slices ![1, 0] S1x1000000
  slices_S4x128x64_S1x128x64_2_0_0 : S4x128x64.Slices ![2, 0, 0] S1x128x64
  slices_S4x64_S1x64_2_0 : S4x64.Slices ![2, 0] S1x64
  slices_S4x1000000_S1x1000000_2_0 : S4x1000000.Slices ![2, 0] S1x1000000
  slices_S4x128x64_S1x128x64_3_0_0 : S4x128x64.Slices ![3, 0, 0] S1x128x64
  slices_S4x64_S1x64_3_0 : S4x64.Slices ![3, 0] S1x64
  slices_S4x1000000_S1x1000000_3_0 : S4x1000000.Slices ![3, 0] S1x1000000
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.K.Reg0.lean ====
/-
  The first launch of the kernel program, at the buffer contents `V` its region is entered with: the projection
  kernel computes, per grid point (node block i, edge type k), the block product
  `(h_blk * norm_src_blk) @ W_k` and stores it whole into its output block. What the output block holds after the
  body is the single store's payload over the three input blocks; the inputs are left in place.
-/
import proofs.«169069_j12051678233154_1_alg».proof.Proof.Gen.Kernel.Launch
import proofs.«169069_j12051678233154_1_alg».proof.Proof.Gen.Kernel.Skeleton
import proofs.«169069_j12051678233154_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rh : Rect S10000x128 := Rect.unit (s := S10000x128) ![0, 0] S10000x128.size inb_S10000x128_S10000x128_0_0
abbrev rw0 : Rect S1x128x64 := Rect.unit (s := S1x128x64) ![0, 0, 0] S1x128x64.size inb_S1x128x64_S1x128x64_0_0_0
abbrev rn : Rect S1x10000x1 := Rect.unit (s := S1x10000x1) ![0, 0, 0] S1x10000x1.size inb_S1x10000x1_S1x10000x1_0_0_0
abbrev ro : Rect S1x10000x64 := Rect.unit (s := S1x10000x64) ![0, 0, 0] S1x10000x64.size inb_S1x10000x64_S1x10000x64_0_0_0

/-- The output block after the body: its one store, the block product of the scaled node block with the weight block. -/
def out0_3 (x0 : Vec F S10000x128 .f32) (x1 : Vec F S1x128x64 .f32) (x2 : Vec F S1x10000x1 .f32) : Vec F S1x10000x64 .f32 :=
  View.canon [⟨ro, k0_pay1 (View.ld x0 rh) (View.ld x2 rn) (View.ld x1 rw0)⟩]

/-- The store covers the output block. -/
theorem cover0_3 (p0 : Vec F S1x10000x64 .f32) (y : S1x10000x64.Idx) :
    ∃ pc ∈ ([⟨ro, p0⟩] : List (View.Piece (Elt F) S1x10000x64 .f32)), y ∈ pc.1.set :=
  View.cover_of_tiled [⟨ro, p0⟩] S1x10000x64.size (by rfl) y

set_option maxHeartbeats 1000000 in
/-- The body on whole staging memrefs: the inputs' contents are kept, the output's ends at `out0_3` of them. -/
theorem sound_kernel0 (c : Dev nD) (E : Set ℕ) (i : grid0.Coords)
    (arg2 : Memref sig .tc .vmem S10000x128 .f32) (harg2 : arg2.IsWhole) (arg3 : Memref sig .tc .vmem S1x128x64 .f32) (harg3 : arg3.IsWhole)
    (arg4 : Memref sig .tc .vmem S1x10000x1 .f32) (harg4 : arg4.IsWhole) (arg5 : Memref sig .tc .vmem S1x10000x64 .f32) (harg5 : arg5.IsWhole)
    (x0 : Vec F S10000x128 .f32) (x1 : Vec F S1x128x64 .f32) (x2 : Vec F S1x10000x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__feat_kernel i arg2 harg2 arg3 harg3 arg4 harg4 arg5 harg5) K := by
  simp only [cc0__feat_kernel_eq_skeleton]; unfold cc0__feat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first launch on core `c`: the arrays as the region finds them; after the body at point `t`
    each input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1Runs.lean ====
/- REGION 1 (the second pallas_call, kernel function cc1__combine_kernel, pipeline 1) of the frame proof of
   Kernel, at a parameter V — the TensorCore's buffer contents when the region is entered. This module holds
   what the whole-body runs of the two cases share: each window's block at a point, what the three input windows'
   staging buffers hold at every point, the body's one branch condition in closed form, and the current staging
   memrefs of the windows. -/
import proofs.«169069_j12051678233154_1_alg».proof.Proof.Gen.Kernel.Launch
import proofs.«169069_j12051678233154_1_alg».proof.Proof.Gen.Kernel.Skeleton
import proofs.«169069_j12051678233154_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2, whose index map is constant: it is fetched at the first point only, and at every
    later point its buffer still holds that block, which is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional (`k1_h1`), from the grid coordinates (the skeleton's scalar chain
    substituted): the second coordinate is 0. -/
abbrev cond1_0 (i : grid1.Coords) : Prop := (Scalar.cmpi .ne (Scalar.extui (Scalar.cmpi .eq (BitVec.ofNat 32 (i 1).val) 0#32)) 0#32) = 1#1
/-- It holds at the first point of each group of 4 only — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The staging memrefs the body is called with -/

/-- One staging buffer of output window 3, through which its contents are stated (the choice does not matter:
    `View.read_writes_of_cover`). -/
abbrev VO1_3 : View sig .tc .vmem S10000x64 .f32 := (Memref.whole cc1_stg3_0 : Memref sig .tc .vmem S10000x64 .f32).view
/-- Each window's current staging memref at point `t`, spelled as the pipeline passes it (`bodyAt1`), and its wholeness. -/
abbrev ms1_0 (t : Fin cfg1.N) : Memref sig .tc .vmem S1x10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x10000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S10000x64 .f32 := win1_3.stage (cfg1.slots t 3)
abbrev hs1_3 (t : Fin cfg1.N) : (ms1_3 t).IsWhole := hstage1_3 ((cfg1.slots t 3).cast nbuf1_3)

end Cert.Kernel.Hand

end
-- ==== Proof.K.Reg1RunA.lean ====
/- REGION 1 of the frame proof of Kernel: the whole-body RUN of cc1__combine_kernel in CASE A (the body's
   conditional taken: the first point of each group of 4). The body's triple by symbolic execution of the skeleton;
   the pieces the output's buffer ends with are the witness the run finds. -/
import proofs.«169069_j12051678233154_1_alg».proof.Proof.K.Reg1Runs

-- membership in a rectangle of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref, as pieces (last first) IN CASE A (the conditional
    taken), WITH the proof that on whole staging memrefs — the inputs' at their contents, the output's at anything —
    the body runs to the continuation holding the inputs' as they were and the output's buffer with its pieces
    written: the printed function is its skeleton, which symbolic execution runs, the conditional decided by the
    case's hypothesis; the pieces are the witness that run finds. -/
noncomputable def kernelRun1_A (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : cond1_0 i)
    (x0 : Vec F S1x10000x64 .f32) (x1 : Vec F S1x10000x1 .f32) (x2 : Vec F S4x64 .f32) :
    { L3 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__combine_kernel i arg2 harg2 arg3 harg3 arg4 harg4 arg5 harg5) K } := by
  refine ⟨?_, fun E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Reg1RunB.lean ====
/- REGION 1 of the frame proof of Kernel: the whole-body RUN of cc1__combine_kernel in CASE B (the body's
   conditional not taken: the later points of each group of 4). The body reads the output's buffer before covering
   it, so the run takes the buffer's contents as a parameter. -/
import proofs.«169069_j12051678233154_1_alg».proof.Proof.K.Reg1RunA

-- membership in a rectangle of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref, as pieces (last first) IN CASE B (the conditional
    not taken), WITH the proof that on whole staging memrefs — the inputs' at their contents, the output's, which
    the body reads before covering, at its running contents `xo3` — the body runs to the continuation holding the
    inputs' as they were and the output's buffer with its pieces written. -/
noncomputable def kernelRun1_B (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : ¬cond1_0 i)
    (x0 : Vec F S1x10000x64 .f32) (x1 : Vec F S1x10000x1 .f32) (x2 : Vec F S4x64 .f32) (xo3 : Vec F S10000x64 .f32) :
    { L3 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__combine_kernel i arg2 harg2 arg3 harg3 arg4 harg4 arg5 harg5) K } := by
  refine ⟨?_, fun E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Reg1.lean ====
/- REGION 1 of the frame proof of Kernel, its last module: what the output window's staging buffer holds per
   case (the covers, `out1_A_3`, `out1_B_3`) and point by point (`outsAt1`: the accumulator, reset at the first
   point of each group of 4 and added to at the later ones), the pipeline's proof data at the entry contents `V`
   (`dat1`), and the body obligation (`body_obligation1`). -/
import proofs.«169069_j12051678233154_1_alg».proof.Proof.K.Reg1RunB

-- membership in a rectangle of large extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-- Case A's pieces for the output tile its block (2 stores of the whole block), so they cover it. -/
theorem cover1_A_3 (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : cond1_0 i)
    (x0 : Vec F S1x10000x64 .f32) (x1 : Vec F S1x10000x1 .f32) (x2 : Vec F S4x64 .f32) (y : S10000x64.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S10000x64.size (by sl_kernel_rfl) y

/-- What case A leaves in the output's staging buffer: its pieces read back over junk. -/
def out1_A_3 (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : cond1_0 i)
    (x0 : Vec F S1x10000x64 .f32) (x1 : Vec F S1x10000x1 .f32) (x2 : Vec F S4x64 .f32) : Vec F S10000x64 .f32 :=
  VO1_3.read (Elt F) (VO1_3.writes (Elt F) VO1_3.junk (kernelRun1_A c i arg2 harg2 arg3 harg3 arg4 harg4 arg5 harg5 hc0 x0 x1 x2).1)

/-- Case B's pieces for the output tile its block (1 store of the whole block), so they cover it. -/
theorem cover1_B_3 (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : ¬cond1_0 i)
    (x0 : Vec F S1x10000x64 .f32) (x1 : Vec F S1x10000x1 .f32) (x2 : Vec F S4x64 .f32) (xo3 : Vec F S10000x64 .f32) (y : S10000x64.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S10000x64.size (by sl_kernel_rfl) y

/-- What case B leaves in the output's staging buffer: its pieces read back over junk. -/
def out1_B_3 (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : ¬cond1_0 i)
    (x0 : Vec F S1x10000x64 .f32) (x1 : Vec F S1x10000x1 .f32) (x2 : Vec F S4x64 .f32) (xo3 : Vec F S10000x64 .f32) : Vec F S10000x64 .f32 :=
  VO1_3.read (Elt F) (VO1_3.writes (Elt F) VO1_3.junk (kernelRun1_B c i arg2 harg2 arg3 harg3 arg4 harg4 arg5 harg5 hc0 x0 x1 x2 xo3).1)

/-! ## What the output holds after each point -/

/-- THE ACCUMULATION. What the output's staging buffer holds after the body at position `n`: the case the closed
    form selects at `n`, run at the point's memrefs and input blocks; in case B, over what this leaves at `n - 1`
    (the buffer is not written back between). -/
def outsAt1 (c : Dev nD) : (n : ℕ) → n < cfg1.N → Vec F S10000x64 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _))
      (iblk1 V c 0 ⟨0, hn⟩) (iblk1 V c 1 ⟨0, hn⟩) (iblk1 V c 2 ⟨0, hn⟩)
  | n + 1, hn =>
    if h0 : (n + 1) % 4 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0)
        (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h))
        (iblk1 V c 0 ⟨n + 1, hn⟩) (iblk1 V c 1 ⟨n + 1, hn⟩) (iblk1 V c 2 ⟨n + 1, hn⟩) (outsAt1 c n (Nat.lt_of_succ_lt hn))

/-- `outsAt1` at a point of case A: that case's contents. -/
theorem outsAt1_A (c : Dev nD) (t : Fin cfg1.N) (h0 : t.val % 4 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0)
      (iblk1 V c 0 t) (iblk1 V c 1 t) (iblk1 V c 2 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h))
      (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point
    `t` each input's buffer at its block and the output's at `outsAt1`; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B the output's current staging buffer holds what the body left at the point before: the point
    is not the first, and the buffer was not written back between (a write-back happens after the points ≡ 3 mod 4
    only, and the point before a point ≢ 0 is ≢ 3); the window is live and uncut. -/
theorem before1_3_B (c : Dev nD) (t : Fin cfg1.N) (h0 : ¬t.val % 4 = 0) (d) :
    (dat1 V c).before 3 t d = (outsAt1 V c (t.val - 1) (Nat.lt_of_le_of_lt (Nat.sub_le _ _) t.isLt)) := by
  have hN : t.val < 40 := lt_of_lt_of_eq t.isLt (show cfg1.N = 40 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; the closed form says which case the point is in;
    in case B the output's buffer holds what the point before left; so the case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 40 := lt_of_lt_of_eq t.isLt (show cfg1.N = 40 from N_1)
  by_cases h0 : t.val % 4 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The kernel program's run, from the launch to the return: seventeen stretches of host operations (the degree
  histograms, their clipped inverse square roots, the stacking of the per-edge-type norms), the projection launch,
  one stretch of host operations (per edge type: the gather of projected rows by source node and their
  accumulation by destination node, then the stacking), and the combine launch. The buffer contents at every
  boundary are a fold from the launch memory; every argument array reaches the end as launched, and each launch
  leaves its output array at what its write-backs fold to.
-/
import proofs.«169069_j12051678233154_1_alg».proof.Proof.Gen.Kernel.Launch
import proofs.«169069_j12051678233154_1_alg».proof.Proof.Gen.Kernel.Skeleton
import proofs.«169069_j12051678233154_1_alg».proof.Proof.Gen.Kernel.Points
import proofs.«169069_j12051678233154_1_alg».proof.Proof.K.Reg0
import proofs.«169069_j12051678233154_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
abbrev W12 : Dev nD → Valuation τ sig (Elt F) := fun c => StableHlo.after hostOps0_11 (W11 m ρ c)
abbrev W13 : Dev nD → Valuation τ sig (Elt F) := fun c => StableHlo.after hostOps0_12 (W12 m ρ c)
abbrev W14 : Dev nD → Valuation τ sig (Elt F) := fun c => StableHlo.after hostOps0_13 (W13 m ρ c)
abbrev W15 : Dev nD → Valuation τ sig (Elt F) := fun c => StableHlo.after hostOps0_14 (W14 m ρ c)
abbrev W16 : Dev nD → Valuation τ sig (Elt F) := fun c => StableHlo.after hostOps0_15 (W15 m ρ c)
abbrev W17 : Dev nD → Valuation τ sig (Elt F) := fun c => StableHlo.after hostOps0_16 (W16 m ρ c)

/-- The contents the projection launch is entered with, read at the TensorCore's references. -/
abbrev V17 : (c : Dev nD) → (b : Ref sig .tc) → Buf (Elt F) ((c : Thread nD τ).loc b) := fun c b => W17 m ρ c b
/-- At the projection launch's exit: its arrays at what the pipeline leaves, every other buffer as entered. -/
def W18 (c : Dev nD) : Valuation τ sig (Elt F) :=
  Pipeline.withArrays spec0 c (W17 m ρ c) fun w => (dat0 (V17 m ρ) c).arrAt w cfg0.N
theorem W18_arr (c : Dev nD) (w : Fin cfg0.W) :
    W18 m ρ c (Proc.devRef .tc (Pipeline.arrRef spec0 w)) = (dat0 (V17 m ρ) c).arrAt w cfg0.N := by
  unfold W18; exact Pipeline.withArrays_arr spec0 launch0.win.arr_inj c _ _ w
theorem W18_of_ne (c : Dev nD) (b : Ref sig .tc) (hb : ∀ w, Pipeline.arrRef spec0 w ≠ b) :
    W18 m ρ c (Proc.devRef .tc b) = W17 m ρ c (Proc.devRef .tc b) := by
  unfold W18; exact Pipeline.withArrays_of_ne spec0 c _ _ b hb
abbrev V18 : (c : Dev nD) → (b : Ref sig .tc) → Buf (Elt F) ((c : Thread nD τ).loc b) := fun c b => W18 m ρ c b
theorem hF0 (c : Dev nD) (w : Fin cfg0.W) : (dat0 (V17 m ρ) c).arrAt w cfg0.N = V18 m ρ c (Pipeline.arrRef spec0 w) :=
  (W18_arr m ρ c w).symm
theorem hrest0 (c : Dev nD) : ∀ b, b ∉ Finset.univ.image (Pipeline.arrRef spec0) → V18 m ρ c b = V17 m ρ c b :=
  fun b hb => W18_of_ne m ρ c b fun w e => hb (Finset.mem_image.mpr ⟨w, Finset.mem_univ _, e⟩)

/-- After the gather / accumulate stretch: the combine launch's entry. -/
abbrev W19 : Dev nD → Valuation τ sig (Elt F) := fun c => StableHlo.after hostOps1 (W18 m ρ c)
abbrev V19 : (c : Dev nD) → (b : Ref sig .tc) → Buf (Elt F) ((c : Thread nD τ).loc b) := fun c b => W19 m ρ c b
/-- At the combine launch's exit. -/
def W20 (c : Dev nD) : Valuation τ sig (Elt F) :=
  Pipeline.withArrays spec1 c (W19 m ρ c) fun w => (dat1 (V19 m ρ) c).arrAt w cfg1.N
theorem W20_arr (c : Dev nD) (w : Fin cfg1.W) :
    W20 m ρ c (Proc.devRef .tc (Pipeline.arrRef spec1 w)) = (dat1 (V19 m ρ) c).arrAt w cfg1.N := by
  unfold W20; exact Pipeline.withArrays_arr spec1 launch1.win.arr_inj c _ _ w
theorem W20_of_ne (c : Dev nD) (b : Ref sig .tc) (hb : ∀ w, Pipeline.arrRef spec1 w ≠ b) :
    W20 m ρ c (Proc.devRef .tc b) = W19 m ρ c (Proc.devRef .tc b) := by
  unfold W20; exact Pipeline.withArrays_of_ne spec1 c _ _ b hb
abbrev V20 : (c : Dev nD) → (b : Ref sig .tc) → Buf (Elt F) ((c : Thread nD τ).loc b) := fun c b => W20 m ρ c b
theorem hF1 (c : Dev nD) (w : Fin cfg1.W) : (dat1 (V19 m ρ) c).arrAt w cfg1.N = V20 m ρ c (Pipeline.arrRef spec1 w) :=
  (W20_arr m ρ c w).symm
theorem hrest1 (c : Dev nD) : ∀ b, b ∉ Finset.univ.image (Pipeline.arrRef spec1) → V20 m ρ c b = V19 m ρ c b :=
  fun b hb => W20_of_ne m ρ c b fun w e => hb (Finset.mem_image.mpr ⟨w, Finset.mem_univ _, e⟩)

/-! ## No host operation allocates; none writes an argument array -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The five argument arrays. -/
abbrev argRef : Fin 5 → Ref sig .tc := ![main_arg0, main_arg1, main_arg2, main_arg3, main_arg4]

theorem hostOps0_keep (a : Fin 5) (Wv : Valuation τ sig (Elt F)) :
    StableHlo.after hostOps0 Wv (Proc.devRef .tc (argRef a)) = Wv (Proc.devRef .tc (argRef a)) :=
  StableHlo.after_of_forall_not_mem (b := Proc.devRef .tc (argRef a)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_1_keep (a : Fin 5) (Wv : Valuation τ sig (Elt F)) :
    StableHlo.after hostOps0_1 Wv (Proc.devRef .tc (argRef a)) = Wv (Proc.devRef .tc (argRef a)) :=
  StableHlo.after_of_forall_not_mem (b := Proc.devRef .tc (argRef a)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_2_keep (a : Fin 5) (Wv : Valuation τ sig (Elt F)) :
    StableHlo.after hostOps0_2 Wv (Proc.devRef .tc (argRef a)) = Wv (Proc.devRef .tc (argRef a)) :=
  StableHlo.after_of_forall_not_mem (b := Proc.devRef .tc (argRef a)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_3_keep (a : Fin 5) (Wv : Valuation τ sig (Elt F)) :
    StableHlo.after hostOps0_3 Wv (Proc.devRef .tc (argRef a)) = Wv (Proc.devRef .tc (argRef a)) :=
  StableHlo.after_of_forall_not_mem (b := Proc.devRef .tc (argRef a)) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_4_keep (a : Fin 5) (Wv : Valuation τ sig (Elt F)) :
    StableHlo.after hostOps0_4 Wv (Proc.devRef .tc (argRef a)) = Wv (Proc.devRef .tc (argRef a)) :=
  StableHlo.after_of_forall_not_mem (b := Proc.devRef .tc (argRef a)) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_5_keep (a : Fin 5) (Wv : Valuation τ sig (Elt F)) :
    StableHlo.after hostOps0_5 Wv (Proc.devRef .tc (argRef a)) = Wv (Proc.devRef .tc (argRef a)) :=
  StableHlo.after_of_forall_not_mem (b := Proc.devRef .tc (argRef a)) _ _ (List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_6_keep (a : Fin 5) (Wv : Valuation τ sig (Elt F)) :
    StableHlo.after hostOps0_6 Wv (Proc.devRef .tc (argRef a)) = Wv (Proc.devRef .tc (argRef a)) :=
  StableHlo.after_of_forall_not_mem (b := Proc.devRef .tc (argRef a)) _ _ (List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_7_keep (a : Fin 5) (Wv : Valuation τ sig (Elt F)) :
    StableHlo.after hostOps0_7 Wv (Proc.devRef .tc (argRef a)) = Wv (Proc.devRef .tc (argRef a)) :=
  StableHlo.after_of_forall_not_mem (b := Proc.devRef .tc (argRef a)) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_8_keep (a : Fin 5) (Wv : Valuation τ sig (Elt F)) :
    StableHlo.after hostOps0_8 Wv (Proc.devRef .tc (argRef a)) = Wv (Proc.devRef .tc (argRef a)) :=
  StableHlo.after_of_forall_not_mem (b := Proc.devRef .tc (argRef a)) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_9_keep (a : Fin 5) (Wv : Valuation τ sig (Elt F)) :
    StableHlo.after hostOps0_9 Wv (Proc.devRef .tc (argRef a)) = Wv (Proc.devRef .tc (argRef a)) :=
  StableHlo.after_of_forall_not_mem (b := Proc.devRef .tc (argRef a)) _ _ (List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_10_keep (a : Fin 5) (Wv : Valuation τ sig (Elt F)) :
    StableHlo.after hostOps0_10 Wv (Proc.devRef .tc (argRef a)) = Wv (Proc.devRef .tc (argRef a)) :=
  StableHlo.after_of_forall_not_mem (b := Proc.devRef .tc (argRef a)) _ _ (List.forall_iff_forall_mem.mp (by
    simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_11_keep (a : Fin 5) (Wv : Valuation τ sig (Elt F)) :
    StableHlo.after hostOps0_11 Wv (Proc.devRef .tc (argRef a)) = Wv (Proc.devRef .tc (argRef a)) :=
  StableHlo.after_of_forall_not_mem (b := Proc.devRef .tc (argRef a)) _ _ (List.forall_iff_forall_mem.mp (by
    simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_12_keep (a : Fin 5) (Wv : Valuation τ sig (Elt F)) :
    StableHlo.after hostOps0_12 Wv (Proc.devRef .tc (argRef a)) = Wv (Proc.devRef .tc (argRef a)) :=
  StableHlo.after_of_forall_not_mem (b := Proc.devRef .tc (argRef a)) _ _ (List.forall_iff_forall_mem.mp (by
    simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_13_keep (a : Fin 5) (Wv : Valuation τ sig (Elt F)) :
    StableHlo.after hostOps0_13 Wv (Proc.devRef .tc (argRef a)) = Wv (Proc.devRef .tc (argRef a)) :=
  StableHlo.after_of_forall_not_mem (b := Proc.devRef .tc (argRef a)) _ _ (List.forall_iff_forall_mem.mp (by
    simp only [hostOps0_13, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_14_keep (a : Fin 5) (Wv : Valuation τ sig (Elt F)) :
    StableHlo.after hostOps0_14 Wv (Proc.devRef .tc (argRef a)) = Wv (Proc.devRef .tc (argRef a)) :=
  StableHlo.after_of_forall_not_mem (b := Proc.devRef .tc (argRef a)) _ _ (List.forall_iff_forall_mem.mp (by
    simp only [hostOps0_14, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_15_keep (a : Fin 5) (Wv : Valuation τ sig (Elt F)) :
    StableHlo.after hostOps0_15 Wv (Proc.devRef .tc (argRef a)) = Wv (Proc.devRef .tc (argRef a)) :=
  StableHlo.after_of_forall_not_mem (b := Proc.devRef .tc (argRef a)) _ _ (List.forall_iff_forall_mem.mp (by
    simp only [hostOps0_15, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_16_keep (a : Fin 5) (Wv : Valuation τ sig (Elt F)) :
    StableHlo.after hostOps0_16 Wv (Proc.devRef .tc (argRef a)) = Wv (Proc.devRef .tc (argRef a)) :=
  StableHlo.after_of_forall_not_mem (b := Proc.devRef .tc (argRef a)) _ _ (List.forall_iff_forall_mem.mp (by
    simp only [hostOps0_16, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps1_keep (a : Fin 5) (Wv : Valuation τ sig (Elt F)) :
    StableHlo.after hostOps1 Wv (Proc.devRef .tc (argRef a)) = Wv (Proc.devRef .tc (argRef a)) :=
  StableHlo.after_of_forall_not_mem (b := Proc.devRef .tc (argRef a)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))

/-- An argument array is as launched when the projection launch is entered. -/
theorem W17_arg (a : Fin 5) (c : Dev nD) :
    W17 m ρ c (Proc.devRef .tc (argRef a)) = W0 m ρ c (Proc.devRef .tc (argRef a)) :=
  (hostOps0_16_keep a _).trans <| (hostOps0_15_keep a _).trans <| (hostOps0_14_keep a _).trans <| (hostOps0_13_keep a _).trans <| (hostOps0_12_keep a _).trans <| (hostOps0_11_keep a _).trans <| (hostOps0_10_keep a _).trans <| (hostOps0_9_keep a _).trans <| (hostOps0_8_keep a _).trans <| (hostOps0_7_keep a _).trans <| (hostOps0_6_keep a _).trans <| (hostOps0_5_keep a _).trans <| (hostOps0_4_keep a _).trans <| (hostOps0_3_keep a _).trans <| (hostOps0_2_keep a _).trans <| (hostOps0_1_keep a _).trans <| (hostOps0_keep a _)

/-- The projection launch reads the node features and the weights through input windows and writes neither. -/
theorem W18_arg (a : Fin 5) (c : Dev nD) :
    W18 m ρ c (Proc.devRef .tc (argRef a)) = W17 m ρ c (Proc.devRef .tc (argRef a)) := by
  match a with
  | 0 => exact (W18_arr m ρ c 0).trans (((dat0 (V17 m ρ) c).arrAt_in 0 rfl _).trans (A_eq0 (V17 m ρ) c 0))
  | 1 => exact (W18_arr m ρ c 1).trans (((dat0 (V17 m ρ) c).arrAt_in 1 rfl _).trans (A_eq0 (V17 m ρ) c 1))
  | 2 => exact W18_of_ne m ρ c main_arg2 (by decide)
  | 3 => exact W18_of_ne m ρ c main_arg3 (by decide)
  | 4 => exact W18_of_ne m ρ c main_arg4 (by decide)

/-- The combine launch reads the biases through an input window and writes no argument. -/
theorem W20_arg (a : Fin 5) (c : Dev nD) :
    W20 m ρ c (Proc.devRef .tc (argRef a)) = W19 m ρ c (Proc.devRef .tc (argRef a)) := by
  match a with
  | 0 => exact W20_of_ne m ρ c main_arg0 (by decide)
  | 1 => exact W20_of_ne m ρ c main_arg1 (by decide)
  | 2 => exact (W20_arr m ρ c 2).trans (((dat1 (V19 m ρ) c).arrAt_in 2 rfl _).trans (A_eq1 (V19 m ρ) c 2))
  | 3 => exact W20_of_ne m ρ c main_arg3 (by decide)
  | 4 => exact W20_of_ne m ρ c main_arg4 (by decide)

/-- Every argument array ends as launched. -/
theorem W20_arg_launch (a : Fin 5) (c : Dev nD) :
    W20 m ρ c (Proc.devRef .tc (argRef a)) = m ((c : Thread nD τ).loc (argRef a)) :=
  (W20_arg m ρ a c).trans <| (hostOps1_keep a _).trans <| (W18_arg m ρ a c).trans <| (W17_arg m ρ a c).trans rfl

/-! ## The proof data family and the thread state -/

abbrev adm : (p : Fin 2) → (pcfgs (F := F) p).Adm := fun p => (cfgs p).toPCfg_adm
/-- Each launch's proof data at its region's entry contents. -/
def pdats : (p : Fin 2) → (c : Dev nD) → Dat τ (Elt F) Unit ℕ (UR sig nD τ) ℕ (Pipeline.pin (pcfgs (F := F)) adm p) c
  | ⟨0, _⟩ => fun c => dat0 (V17 m ρ) c
  | ⟨1, _⟩ => fun c => dat1 (V19 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W20 m ρ c) ∗ ∃ r, prngReg c r)

/-! ## The launches as segments -/

set_option backward.isDefEq.respectTransparency.types false in
/-- The projection launch over the thread state: entered from every unscoped buffer at `W17`, left at `W18`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V17 m ρ) c).loose
  hwaits := Pipeline.hwaits_of_owed_zero _ _ _ _ L lv 0 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec0 c (V17 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V17 m ρ c) (V18 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine launch over the thread state: entered from every unscoped buffer at `W19`, left at `W20`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V19 m ρ) c).loose
  hwaits := Pipeline.hwaits_of_owed_zero _ _ _ _ L lv 1 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V19 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V19 m ρ c) (V20 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .region (reg0 m ρ),
    .host (hseg hostOps1 hostOps1_sub hostOps1_fresh (W18 m ρ)),
    .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds every unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W20_arg_launch m ρ 0 c),
     (h c _ (mem_uc main_arg1 (by decide))).trans (W20_arg_launch m ρ 1 c),
     (h c _ (mem_uc main_arg2 (by decide))).trans (W20_arg_launch m ρ 2 c),
     (h c _ (mem_uc main_arg3 (by decide))).trans (W20_arg_launch m ρ 3 c),
     (h c _ (mem_uc main_arg4 (by decide))).trans (W20_arg_launch m ρ 4 c)⟩) (run_all m ρ)

/-- The result array at the end is what the combine launch's write-backs fold to. -/
theorem run_result : θ_run defs (onTc (τ := τ) (main (F := F))) ⟨m, fun _ => 0, ρ⟩ (fun r => ∀ c : Dev nD,
      r.2.mem ((c.tc : Thread nD τ).loc main_v142) = (dat1 (V19 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v142 (by decide))).trans (W20_arr m ρ c 3),
     (h c _ (mem_uc main_arg0 (by decide))).trans (W20_arg_launch m ρ 0 c),
     (h c _ (mem_uc main_arg1 (by decide))).trans (W20_arg_launch m ρ 1 c),
     (h c _ (mem_uc main_arg2 (by decide))).trans (W20_arg_launch m ρ 2 c),
     (h c _ (mem_uc main_arg3 (by decide))).trans (W20_arg_launch m ρ 3 c),
     (h c _ (mem_uc main_arg4 (by decide))).trans (W20_arg_launch m ρ 4 c)⟩) (run_all m ρ)

end Cert.Kernel.Hand

end
-- ==== Proof.KI.Reg0.lean ====
/-
  The first launch of the kernel program, at the buffer contents `V` its region is entered with: the projection
  kernel computes, per grid point (node block i, edge type k), the block product
  `(h_blk * norm_src_blk) @ W_k` and stores it whole into its output block. What the output block holds after the
  body is the single store's payload over the three input blocks; the inputs are left in place.
-/
import proofs.«169069_j12051678233154_1_alg».proof.Proof.Gen.KernelIdeal.Launch
import proofs.«169069_j12051678233154_1_alg».proof.Proof.Gen.KernelIdeal.Skeleton
import proofs.«169069_j12051678233154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rh : Rect S10000x128 := Rect.unit (s := S10000x128) ![0, 0] S10000x128.size inb_S10000x128_S10000x128_0_0
abbrev rw0 : Rect S1x128x64 := Rect.unit (s := S1x128x64) ![0, 0, 0] S1x128x64.size inb_S1x128x64_S1x128x64_0_0_0
abbrev rn : Rect S1x10000x1 := Rect.unit (s := S1x10000x1) ![0, 0, 0] S1x10000x1.size inb_S1x10000x1_S1x10000x1_0_0_0
abbrev ro : Rect S1x10000x64 := Rect.unit (s := S1x10000x64) ![0, 0, 0] S1x10000x64.size inb_S1x10000x64_S1x10000x64_0_0_0

/-- The output block after the body: its one store, the block product of the scaled node block with the weight block. -/
def out0_3 (x0 : Vec F S10000x128 .f32) (x1 : Vec F S1x128x64 .f32) (x2 : Vec F S1x10000x1 .f32) : Vec F S1x10000x64 .f32 :=
  View.canon [⟨ro, k0_pay1 (View.ld x0 rh) (View.ld x2 rn) (View.ld x1 rw0)⟩]

/-- The store covers the output block. -/
theorem cover0_3 (p0 : Vec F S1x10000x64 .f32) (y : S1x10000x64.Idx) :
    ∃ pc ∈ ([⟨ro, p0⟩] : List (View.Piece (Elt F) S1x10000x64 .f32)), y ∈ pc.1.set :=
  View.cover_of_tiled [⟨ro, p0⟩] S1x10000x64.size (by rfl) y

set_option maxHeartbeats 1000000 in
/-- The body on whole staging memrefs: the inputs' contents are kept, the output's ends at `out0_3` of them. -/
theorem sound_kernel0 (c : Dev nD) (E : Set ℕ) (i : grid0.Coords)
    (arg2 : Memref sig .tc .vmem S10000x128 .f32) (harg2 : arg2.IsWhole) (arg3 : Memref sig .tc .vmem S1x128x64 .f32) (harg3 : arg3.IsWhole)
    (arg4 : Memref sig .tc .vmem S1x10000x1 .f32) (harg4 : arg4.IsWhole) (arg5 : Memref sig .tc .vmem S1x10000x64 .f32) (harg5 : arg5.IsWhole)
    (x0 : Vec F S10000x128 .f32) (x1 : Vec F S1x128x64 .f32) (x2 : Vec F S1x10000x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__feat_kernel i arg2 harg2 arg3 harg3 arg4 harg4 arg5 harg5) K := by
  simp only [cc0__feat_kernel_eq_skeleton]; unfold cc0__feat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first launch on core `c`: the arrays as the region finds them; after the body at point `t`
    each input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1Runs.lean ====
/- REGION 1 (the second pallas_call, kernel function cc1__combine_kernel, pipeline 1) of the frame proof of
   KernelIdeal, at a parameter V — the TensorCore's buffer contents when the region is entered. This module holds
   what the whole-body runs of the two cases share: each window's block at a point, what the three input windows'
   staging buffers hold at every point, the body's one branch condition in closed form, and the current staging
   memrefs of the windows. -/
import proofs.«169069_j12051678233154_1_alg».proof.Proof.Gen.KernelIdeal.Launch
import proofs.«169069_j12051678233154_1_alg».proof.Proof.Gen.KernelIdeal.Skeleton
import proofs.«169069_j12051678233154_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2, whose index map is constant: it is fetched at the first point only, and at every
    later point its buffer still holds that block, which is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional (`k1_h1`), from the grid coordinates (the skeleton's scalar chain
    substituted): the second coordinate is 0. -/
abbrev cond1_0 (i : grid1.Coords) : Prop := (Scalar.cmpi .ne (Scalar.extui (Scalar.cmpi .eq (BitVec.ofNat 32 (i 1).val) 0#32)) 0#32) = 1#1
/-- It holds at the first point of each group of 4 only — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The staging memrefs the body is called with -/

/-- One staging buffer of output window 3, through which its contents are stated (the choice does not matter:
    `View.read_writes_of_cover`). -/
abbrev VO1_3 : View sig .tc .vmem S10000x64 .f32 := (Memref.whole cc1_stg3_0 : Memref sig .tc .vmem S10000x64 .f32).view
/-- Each window's current staging memref at point `t`, spelled as the pipeline passes it (`bodyAt1`), and its wholeness. -/
abbrev ms1_0 (t : Fin cfg1.N) : Memref sig .tc .vmem S1x10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x10000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S10000x64 .f32 := win1_3.stage (cfg1.slots t 3)
abbrev hs1_3 (t : Fin cfg1.N) : (ms1_3 t).IsWhole := hstage1_3 ((cfg1.slots t 3).cast nbuf1_3)

end Cert.KernelIdeal.Hand

end
-- ==== Proof.KI.Reg1RunA.lean ====
/- REGION 1 of the frame proof of KernelIdeal: the whole-body RUN of cc1__combine_kernel in CASE A (the body's
   conditional taken: the first point of each group of 4). The body's triple by symbolic execution of the skeleton;
   the pieces the output's buffer ends with are the witness the run finds. -/
import proofs.«169069_j12051678233154_1_alg».proof.Proof.KI.Reg1Runs

-- membership in a rectangle of large extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref, as pieces (last first) IN CASE A (the conditional
    taken), WITH the proof that on whole staging memrefs — the inputs' at their contents, the output's at anything —
    the body runs to the continuation holding the inputs' as they were and the output's buffer with its pieces
    written: the printed function is its skeleton, which symbolic execution runs, the conditional decided by the
    case's hypothesis; the pieces are the witness that run finds. -/
noncomputable def kernelRun1_A (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : cond1_0 i)
    (x0 : Vec F S1x10000x64 .f32) (x1 : Vec F S1x10000x1 .f32) (x2 : Vec F S4x64 .f32) :
    { L3 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__combine_kernel i arg2 harg2 arg3 harg3 arg4 harg4 arg5 harg5) K } := by
  refine ⟨?_, fun E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Reg1RunB.lean ====
/- REGION 1 of the frame proof of KernelIdeal: the whole-body RUN of cc1__combine_kernel in CASE B (the body's
   conditional not taken: the later points of each group of 4). The body reads the output's buffer before covering
   it, so the run takes the buffer's contents as a parameter. -/
import proofs.«169069_j12051678233154_1_alg».proof.Proof.KI.Reg1RunA

-- membership in a rectangle of large extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref, as pieces (last first) IN CASE B (the conditional
    not taken), WITH the proof that on whole staging memrefs — the inputs' at their contents, the output's, which
    the body reads before covering, at its running contents `xo3` — the body runs to the continuation holding the
    inputs' as they were and the output's buffer with its pieces written. -/
noncomputable def kernelRun1_B (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : ¬cond1_0 i)
    (x0 : Vec F S1x10000x64 .f32) (x1 : Vec F S1x10000x1 .f32) (x2 : Vec F S4x64 .f32) (xo3 : Vec F S10000x64 .f32) :
    { L3 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__combine_kernel i arg2 harg2 arg3 harg3 arg4 harg4 arg5 harg5) K } := by
  refine ⟨?_, fun E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Reg1.lean ====
/- REGION 1 of the frame proof of KernelIdeal, its last module: what the output window's staging buffer holds per
   case (the covers, `out1_A_3`, `out1_B_3`) and point by point (`outsAt1`: the accumulator, reset at the first
   point of each group of 4 and added to at the later ones), the pipeline's proof data at the entry contents `V`
   (`dat1`), and the body obligation (`body_obligation1`). -/
import proofs.«169069_j12051678233154_1_alg».proof.Proof.KI.Reg1RunB

-- membership in a rectangle of large extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-- Case A's pieces for the output tile its block (2 stores of the whole block), so they cover it. -/
theorem cover1_A_3 (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : cond1_0 i)
    (x0 : Vec F S1x10000x64 .f32) (x1 : Vec F S1x10000x1 .f32) (x2 : Vec F S4x64 .f32) (y : S10000x64.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S10000x64.size (by sl_kernel_rfl) y

/-- What case A leaves in the output's staging buffer: its pieces read back over junk. -/
def out1_A_3 (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : cond1_0 i)
    (x0 : Vec F S1x10000x64 .f32) (x1 : Vec F S1x10000x1 .f32) (x2 : Vec F S4x64 .f32) : Vec F S10000x64 .f32 :=
  VO1_3.read (Elt F) (VO1_3.writes (Elt F) VO1_3.junk (kernelRun1_A c i arg2 harg2 arg3 harg3 arg4 harg4 arg5 harg5 hc0 x0 x1 x2).1)

/-- Case B's pieces for the output tile its block (1 store of the whole block), so they cover it. -/
theorem cover1_B_3 (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : ¬cond1_0 i)
    (x0 : Vec F S1x10000x64 .f32) (x1 : Vec F S1x10000x1 .f32) (x2 : Vec F S4x64 .f32) (xo3 : Vec F S10000x64 .f32) (y : S10000x64.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S10000x64.size (by sl_kernel_rfl) y

/-- What case B leaves in the output's staging buffer: its pieces read back over junk. -/
def out1_B_3 (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : ¬cond1_0 i)
    (x0 : Vec F S1x10000x64 .f32) (x1 : Vec F S1x10000x1 .f32) (x2 : Vec F S4x64 .f32) (xo3 : Vec F S10000x64 .f32) : Vec F S10000x64 .f32 :=
  VO1_3.read (Elt F) (VO1_3.writes (Elt F) VO1_3.junk (kernelRun1_B c i arg2 harg2 arg3 harg3 arg4 harg4 arg5 harg5 hc0 x0 x1 x2 xo3).1)

/-! ## What the output holds after each point -/

/-- THE ACCUMULATION. What the output's staging buffer holds after the body at position `n`: the case the closed
    form selects at `n`, run at the point's memrefs and input blocks; in case B, over what this leaves at `n - 1`
    (the buffer is not written back between). -/
def outsAt1 (c : Dev nD) : (n : ℕ) → n < cfg1.N → Vec F S10000x64 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _))
      (iblk1 V c 0 ⟨0, hn⟩) (iblk1 V c 1 ⟨0, hn⟩) (iblk1 V c 2 ⟨0, hn⟩)
  | n + 1, hn =>
    if h0 : (n + 1) % 4 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0)
        (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h))
        (iblk1 V c 0 ⟨n + 1, hn⟩) (iblk1 V c 1 ⟨n + 1, hn⟩) (iblk1 V c 2 ⟨n + 1, hn⟩) (outsAt1 c n (Nat.lt_of_succ_lt hn))

/-- `outsAt1` at a point of case A: that case's contents. -/
theorem outsAt1_A (c : Dev nD) (t : Fin cfg1.N) (h0 : t.val % 4 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0)
      (iblk1 V c 0 t) (iblk1 V c 1 t) (iblk1 V c 2 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h))
      (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point
    `t` each input's buffer at its block and the output's at `outsAt1`; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B the output's current staging buffer holds what the body left at the point before: the point
    is not the first, and the buffer was not written back between (a write-back happens after the points ≡ 3 mod 4
    only, and the point before a point ≢ 0 is ≢ 3); the window is live and uncut. -/
theorem before1_3_B (c : Dev nD) (t : Fin cfg1.N) (h0 : ¬t.val % 4 = 0) (d) :
    (dat1 V c).before 3 t d = (outsAt1 V c (t.val - 1) (Nat.lt_of_le_of_lt (Nat.sub_le _ _) t.isLt)) := by
  have hN : t.val < 40 := lt_of_lt_of_eq t.isLt (show cfg1.N = 40 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; the closed form says which case the point is in;
    in case B the output's buffer holds what the point before left; so the case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 40 := lt_of_lt_of_eq t.isLt (show cfg1.N = 40 from N_1)
  by_cases h0 : t.val % 4 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The kernel program's run, from the launch to the return: seventeen stretches of host operations (the degree
  histograms, their clipped inverse square roots, the stacking of the per-edge-type norms), the projection launch,
  one stretch of host operations (per edge type: the gather of projected rows by source node and their
  accumulation by destination node, then the stacking), and the combine launch. The buffer contents at every
  boundary are a fold from the launch memory; every argument array reaches the end as launched, and each launch
  leaves its output array at what its write-backs fold to.
-/
import proofs.«169069_j12051678233154_1_alg».proof.Proof.Gen.KernelIdeal.Launch
import proofs.«169069_j12051678233154_1_alg».proof.Proof.Gen.KernelIdeal.Skeleton
import proofs.«169069_j12051678233154_1_alg».proof.Proof.Gen.KernelIdeal.Points
import proofs.«169069_j12051678233154_1_alg».proof.Proof.KI.Reg0
import proofs.«169069_j12051678233154_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
abbrev W12 : Dev nD → Valuation τ sig (Elt F) := fun c => StableHlo.after hostOps0_11 (W11 m ρ c)
abbrev W13 : Dev nD → Valuation τ sig (Elt F) := fun c => StableHlo.after hostOps0_12 (W12 m ρ c)
abbrev W14 : Dev nD → Valuation τ sig (Elt F) := fun c => StableHlo.after hostOps0_13 (W13 m ρ c)
abbrev W15 : Dev nD → Valuation τ sig (Elt F) := fun c => StableHlo.after hostOps0_14 (W14 m ρ c)
abbrev W16 : Dev nD → Valuation τ sig (Elt F) := fun c => StableHlo.after hostOps0_15 (W15 m ρ c)
abbrev W17 : Dev nD → Valuation τ sig (Elt F) := fun c => StableHlo.after hostOps0_16 (W16 m ρ c)

/-- The contents the projection launch is entered with, read at the TensorCore's references. -/
abbrev V17 : (c : Dev nD) → (b : Ref sig .tc) → Buf (Elt F) ((c : Thread nD τ).loc b) := fun c b => W17 m ρ c b
/-- At the projection launch's exit: its arrays at what the pipeline leaves, every other buffer as entered. -/
def W18 (c : Dev nD) : Valuation τ sig (Elt F) :=
  Pipeline.withArrays spec0 c (W17 m ρ c) fun w => (dat0 (V17 m ρ) c).arrAt w cfg0.N
theorem W18_arr (c : Dev nD) (w : Fin cfg0.W) :
    W18 m ρ c (Proc.devRef .tc (Pipeline.arrRef spec0 w)) = (dat0 (V17 m ρ) c).arrAt w cfg0.N := by
  unfold W18; exact Pipeline.withArrays_arr spec0 launch0.win.arr_inj c _ _ w
theorem W18_of_ne (c : Dev nD) (b : Ref sig .tc) (hb : ∀ w, Pipeline.arrRef spec0 w ≠ b) :
    W18 m ρ c (Proc.devRef .tc b) = W17 m ρ c (Proc.devRef .tc b) := by
  unfold W18; exact Pipeline.withArrays_of_ne spec0 c _ _ b hb
abbrev V18 : (c : Dev nD) → (b : Ref sig .tc) → Buf (Elt F) ((c : Thread nD τ).loc b) := fun c b => W18 m ρ c b
theorem hF0 (c : Dev nD) (w : Fin cfg0.W) : (dat0 (V17 m ρ) c).arrAt w cfg0.N = V18 m ρ c (Pipeline.arrRef spec0 w) :=
  (W18_arr m ρ c w).symm
theorem hrest0 (c : Dev nD) : ∀ b, b ∉ Finset.univ.image (Pipeline.arrRef spec0) → V18 m ρ c b = V17 m ρ c b :=
  fun b hb => W18_of_ne m ρ c b fun w e => hb (Finset.mem_image.mpr ⟨w, Finset.mem_univ _, e⟩)

/-- After the gather / accumulate stretch: the combine launch's entry. -/
abbrev W19 : Dev nD → Valuation τ sig (Elt F) := fun c => StableHlo.after hostOps1 (W18 m ρ c)
abbrev V19 : (c : Dev nD) → (b : Ref sig .tc) → Buf (Elt F) ((c : Thread nD τ).loc b) := fun c b => W19 m ρ c b
/-- At the combine launch's exit. -/
def W20 (c : Dev nD) : Valuation τ sig (Elt F) :=
  Pipeline.withArrays spec1 c (W19 m ρ c) fun w => (dat1 (V19 m ρ) c).arrAt w cfg1.N
theorem W20_arr (c : Dev nD) (w : Fin cfg1.W) :
    W20 m ρ c (Proc.devRef .tc (Pipeline.arrRef spec1 w)) = (dat1 (V19 m ρ) c).arrAt w cfg1.N := by
  unfold W20; exact Pipeline.withArrays_arr spec1 launch1.win.arr_inj c _ _ w
theorem W20_of_ne (c : Dev nD) (b : Ref sig .tc) (hb : ∀ w, Pipeline.arrRef spec1 w ≠ b) :
    W20 m ρ c (Proc.devRef .tc b) = W19 m ρ c (Proc.devRef .tc b) := by
  unfold W20; exact Pipeline.withArrays_of_ne spec1 c _ _ b hb
abbrev V20 : (c : Dev nD) → (b : Ref sig .tc) → Buf (Elt F) ((c : Thread nD τ).loc b) := fun c b => W20 m ρ c b
theorem hF1 (c : Dev nD) (w : Fin cfg1.W) : (dat1 (V19 m ρ) c).arrAt w cfg1.N = V20 m ρ c (Pipeline.arrRef spec1 w) :=
  (W20_arr m ρ c w).symm
theorem hrest1 (c : Dev nD) : ∀ b, b ∉ Finset.univ.image (Pipeline.arrRef spec1) → V20 m ρ c b = V19 m ρ c b :=
  fun b hb => W20_of_ne m ρ c b fun w e => hb (Finset.mem_image.mpr ⟨w, Finset.mem_univ _, e⟩)

/-! ## No host operation allocates; none writes an argument array -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The five argument arrays. -/
abbrev argRef : Fin 5 → Ref sig .tc := ![main_arg0, main_arg1, main_arg2, main_arg3, main_arg4]

theorem hostOps0_keep (a : Fin 5) (Wv : Valuation τ sig (Elt F)) :
    StableHlo.after hostOps0 Wv (Proc.devRef .tc (argRef a)) = Wv (Proc.devRef .tc (argRef a)) :=
  StableHlo.after_of_forall_not_mem (b := Proc.devRef .tc (argRef a)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_1_keep (a : Fin 5) (Wv : Valuation τ sig (Elt F)) :
    StableHlo.after hostOps0_1 Wv (Proc.devRef .tc (argRef a)) = Wv (Proc.devRef .tc (argRef a)) :=
  StableHlo.after_of_forall_not_mem (b := Proc.devRef .tc (argRef a)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_2_keep (a : Fin 5) (Wv : Valuation τ sig (Elt F)) :
    StableHlo.after hostOps0_2 Wv (Proc.devRef .tc (argRef a)) = Wv (Proc.devRef .tc (argRef a)) :=
  StableHlo.after_of_forall_not_mem (b := Proc.devRef .tc (argRef a)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_3_keep (a : Fin 5) (Wv : Valuation τ sig (Elt F)) :
    StableHlo.after hostOps0_3 Wv (Proc.devRef .tc (argRef a)) = Wv (Proc.devRef .tc (argRef a)) :=
  StableHlo.after_of_forall_not_mem (b := Proc.devRef .tc (argRef a)) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_4_keep (a : Fin 5) (Wv : Valuation τ sig (Elt F)) :
    StableHlo.after hostOps0_4 Wv (Proc.devRef .tc (argRef a)) = Wv (Proc.devRef .tc (argRef a)) :=
  StableHlo.after_of_forall_not_mem (b := Proc.devRef .tc (argRef a)) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_5_keep (a : Fin 5) (Wv : Valuation τ sig (Elt F)) :
    StableHlo.after hostOps0_5 Wv (Proc.devRef .tc (argRef a)) = Wv (Proc.devRef .tc (argRef a)) :=
  StableHlo.after_of_forall_not_mem (b := Proc.devRef .tc (argRef a)) _ _ (List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_6_keep (a : Fin 5) (Wv : Valuation τ sig (Elt F)) :
    StableHlo.after hostOps0_6 Wv (Proc.devRef .tc (argRef a)) = Wv (Proc.devRef .tc (argRef a)) :=
  StableHlo.after_of_forall_not_mem (b := Proc.devRef .tc (argRef a)) _ _ (List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_7_keep (a : Fin 5) (Wv : Valuation τ sig (Elt F)) :
    StableHlo.after hostOps0_7 Wv (Proc.devRef .tc (argRef a)) = Wv (Proc.devRef .tc (argRef a)) :=
  StableHlo.after_of_forall_not_mem (b := Proc.devRef .tc (argRef a)) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_8_keep (a : Fin 5) (Wv : Valuation τ sig (Elt F)) :
    StableHlo.after hostOps0_8 Wv (Proc.devRef .tc (argRef a)) = Wv (Proc.devRef .tc (argRef a)) :=
  StableHlo.after_of_forall_not_mem (b := Proc.devRef .tc (argRef a)) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_9_keep (a : Fin 5) (Wv : Valuation τ sig (Elt F)) :
    StableHlo.after hostOps0_9 Wv (Proc.devRef .tc (argRef a)) = Wv (Proc.devRef .tc (argRef a)) :=
  StableHlo.after_of_forall_not_mem (b := Proc.devRef .tc (argRef a)) _ _ (List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_10_keep (a : Fin 5) (Wv : Valuation τ sig (Elt F)) :
    StableHlo.after hostOps0_10 Wv (Proc.devRef .tc (argRef a)) = Wv (Proc.devRef .tc (argRef a)) :=
  StableHlo.after_of_forall_not_mem (b := Proc.devRef .tc (argRef a)) _ _ (List.forall_iff_forall_mem.mp (by
    simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_11_keep (a : Fin 5) (Wv : Valuation τ sig (Elt F)) :
    StableHlo.after hostOps0_11 Wv (Proc.devRef .tc (argRef a)) = Wv (Proc.devRef .tc (argRef a)) :=
  StableHlo.after_of_forall_not_mem (b := Proc.devRef .tc (argRef a)) _ _ (List.forall_iff_forall_mem.mp (by
    simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_12_keep (a : Fin 5) (Wv : Valuation τ sig (Elt F)) :
    StableHlo.after hostOps0_12 Wv (Proc.devRef .tc (argRef a)) = Wv (Proc.devRef .tc (argRef a)) :=
  StableHlo.after_of_forall_not_mem (b := Proc.devRef .tc (argRef a)) _ _ (List.forall_iff_forall_mem.mp (by
    simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_13_keep (a : Fin 5) (Wv : Valuation τ sig (Elt F)) :
    StableHlo.after hostOps0_13 Wv (Proc.devRef .tc (argRef a)) = Wv (Proc.devRef .tc (argRef a)) :=
  StableHlo.after_of_forall_not_mem (b := Proc.devRef .tc (argRef a)) _ _ (List.forall_iff_forall_mem.mp (by
    simp only [hostOps0_13, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_14_keep (a : Fin 5) (Wv : Valuation τ sig (Elt F)) :
    StableHlo.after hostOps0_14 Wv (Proc.devRef .tc (argRef a)) = Wv (Proc.devRef .tc (argRef a)) :=
  StableHlo.after_of_forall_not_mem (b := Proc.devRef .tc (argRef a)) _ _ (List.forall_iff_forall_mem.mp (by
    simp only [hostOps0_14, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_15_keep (a : Fin 5) (Wv : Valuation τ sig (Elt F)) :
    StableHlo.after hostOps0_15 Wv (Proc.devRef .tc (argRef a)) = Wv (Proc.devRef .tc (argRef a)) :=
  StableHlo.after_of_forall_not_mem (b := Proc.devRef .tc (argRef a)) _ _ (List.forall_iff_forall_mem.mp (by
    simp only [hostOps0_15, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps0_16_keep (a : Fin 5) (Wv : Valuation τ sig (Elt F)) :
    StableHlo.after hostOps0_16 Wv (Proc.devRef .tc (argRef a)) = Wv (Proc.devRef .tc (argRef a)) :=
  StableHlo.after_of_forall_not_mem (b := Proc.devRef .tc (argRef a)) _ _ (List.forall_iff_forall_mem.mp (by
    simp only [hostOps0_16, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))
theorem hostOps1_keep (a : Fin 5) (Wv : Valuation τ sig (Elt F)) :
    StableHlo.after hostOps1 Wv (Proc.devRef .tc (argRef a)) = Wv (Proc.devRef .tc (argRef a)) :=
  StableHlo.after_of_forall_not_mem (b := Proc.devRef .tc (argRef a)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert a; decide)))

/-- An argument array is as launched when the projection launch is entered. -/
theorem W17_arg (a : Fin 5) (c : Dev nD) :
    W17 m ρ c (Proc.devRef .tc (argRef a)) = W0 m ρ c (Proc.devRef .tc (argRef a)) :=
  (hostOps0_16_keep a _).trans <| (hostOps0_15_keep a _).trans <| (hostOps0_14_keep a _).trans <| (hostOps0_13_keep a _).trans <| (hostOps0_12_keep a _).trans <| (hostOps0_11_keep a _).trans <| (hostOps0_10_keep a _).trans <| (hostOps0_9_keep a _).trans <| (hostOps0_8_keep a _).trans <| (hostOps0_7_keep a _).trans <| (hostOps0_6_keep a _).trans <| (hostOps0_5_keep a _).trans <| (hostOps0_4_keep a _).trans <| (hostOps0_3_keep a _).trans <| (hostOps0_2_keep a _).trans <| (hostOps0_1_keep a _).trans <| (hostOps0_keep a _)

/-- The projection launch reads the node features and the weights through input windows and writes neither. -/
theorem W18_arg (a : Fin 5) (c : Dev nD) :
    W18 m ρ c (Proc.devRef .tc (argRef a)) = W17 m ρ c (Proc.devRef .tc (argRef a)) := by
  match a with
  | 0 => exact (W18_arr m ρ c 0).trans (((dat0 (V17 m ρ) c).arrAt_in 0 rfl _).trans (A_eq0 (V17 m ρ) c 0))
  | 1 => exact (W18_arr m ρ c 1).trans (((dat0 (V17 m ρ) c).arrAt_in 1 rfl _).trans (A_eq0 (V17 m ρ) c 1))
  | 2 => exact W18_of_ne m ρ c main_arg2 (by decide)
  | 3 => exact W18_of_ne m ρ c main_arg3 (by decide)
  | 4 => exact W18_of_ne m ρ c main_arg4 (by decide)

/-- The combine launch reads the biases through an input window and writes no argument. -/
theorem W20_arg (a : Fin 5) (c : Dev nD) :
    W20 m ρ c (Proc.devRef .tc (argRef a)) = W19 m ρ c (Proc.devRef .tc (argRef a)) := by
  match a with
  | 0 => exact W20_of_ne m ρ c main_arg0 (by decide)
  | 1 => exact W20_of_ne m ρ c main_arg1 (by decide)
  | 2 => exact (W20_arr m ρ c 2).trans (((dat1 (V19 m ρ) c).arrAt_in 2 rfl _).trans (A_eq1 (V19 m ρ) c 2))
  | 3 => exact W20_of_ne m ρ c main_arg3 (by decide)
  | 4 => exact W20_of_ne m ρ c main_arg4 (by decide)

/-- Every argument array ends as launched. -/
theorem W20_arg_launch (a : Fin 5) (c : Dev nD) :
    W20 m ρ c (Proc.devRef .tc (argRef a)) = m ((c : Thread nD τ).loc (argRef a)) :=
  (W20_arg m ρ a c).trans <| (hostOps1_keep a _).trans <| (W18_arg m ρ a c).trans <| (W17_arg m ρ a c).trans rfl

/-! ## The proof data family and the thread state -/

abbrev adm : (p : Fin 2) → (pcfgs (F := F) p).Adm := fun p => (cfgs p).toPCfg_adm
/-- Each launch's proof data at its region's entry contents. -/
def pdats : (p : Fin 2) → (c : Dev nD) → Dat τ (Elt F) Unit ℕ (UR sig nD τ) ℕ (Pipeline.pin (pcfgs (F := F)) adm p) c
  | ⟨0, _⟩ => fun c => dat0 (V17 m ρ) c
  | ⟨1, _⟩ => fun c => dat1 (V19 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W20 m ρ c) ∗ ∃ r, prngReg c r)

/-! ## The launches as segments -/

set_option backward.isDefEq.respectTransparency.types false in
/-- The projection launch over the thread state: entered from every unscoped buffer at `W17`, left at `W18`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V17 m ρ) c).loose
  hwaits := Pipeline.hwaits_of_owed_zero _ _ _ _ L lv 0 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec0 c (V17 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V17 m ρ c) (V18 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine launch over the thread state: entered from every unscoped buffer at `W19`, left at `W20`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V19 m ρ) c).loose
  hwaits := Pipeline.hwaits_of_owed_zero _ _ _ _ L lv 1 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V19 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V19 m ρ c) (V20 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .region (reg0 m ρ),
    .host (hseg hostOps1 hostOps1_sub hostOps1_fresh (W18 m ρ)),
    .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds every unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W20_arg_launch m ρ 0 c),
     (h c _ (mem_uc main_arg1 (by decide))).trans (W20_arg_launch m ρ 1 c),
     (h c _ (mem_uc main_arg2 (by decide))).trans (W20_arg_launch m ρ 2 c),
     (h c _ (mem_uc main_arg3 (by decide))).trans (W20_arg_launch m ρ 3 c),
     (h c _ (mem_uc main_arg4 (by decide))).trans (W20_arg_launch m ρ 4 c)⟩) (run_all m ρ)

/-- The result array at the end is what the combine launch's write-backs fold to. -/
theorem run_result : θ_run defs (onTc (τ := τ) (main (F := F))) ⟨m, fun _ => 0, ρ⟩ (fun r => ∀ c : Dev nD,
      r.2.mem ((c.tc : Thread nD τ).loc main_v142) = (dat1 (V19 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v142 (by decide))).trans (W20_arr m ρ c 3),
     (h c _ (mem_uc main_arg0 (by decide))).trans (W20_arg_launch m ρ 0 c),
     (h c _ (mem_uc main_arg1 (by decide))).trans (W20_arg_launch m ρ 1 c),
     (h c _ (mem_uc main_arg2 (by decide))).trans (W20_arg_launch m ρ 2 c),
     (h c _ (mem_uc main_arg3 (by decide))).trans (W20_arg_launch m ρ 3 c),
     (h c _ (mem_uc main_arg4 (by decide))).trans (W20_arg_launch m ρ 4 c)⟩) (run_all m ρ)

end Cert.KernelIdeal.Hand

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.Val.Pay.lean ====
/-
  The kernel bodies' stored values read at an index, at the extended reals.

  Three pure facts about the values the two kernel bodies store, each read at one index written by its coordinates.
  * The feature body stores, at (0, p, e), the sum over the 128 contracted positions j of
    (x0 (p, j) * x2 (0, p, 0)) * x1 (0, j, e): the node features scaled row by row by the norm column, multiplied by the
    weight block. The two narrowing format changes are the identity on extended reals, and the product accumulates into
    the zero block.
  * The combine body's first store is the zero block.
  * The combine body's second store is, at (p, e), the old contents plus (v6 (0, p, e) * v8 (0, p, 0) + v4 (0, e)): the
    gathered block scaled row by row by the norm column, plus the bias row.
  Every layout operation (a leading unit axis dropped or added, a column or a row broadcast over a matrix) is read at
  the index by one lemma stated over literal coordinates, so the rewriting is by unification only.
-/
import proofs.«169069_j12051678233154_1_alg».proof.Proof.Gen.KernelIdeal.Skeleton
import proofs.«169069_j12051678233154_1_alg».proof.Proof.LibColumn
import proofs.«169069_j12051678233154_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-! ## The combine body's accumulating store -/

/-- At (p, e) the accumulating store holds the old contents plus the scaled gathered entry plus the bias entry. -/
theorem pay_acc (v4 : Vec Ideal S1x64 .f32) (v6 : Vec Ideal S1x10000x64 .f32) (v8 : Vec Ideal S1x10000x1 .f32)
    (v15 : Vec Ideal S10000x64 .f32) (p : Fin 10000) (e : Fin 64) :
    k1_pay2 (F := Ideal) v4 v6 v8 v15 (ix2 p e)
      = v15 (ix2 p e) + (v6 (ix3 (0 : Fin 1) p e) * v8 (ix3 (0 : Fin 1) p (0 : Fin 1)) + v4 (ix2 (0 : Fin 1) e)) := by
  unfold k1_pay2
  rw [addf_apply, shapeCast_self, addf_apply, mulf_apply, broadcastTo_1b_ab_apply, shapeCast_a_1a_apply,
    shapeCast_1a_a_apply, Cert.LibColumn.broadcastTo_a1_ab_apply, shapeCast_1ab_ab_apply, shapeCast_1ab_ab_apply]

/-! ## The combine body's first store: the zero block -/

/-- The first store's value is the zero word's extended real at every index. -/
theorem pay_zero (p : Fin 10000) (e : Fin 64) :
    k1_pay1 (F := Ideal) (ix2 p e) = Ideal.ofBits .f32 0x00000000#32 := by
  unfold k1_pay1
  rfl

/-! ## The feature body's store: a matrix product -/

/-- The left operand of the product is read at (output row, contracted coordinate) … -/
theorem dot_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem dot_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- … and the right operand at (contracted coordinate, output column). -/
theorem dot_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem dot_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- At (0, p, e) the feature store holds the sum over the contracted coordinate of the scaled feature entry times the
    weight entry. -/
theorem pay_feat (x0 : Vec Ideal S10000x128 .f32) (x2 : Vec Ideal S1x10000x1 .f32) (x1 : Vec Ideal S1x128x64 .f32)
    (p : Fin 10000) (e : Fin 64) :
    k0_pay1 (F := Ideal) x0 x2 x1 (ix3 (0 : Fin 1) p e)
      = ∑ j : Fin 128, (x0 (ix2 p j) * x2 (ix3 (0 : Fin 1) p (0 : Fin 1))) * x1 (ix3 (0 : Fin 1) j e) := by
  unfold k0_pay1
  rw [shapeCast_ab_1ab_apply,
    Cert.LibPlainDot.matmul_zero_apply dot_S10000x128_S128x64_S10000x64_1_0_0_1_n_n rfl rfl
      dot_lhs_0 dot_lhs_1 dot_rhs_0 dot_rhs_1]
  refine Finset.sum_congr rfl fun j _ => ?_
  rw [truncf_apply, truncf_apply, mulf_apply, Cert.LibColumn.broadcastTo_a1_ab_apply, shapeCast_1ab_ab_apply,
    shapeCast_1ab_ab_apply]

end Cert.KernelIdeal.Val

end
-- ==== Proof.Val.Final0.lean ====
/-
  The projection launch's output array, whole: entry (k, n, e) of the stacked projections is the inner product over
  the 128 input features j of (h[n, j] * norm_src[k, n]) with W[k, j, e] — block (k, i) of it is what grid point
  (i, k) writes back, and the forty blocks tile the array.
-/
import proofs.«169069_j12051678233154_1_alg».proof.Proof.KI.Reg0
import proofs.«169069_j12051678233154_1_alg».proof.Proof.Val.Pay
import Idealize.ShloMosaic.Lib.Pipeline.Value
import Idealize.ShloMosaic.Lib.ValueIdx

set_option maxRecDepth 16384
set_option maxHeartbeats 1000000

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The projection of node `n` for edge type `k` at output feature `e`. -/
def featAt (h : S100000x128.Idx → EReal) (W : S4x128x64.Idx → EReal) (ns : S4x100000x1.Idx → EReal)
    (k : Fin 4) (n : Fin 100000) (e : Fin 64) : EReal :=
  ∑ j : Fin 128, (h (ix2 n j) * ns (ix3 k n (0 : Fin 1))) * W (ix3 k j e)

/-- The stacked projections as one array. -/
def featArr (h : S100000x128.Idx → EReal) (W : S4x128x64.Idx → EReal) (ns : S4x100000x1.Idx → EReal) :
    S4x100000x64.Idx → EReal := fun i => featAt h W ns (i 0) (i 1) (i 2)

/-- The printed index maps over the grid: point t = 4 i + k stages node block i of h, weight slab k, norm block (k, i)
    and writes output block (k, i). -/
theorem idx_facts0 : ∀ t : Fin cfg0.N,
    win0_0.index t (0 : Fin 2) = t.val / 4 ∧ win0_0.index t (1 : Fin 2) = 0
    ∧ win0_1.index t (0 : Fin 3) = t.val % 4 ∧ win0_1.index t (1 : Fin 3) = 0 ∧ win0_1.index t (2 : Fin 3) = 0
    ∧ win0_2.index t (0 : Fin 3) = t.val % 4 ∧ win0_2.index t (1 : Fin 3) = t.val / 4 ∧ win0_2.index t (2 : Fin 3) = 0
    ∧ win0_3.index t (0 : Fin 3) = t.val % 4 ∧ win0_3.index t (1 : Fin 3) = t.val / 4 ∧ win0_3.index t (2 : Fin 3) = 0 :=
  (by decide +kernel : ∀ t : Fin grid0.N, _)

/-- The node-feature block at point `t`, read at (p, j): row (t / 4) * 10000 + p of the array. -/
theorem read0_h (c : Dev nD) (t : Fin cfg0.N) (p : Fin 10000) (e : Fin 64) (j : Fin 128) :
    iblk0 V c 0 t (ix2 p j)
      = V c main_arg0 (ix2 ((((cfg0.win 3).blk t).view.emb (ix3 (0 : Fin 1) p e)) 1) j) := by
  obtain ⟨e0, e1, e2, e3, e4, e5, e6, e7, e8, e9, e10⟩ := idx_facts0 t
  have h0 : ((cfg0.win 0).blk t).view.emb (ix2 p j) = ix2 ((((cfg0.win 3).blk t).view.emb (ix3 (0 : Fin 1) p e)) 1) j := by
    funext a; apply Fin.ext
    match a with
    | ⟨0, _⟩ => show win0_0.index t (0 : Fin 2) * 10000 + 1 * p.val = win0_3.index t (1 : Fin 3) * 10000 + 1 * p.val; omega
    | ⟨1, _⟩ => show win0_0.index t (1 : Fin 2) * 128 + 1 * j.val = j.val; omega
  show V c main_arg0 (((cfg0.win 0).blk t).view.emb (ix2 p j)) = _
  rw [h0]
  rfl

/-- The norm block at point `t`, read at row p: entry (t % 4, (t / 4) * 10000 + p, 0) of the stacked norms. -/
theorem read0_n (c : Dev nD) (t : Fin cfg0.N) (p : Fin 10000) (e : Fin 64) :
    iblk0 V c 2 t (ix3 (0 : Fin 1) p (0 : Fin 1))
      = V c main_v65 (ix3 ((((cfg0.win 3).blk t).view.emb (ix3 (0 : Fin 1) p e)) 0) ((((cfg0.win 3).blk t).view.emb (ix3 (0 : Fin 1) p e)) 1) (0 : Fin 1)) := by
  obtain ⟨e0, e1, e2, e3, e4, e5, e6, e7, e8, e9, e10⟩ := idx_facts0 t
  have h2 : ((cfg0.win 2).blk t).view.emb (ix3 (0 : Fin 1) p (0 : Fin 1))
      = ix3 ((((cfg0.win 3).blk t).view.emb (ix3 (0 : Fin 1) p e)) 0) ((((cfg0.win 3).blk t).view.emb (ix3 (0 : Fin 1) p e)) 1) (0 : Fin 1) := by
    funext a; apply Fin.ext
    match a with
    | ⟨0, _⟩ => show win0_2.index t (0 : Fin 3) * 1 + 1 * 0 = win0_3.index t (0 : Fin 3) * 1 + 1 * 0; omega
    | ⟨1, _⟩ => show win0_2.index t (1 : Fin 3) * 10000 + 1 * p.val = win0_3.index t (1 : Fin 3) * 10000 + 1 * p.val; omega
    | ⟨2, _⟩ => show win0_2.index t (2 : Fin 3) * 1 + 1 * 0 = 0; omega
  show V c main_v65 (((cfg0.win 2).blk t).view.emb (ix3 (0 : Fin 1) p (0 : Fin 1))) = _
  rw [h2]
  rfl

/-- The weight block at point `t`, read at (j, e): entry (t % 4, j, e) of the weights. -/
theorem read0_w (c : Dev nD) (t : Fin cfg0.N) (p : Fin 10000) (e : Fin 64) (j : Fin 128) :
    iblk0 V c 1 t (ix3 (0 : Fin 1) j e)
      = V c main_arg1 (ix3 ((((cfg0.win 3).blk t).view.emb (ix3 (0 : Fin 1) p e)) 0) j ((((cfg0.win 3).blk t).view.emb (ix3 (0 : Fin 1) p e)) 2)) := by
  obtain ⟨e0, e1, e2, e3, e4, e5, e6, e7, e8, e9, e10⟩ := idx_facts0 t
  have h1 : ((cfg0.win 1).blk t).view.emb (ix3 (0 : Fin 1) j e)
      = ix3 ((((cfg0.win 3).blk t).view.emb (ix3 (0 : Fin 1) p e)) 0) j ((((cfg0.win 3).blk t).view.emb (ix3 (0 : Fin 1) p e)) 2) := by
    funext a; apply Fin.ext
    match a with
    | ⟨0, _⟩ => show win0_1.index t (0 : Fin 3) * 1 + 1 * 0 = win0_3.index t (0 : Fin 3) * 1 + 1 * 0; omega
    | ⟨1, _⟩ => show win0_1.index t (1 : Fin 3) * 128 + 1 * j.val = j.val; omega
    | ⟨2, _⟩ => show win0_1.index t (2 : Fin 3) * 64 + 1 * e.val = win0_3.index t (2 : Fin 3) * 64 + 1 * e.val; omega
  show V c main_arg1 (((cfg0.win 1).blk t).view.emb (ix3 (0 : Fin 1) j e)) = _
  rw [h1]
  rfl

set_option maxHeartbeats 1000000 in
/-- What point `t` writes back is block `t` of the stacked projections of the arrays as the region finds them. -/
theorem flushed0_eq (c : Dev nD) (t : Fin cfg0.N) :
    (dat0 V c).flushed 3 t = ((cfg0.win 3).blk t).view.read (Elt Ideal)
      (featArr (V c main_arg0) (V c main_arg1) (V c main_v65)) := by
  show (cfg0.win 3).cut (grid0.coords t) ((dat0 V c).after 3 t) = _
  rw [after0_3]
  unfold out0_3
  rw [View.canon_unit_zero hz3]
  simp only [View.ld_unit_zero (S := S10000x128) hz2, View.ld_unit_zero (S := S1x10000x1) hz3,
    View.ld_unit_zero (S := S1x128x64) hz3]
  funext y
  obtain ⟨u, p, e, rfl⟩ : ∃ (u : Fin 1) (p : Fin 10000) (e : Fin 64), y = ix3 u p e := ⟨y 0, y 1, y 2, eq_ix3 y⟩
  obtain rfl : u = 0 := Subsingleton.elim _ _
  refine (pay_feat (iblk0 V c 0 t) (iblk0 V c 2 t) (iblk0 V c 1 t) p e).trans ?_
  rw [View.read_apply]
  unfold featArr featAt
  beta_reduce
  apply Finset.sum_congr rfl
  intro j _
  exact congrArg₂ (· * ·) (congrArg₂ (· * ·) (read0_h V c t p e j) (read0_n V c t p e)) (read0_w V c t p e j)

/-- An index of the stacked array is in point `t`'s block iff each coordinate is in the block's range on its axis. -/
theorem mem_blk0 (t : Fin cfg0.N) (i : S4x100000x64.Idx) :
    i ∈ ((cfg0.win 3).blk t).view.set ↔ ∀ a : Fin 3, win0_3.index t a * S1x10000x64.size a ≤ (i a).val
      ∧ (i a).val < win0_3.index t a * S1x10000x64.size a + S1x10000x64.size a := by
  show i ∈ ((View.whole main_v72).slice (win0_3.rect t)).set ↔ _
  rw [View.set_slice_whole, Rect.mem_set_unit]
  exact Iff.rfl

/-- Entry (k, n, e) lies in the block of the point 4 (n / 10000) + k, and every point writes back. -/
theorem cover0 (i : S4x100000x64.Idx) :
    ∃ t : Fin cfg0.N, (cfg0.win 3).flush t = true ∧ i ∈ ((cfg0.win 3).blk t).view.set := by
  have h0 : (i 0).val < 4 := (i 0).isLt
  have h1 : (i 1).val < 100000 := (i 1).isLt
  have h2 : (i 2).val < 64 := (i 2).isLt
  have hN : cfg0.N = 40 := N_0
  have hlt : 4 * ((i 1).val / 10000) + (i 0).val < cfg0.N := by rw [hN]; omega
  refine ⟨⟨4 * ((i 1).val / 10000) + (i 0).val, hlt⟩, flush0_3 _, ?_⟩
  rw [mem_blk0]
  obtain ⟨e0, e1, e2, e3, e4, e5, e6, e7, e8, e9, e10⟩ := idx_facts0 ⟨4 * ((i 1).val / 10000) + (i 0).val, hlt⟩
  have e8' : win0_3.index ⟨4 * ((i 1).val / 10000) + (i 0).val, hlt⟩ (0 : Fin 3) = (i 0).val := by rw [e8]; show (4 * ((i 1).val / 10000) + (i 0).val) % 4 = _; omega
  have e9' : win0_3.index ⟨4 * ((i 1).val / 10000) + (i 0).val, hlt⟩ (1 : Fin 3) = (i 1).val / 10000 := by rw [e9]; show (4 * ((i 1).val / 10000) + (i 0).val) / 4 = _; omega
  intro a
  match a with
  | ⟨0, _⟩ => show win0_3.index _ (0 : Fin 3) * 1 ≤ (i 0).val ∧ (i 0).val < win0_3.index _ (0 : Fin 3) * 1 + 1; rw [e8']; omega
  | ⟨1, _⟩ => show win0_3.index _ (1 : Fin 3) * 10000 ≤ (i 1).val ∧ (i 1).val < win0_3.index _ (1 : Fin 3) * 10000 + 10000; rw [e9']; omega
  | ⟨2, _⟩ => show win0_3.index _ (2 : Fin 3) * 64 ≤ (i 2).val ∧ (i 2).val < win0_3.index _ (2 : Fin 3) * 64 + 64; rw [e10]; omega

/-- The projection launch leaves its output array at the stacked projections of the arrays it was entered with. -/
theorem final0 (c : Dev nD) :
    (dat0 V c).arrAt 3 cfg0.N = featArr (V c main_arg0) (V c main_arg1) (V c main_v65) :=
  (dat0 V c).arrAt_eq_of_cover 3 _ (fun t _ => flushed0_eq V c t) cover0

end Cert.KernelIdeal.Val

end
-- ==== Proof.KI.Reg1Value.lean ====
/- REGION 1 of the frame proof of KernelIdeal: the VALUES the accumulator holds. What each case of the body leaves in
   the output window's staging buffer, read back from the pieces its run found, is the body's one covering store's
   payload: at the first point of each group of 4 the sum of the zero block and the point's term, at the later
   points the sum of what the point before left and the point's term; the term is
   agg_block * broadcast(norm_block) + broadcast(row k of b), k the point's second coordinate. Generic in the float
   instance. -/
import proofs.«169069_j12051678233154_1_alg».proof.Proof.KI.Reg1
import Idealize.ShloMosaic.Lib.Pipeline.Value

-- membership in a rectangle of large extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The rectangle the body's load of the bias block reads: one row of 64, at the row the point's second grid
    coordinate names (the skeleton's dynamic offset). -/
abbrev rowRect1 (i : grid1.Coords) : Rect S4x64 := Rect.unit (s := S4x64) (k1_off1 i) S1x64.size (k1_off1_inb i)

/-- CASE B's value (the later points of a group): in the output's staging buffer holding `xo3` the body leaves its
    one covering store's payload, over the whole input blocks, the row of the bias block and `xo3`. -/
theorem out1_B_3_eq (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : ¬cond1_0 i)
    (x0 : Vec F S1x10000x64 .f32) (x1 : Vec F S1x10000x1 .f32) (x2 : Vec F S4x64 .f32) (xo3 : Vec F S10000x64 .f32) :
    out1_B_3 c i arg2 harg2 arg3 harg3 arg4 harg4 arg5 harg5 hc0 x0 x1 x2 xo3 = k1_pay2 (View.ld x2 (rowRect1 i)) x0 x1 xo3 := by
  unfold out1_B_3
  rw [View.read_writes_eq_canon _ _ _ (cover1_B_3 c i arg2 harg2 arg3 harg3 arg4 harg4 arg5 harg5 hc0 x0 x1 x2 xo3)]
  unfold kernelRun1_B
  dsimp only
  rw [View.canon_unit_zero hz2]
  simp only [View.readAt_eq_ld, harg2.read_unread, harg3.read_unread, harg4.read_unread, harg5.read_unread,
    View.ld_unit_zero (S := S1x10000x64) hz3, View.ld_unit_zero (S := S1x10000x1) hz3, View.ld_unit_zero (S := S10000x64) hz2]

/-- CASE A's value (the first point of a group): the body stores the zero block, reads it back, and leaves its
    second store's payload over the whole input blocks, the row of the bias block and the zero block. -/
theorem out1_A_3_eq (c : Dev nD) (i : grid1.Coords) (arg2 : Memref sig .tc .vmem S1x10000x64 .f32) (harg2 : arg2.IsWhole) (arg3 : Memref sig .tc .vmem S1x10000x1 .f32) (harg3 : arg3.IsWhole) (arg4 : Memref sig .tc .vmem S4x64 .f32) (harg4 : arg4.IsWhole) (arg5 : Memref sig .tc .vmem S10000x64 .f32) (harg5 : arg5.IsWhole) (hc0 : cond1_0 i)
    (x0 : Vec F S1x10000x64 .f32) (x1 : Vec F S1x10000x1 .f32) (x2 : Vec F S4x64 .f32) :
    out1_A_3 c i arg2 harg2 arg3 harg3 arg4 harg4 arg5 harg5 hc0 x0 x1 x2 = k1_pay2 (View.ld x2 (rowRect1 i)) x0 x1 (k1_pay1 (F := F)) := by
  unfold out1_A_3
  rw [View.read_writes_eq_canon _ _ _ (cover1_A_3 c i arg2 harg2 arg3 harg3 arg4 harg4 arg5 harg5 hc0 x0 x1 x2)]
  unfold kernelRun1_A
  dsimp only
  sl_unfold_run_names
  rw [View.canon_cons_unit_zero (S := S10000x64) hz2, View.readCov_unit_zero (S := S10000x64) _ hz2]
  simp only [View.readAt_eq_ld, harg2.read_unread, harg3.read_unread, harg4.read_unread,
    View.ld_unit_zero (S := S1x10000x64) hz3, View.ld_unit_zero (S := S1x10000x1) hz3]

/-- The accumulator at the first point of a group of 4: the zero block plus the point's term. -/
theorem outsAt1_first (c : Dev nD) (t : Fin cfg1.N) (h0 : t.val % 4 = 0) :
    outsAt1 V c t.val t.isLt
      = k1_pay2 (View.ld (Val := Elt F) (S := S4x64) (e' := .f32) (iblk1 V c 2 t) (rowRect1 (grid1.coords t)))
          (iblk1 V c 0 t) (iblk1 V c 1 t) (k1_pay1 (F := F)) :=
  (outsAt1_A V c t h0).trans (out1_A_3_eq ..)

/-- The accumulator at a later point of a group: what the point before left plus the point's term. -/
theorem outsAt1_next (c : Dev nD) (t : Fin cfg1.N) (h0 : ¬t.val % 4 = 0) :
    outsAt1 V c t.val t.isLt
      = k1_pay2 (View.ld (Val := Elt F) (S := S4x64) (e' := .f32) (iblk1 V c 2 t) (rowRect1 (grid1.coords t)))
          (iblk1 V c 0 t) (iblk1 V c 1 t) (outsAt1 V c (t.val - 1) (Nat.lt_of_le_of_lt (Nat.sub_le _ _) t.isLt)) :=
  (outsAt1_B V c t h0).trans (out1_B_3_eq ..)

end Cert.KernelIdeal.Hand

end
-- ==== Proof.Val.Final1.lean ====
/-
  The combine launch's output array, whole: entry (n, e) is the zero word's value plus, for the four edge types k in
  order, the aggregate entry (k, n, e) scaled by the destination norm (k, n) plus the bias entry (k, e).

  Grid point t = 4 i + k stages block (k, i) of the stacked aggregates and of the stacked norms, the whole bias block
  (of which the body reads row k), and output block i. The output block is reset at k = 0, added into at k = 1, 2, 3 and
  written back at k = 3, so what the point 4 i + 3 writes back is the four-step fold of the body's value over the points
  4 i … 4 i + 3; read at an index, each step adds that point's addend to what the point before left. The ten written
  blocks tile the array.
-/
import proofs.«169069_j12051678233154_1_alg».proof.Proof.KI.Reg1
import proofs.«169069_j12051678233154_1_alg».proof.Proof.KI.Reg1Value
import proofs.«169069_j12051678233154_1_alg».proof.Proof.Val.Pay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The closed form -/

/-- Entry (n, e) of the combined output: the four edge types' scaled aggregates plus biases, added in order onto the
    zero word's value. -/
def outAt (agg : S4x100000x64.Idx → EReal) (nd : S4x100000x1.Idx → EReal) (b : S4x64.Idx → EReal)
    (n : Fin 100000) (e : Fin 64) : EReal :=
  ((((Ideal.ofBits .f32 0x00000000#32 : EReal)
      + (agg (ix3 (0 : Fin 4) n e) * nd (ix3 (0 : Fin 4) n (0 : Fin 1)) + b (ix2 (0 : Fin 4) e)))
      + (agg (ix3 (1 : Fin 4) n e) * nd (ix3 (1 : Fin 4) n (0 : Fin 1)) + b (ix2 (1 : Fin 4) e)))
      + (agg (ix3 (2 : Fin 4) n e) * nd (ix3 (2 : Fin 4) n (0 : Fin 1)) + b (ix2 (2 : Fin 4) e)))
      + (agg (ix3 (3 : Fin 4) n e) * nd (ix3 (3 : Fin 4) n (0 : Fin 1)) + b (ix2 (3 : Fin 4) e))

/-- The combined output as one array. -/
def outArr (agg : S4x100000x64.Idx → EReal) (nd : S4x100000x1.Idx → EReal) (b : S4x64.Idx → EReal) :
    S100000x64.Idx → EReal := fun i => outAt agg nd b (i 0) (i 1)

/-! ## The body's value over a group of four points, at an index -/

/-- Four accumulating steps onto the zero block, read at (p, e): the zero word's value plus the four addends, in
    order. -/
theorem fold4_apply (a0 a1 a2 a3 : Vec Ideal S1x64 .f32) (x0 x1 x2 x3 : Vec Ideal S1x10000x64 .f32)
    (n0 n1 n2 n3 : Vec Ideal S1x10000x1 .f32) (p : Fin 10000) (e : Fin 64) :
    k1_pay2 (F := Ideal) a3 x3 n3 (k1_pay2 (F := Ideal) a2 x2 n2 (k1_pay2 (F := Ideal) a1 x1 n1
        (k1_pay2 (F := Ideal) a0 x0 n0 (k1_pay1 (F := Ideal))))) (ix2 p e)
      = ((((Ideal.ofBits .f32 0x00000000#32 : EReal)
          + (x0 (ix3 (0 : Fin 1) p e) * n0 (ix3 (0 : Fin 1) p (0 : Fin 1)) + a0 (ix2 (0 : Fin 1) e)))
          + (x1 (ix3 (0 : Fin 1) p e) * n1 (ix3 (0 : Fin 1) p (0 : Fin 1)) + a1 (ix2 (0 : Fin 1) e)))
          + (x2 (ix3 (0 : Fin 1) p e) * n2 (ix3 (0 : Fin 1) p (0 : Fin 1)) + a2 (ix2 (0 : Fin 1) e)))
          + (x3 (ix3 (0 : Fin 1) p e) * n3 (ix3 (0 : Fin 1) p (0 : Fin 1)) + a3 (ix2 (0 : Fin 1) e)) := by
  rw [pay_acc, pay_acc, pay_acc, pay_acc, pay_zero]

/-! ## The schedule, decided over the grid -/

/-- The printed index maps and the bias row's offset over the grid: point t = 4 i + k stages block (k, i) of the
    aggregates and of the norms, the whole bias block, output block i, and reads bias row k. -/
theorem idx_facts1 : ∀ t : Fin cfg1.N,
    win1_0.index t (0 : Fin 3) = t.val % 4 ∧ win1_0.index t (1 : Fin 3) = t.val / 4 ∧ win1_0.index t (2 : Fin 3) = 0
    ∧ win1_1.index t (0 : Fin 3) = t.val % 4 ∧ win1_1.index t (1 : Fin 3) = t.val / 4 ∧ win1_1.index t (2 : Fin 3) = 0
    ∧ win1_2.index t (0 : Fin 2) = 0 ∧ win1_2.index t (1 : Fin 2) = 0
    ∧ win1_3.index t (0 : Fin 2) = t.val / 4 ∧ win1_3.index t (1 : Fin 2) = 0
    ∧ k1_off1 (grid1.coords t) (0 : Fin 2) = t.val % 4 ∧ k1_off1 (grid1.coords t) (1 : Fin 2) = 0 :=
  (by decide +kernel : ∀ t : Fin grid1.N, _)

/-! ## The body's step, and the blocks it reads -/

/-- The bias row the body reads at point `t`. -/
def brow1 (c : Dev nD) (t : Fin cfg1.N) : Vec Ideal S1x64 .f32 :=
  View.ld (Val := Elt Ideal) (S := S4x64) (e' := .f32) (iblk1 V c 2 t) (rowRect1 (grid1.coords t))

/-- The body's value at point `n` over what the point before left. -/
def step1 (c : Dev nD) (n : ℕ) (hn : n < cfg1.N) (acc : Vec Ideal S10000x64 .f32) : Vec Ideal S10000x64 .f32 :=
  k1_pay2 (F := Ideal) (brow1 V c ⟨n, hn⟩) (iblk1 V c 0 ⟨n, hn⟩) (iblk1 V c 1 ⟨n, hn⟩) acc

/-- What the blocks staged at point `s` of the group of point `t` (`s = 4 (t / 4) + k`) hold at the places the body's
    value at (p, e) reads: the arrays at edge type `k` and at the row and lane of `t`'s output block. -/
theorem blk_reads1 (c : Dev nD) (t s : Fin cfg1.N) (k : Fin 4) (hs : s.val = 4 * (t.val / 4) + k.val)
    (p : Fin 10000) (e : Fin 64) :
    iblk1 V c 0 s (ix3 (0 : Fin 1) p e)
        = V c main_v141 (ix3 k ((((cfg1.win 3).blk t).view.emb (ix2 p e)) 0) ((((cfg1.win 3).blk t).view.emb (ix2 p e)) 1))
    ∧ iblk1 V c 1 s (ix3 (0 : Fin 1) p (0 : Fin 1))
        = V c main_v71 (ix3 k ((((cfg1.win 3).blk t).view.emb (ix2 p e)) 0) (0 : Fin 1))
    ∧ brow1 V c s (ix2 (0 : Fin 1) e)
        = V c main_arg2 (ix2 k ((((cfg1.win 3).blk t).view.emb (ix2 p e)) 1)) := by
  obtain ⟨s0, s1, s2, s3, s4, s5, s6, s7, s8, s9, s10, s11⟩ := idx_facts1 s
  obtain ⟨t0, t1, t2, t3, t4, t5, t6, t7, t8, t9, t10, t11⟩ := idx_facts1 t
  have hk : k.val < 4 := k.isLt
  have h0 : ((cfg1.win 0).blk s).view.emb (ix3 (0 : Fin 1) p e)
      = ix3 k ((((cfg1.win 3).blk t).view.emb (ix2 p e)) 0) ((((cfg1.win 3).blk t).view.emb (ix2 p e)) 1) := by
    funext a; apply Fin.ext
    match a with
    | ⟨0, _⟩ => show win1_0.index s (0 : Fin 3) * 1 + 1 * 0 = k.val; omega
    | ⟨1, _⟩ => show win1_0.index s (1 : Fin 3) * 10000 + 1 * p.val = win1_3.index t (0 : Fin 2) * 10000 + 1 * p.val; omega
    | ⟨2, _⟩ => show win1_0.index s (2 : Fin 3) * 64 + 1 * e.val = win1_3.index t (1 : Fin 2) * 64 + 1 * e.val; omega
  have h1 : ((cfg1.win 1).blk s).view.emb (ix3 (0 : Fin 1) p (0 : Fin 1))
      = ix3 k ((((cfg1.win 3).blk t).view.emb (ix2 p e)) 0) (0 : Fin 1) := by
    funext a; apply Fin.ext
    match a with
    | ⟨0, _⟩ => show win1_1.index s (0 : Fin 3) * 1 + 1 * 0 = k.val; omega
    | ⟨1, _⟩ => show win1_1.index s (1 : Fin 3) * 10000 + 1 * p.val = win1_3.index t (0 : Fin 2) * 10000 + 1 * p.val; omega
    | ⟨2, _⟩ => show win1_1.index s (2 : Fin 3) * 1 + 1 * 0 = 0; omega
  have h2 : ((cfg1.win 2).blk s).view.emb ((rowRect1 (grid1.coords s)).idx (ix2 (0 : Fin 1) e))
      = ix2 k ((((cfg1.win 3).blk t).view.emb (ix2 p e)) 1) := by
    funext a; apply Fin.ext
    match a with
    | ⟨0, _⟩ => show win1_2.index s (0 : Fin 2) * 4 + 1 * (k1_off1 (grid1.coords s) (0 : Fin 2) + 1 * 0) = k.val; omega
    | ⟨1, _⟩ => show win1_2.index s (1 : Fin 2) * 64 + 1 * (k1_off1 (grid1.coords s) (1 : Fin 2) + 1 * e.val) = win1_3.index t (1 : Fin 2) * 64 + 1 * e.val; omega
  refine ⟨?_, ?_, ?_⟩
  · show V c main_v141 (((cfg1.win 0).blk s).view.emb (ix3 (0 : Fin 1) p e)) = _
    exact congrArg (V c main_v141) h0
  · show V c main_v71 (((cfg1.win 1).blk s).view.emb (ix3 (0 : Fin 1) p (0 : Fin 1))) = _
    exact congrArg (V c main_v71) h1
  · show V c main_arg2 (((cfg1.win 2).blk s).view.emb ((rowRect1 (grid1.coords s)).idx (ix2 (0 : Fin 1) e))) = _
    exact congrArg (V c main_arg2) h2

/-! ## What a flushing point writes back -/

/-- The output's staging buffer after the last point of a group is the four-step fold of the body's value over the
    group, from the zero block. -/
theorem outsAt1_fold (c : Dev nD) (t : Fin cfg1.N) (h3 : t.val % 4 = 3)
    (b0 : 4 * (t.val / 4) + 0 < cfg1.N) (b1 : 4 * (t.val / 4) + 1 < cfg1.N) (b2 : 4 * (t.val / 4) + 2 < cfg1.N)
    (b3 : 4 * (t.val / 4) + 3 < cfg1.N) :
    outsAt1 V c t.val t.isLt
      = step1 V c (4 * (t.val / 4) + 3) b3 (step1 V c (4 * (t.val / 4) + 2) b2 (step1 V c (4 * (t.val / 4) + 1) b1
          (step1 V c (4 * (t.val / 4) + 0) b0 (k1_pay1 (F := Ideal))))) := by
  have same : ∀ (u : ℕ) (hu : u < cfg1.N), u = t.val → outsAt1 V c u hu = outsAt1 V c t.val t.isLt :=
    fun u hu e => by subst e; rfl
  have ht : 4 * (t.val / 4) + 3 = t.val := by omega
  rw [← same _ b3 ht]
  exact Pipeline.eq_accAt (fun n hn => outsAt1 V c n hn) 4 (fun n hn => step1 V c n hn (k1_pay1 (F := Ideal)))
    (fun n hn acc => step1 V c n hn acc)
    (fun n h hm => outsAt1_first V c ⟨n, h⟩ hm)
    (fun n h hm => outsAt1_next V c ⟨n + 1, h⟩ hm)
    (t.val / 4) 3 (by omega) b3

/-- What a flushing point writes back is its block of the combined output of the arrays as the region finds them. -/
theorem flushed1_eq (c : Dev nD) (t : Fin cfg1.N) (hf : (cfg1.win 3).flush t = true) :
    (dat1 V c).flushed 3 t = ((cfg1.win 3).blk t).view.read (Elt Ideal)
      (outArr (V c main_v141) (V c main_v71) (V c main_arg2)) := by
  have h3 : t.val % 4 = 3 := (flush1_3 t).mp hf
  have hN : t.val < 40 := lt_of_lt_of_eq t.isLt (show cfg1.N = 40 from N_1)
  have hN' : cfg1.N = 40 := N_1
  have b0 : 4 * (t.val / 4) + 0 < cfg1.N := by omega
  have b1 : 4 * (t.val / 4) + 1 < cfg1.N := by omega
  have b2 : 4 * (t.val / 4) + 2 < cfg1.N := by omega
  have b3 : 4 * (t.val / 4) + 3 < cfg1.N := by omega
  show (cfg1.win 3).cut (grid1.coords t) ((dat1 V c).after 3 t) = _
  rw [after1_3, outsAt1_fold V c t h3 b0 b1 b2 b3]
  funext y
  obtain ⟨p, e, rfl⟩ : ∃ (p : Fin 10000) (e : Fin 64), y = ix2 p e := ⟨y 0, y 1, eq_ix2 y⟩
  unfold step1
  refine (fold4_apply _ _ _ _ _ _ _ _ _ _ _ _ p e).trans ?_
  obtain ⟨r00, r01, r02⟩ := blk_reads1 V c t ⟨4 * (t.val / 4) + 0, b0⟩ (0 : Fin 4) rfl p e
  obtain ⟨r10, r11, r12⟩ := blk_reads1 V c t ⟨4 * (t.val / 4) + 1, b1⟩ (1 : Fin 4) rfl p e
  obtain ⟨r20, r21, r22⟩ := blk_reads1 V c t ⟨4 * (t.val / 4) + 2, b2⟩ (2 : Fin 4) rfl p e
  obtain ⟨r30, r31, r32⟩ := blk_reads1 V c t ⟨4 * (t.val / 4) + 3, b3⟩ (3 : Fin 4) rfl p e
  rw [r00, r01, r02, r10, r11, r12, r20, r21, r22, r30, r31, r32]
  rfl

/-! ## The written blocks tile the array -/

/-- An index of the array is in point `t`'s block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v142).slice (win1_3.rect t)).set ↔ _
  rw [View.set_slice_whole, Rect.mem_set_unit]
  exact Iff.rfl

/-- Every index of the array is in the block of a flushing point: row `r` is written back by the point
    `4 (r / 10000) + 3`. -/
theorem cover1 (i : S100000x64.Idx) :
    ∃ t : Fin cfg1.N, (cfg1.win 3).flush t = true ∧ i ∈ ((cfg1.win 3).blk t).view.set := by
  have hN : cfg1.N = 40 := N_1
  have hi0 : (i 0).val < 100000 := (i 0).isLt
  have hi1 : (i 1).val < 64 := (i 1).isLt
  have ht : 4 * ((i 0).val / 10000) + 3 < cfg1.N := by omega
  obtain ⟨_, _, _, _, _, _, _, _, e8, e9, _, _⟩ := idx_facts1 ⟨4 * ((i 0).val / 10000) + 3, ht⟩
  refine ⟨⟨4 * ((i 0).val / 10000) + 3, ht⟩, (flush1_3 _).mpr (by show (4 * ((i 0).val / 10000) + 3) % 4 = 3; omega), ?_⟩
  rw [mem_blk1]
  have e8' : win1_3.index ⟨4 * ((i 0).val / 10000) + 3, ht⟩ (0 : Fin 2) = (4 * ((i 0).val / 10000) + 3) / 4 := e8
  intro a
  match a with
  | ⟨0, _⟩ =>
    show win1_3.index ⟨4 * ((i 0).val / 10000) + 3, ht⟩ (0 : Fin 2) * 10000 ≤ (i 0).val
      ∧ (i 0).val < win1_3.index ⟨4 * ((i 0).val / 10000) + 3, ht⟩ (0 : Fin 2) * 10000 + 10000
    omega
  | ⟨1, _⟩ =>
    show win1_3.index ⟨4 * ((i 0).val / 10000) + 3, ht⟩ (1 : Fin 2) * 64 ≤ (i 1).val
      ∧ (i 1).val < win1_3.index ⟨4 * ((i 0).val / 10000) + 3, ht⟩ (1 : Fin 2) * 64 + 64
    omega

/-! ## The array after the run -/

/-- The combine launch leaves its output array at the combined output of the arrays the region is entered with. -/
theorem final1 (c : Dev nD) :
    (dat1 V c).arrAt 3 cfg1.N = outArr (V c main_v141) (V c main_v71) (V c main_arg2) :=
  (dat1 V c).arrAt_eq_of_cover 3 _ (fun t hf => flushed1_eq V c t hf) cover1

end Cert.KernelIdeal.Val

end
-- ==== Proof.Ref.Opaque.lean ====
import proofs.«169069_j12051678233154_1_alg».proof.Proof.Gen.ReferenceIdeal.Read

/-! The stages of the reference that are not read at an index, written out as the terms they are: each
    edge type's aggregate is a scatter-add, over the destination indices, of the rows of the feature product
    gathered at the (wrapped) source indices; each normalisation is the reciprocal square root of the degree
    count (a scatter-add of ones) clipped below at one. Every statement here holds by unfolding. -/

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

/-- Row k of an index array, as a vector of 1000000 indices. -/
abbrev row0 (x : (⟨S4x1000000, .i32⟩ : BufTy).Contents (Elt Ideal)) : (⟨S1000000, .i32⟩ : BufTy).Contents (Elt Ideal) :=
  shapeCast _ (extractStridedSlice S1x1000000 ![0, 0] x slices_S4x1000000_S1x1000000_0_0) shapeCasts_S1x1000000_S1000000
abbrev row1 (x : (⟨S4x1000000, .i32⟩ : BufTy).Contents (Elt Ideal)) : (⟨S1000000, .i32⟩ : BufTy).Contents (Elt Ideal) :=
  shapeCast _ (extractStridedSlice S1x1000000 ![1, 0] x slices_S4x1000000_S1x1000000_1_0) shapeCasts_S1x1000000_S1000000
abbrev row2 (x : (⟨S4x1000000, .i32⟩ : BufTy).Contents (Elt Ideal)) : (⟨S1000000, .i32⟩ : BufTy).Contents (Elt Ideal) :=
  shapeCast _ (extractStridedSlice S1x1000000 ![2, 0] x slices_S4x1000000_S1x1000000_2_0) shapeCasts_S1x1000000_S1000000
abbrev row3 (x : (⟨S4x1000000, .i32⟩ : BufTy).Contents (Elt Ideal)) : (⟨S1000000, .i32⟩ : BufTy).Contents (Elt Ideal) :=
  shapeCast _ (extractStridedSlice S1x1000000 ![3, 0] x slices_S4x1000000_S1x1000000_3_0) shapeCasts_S1x1000000_S1000000

/-- The normalisation of a vector of 1000000 node indices: the reciprocal square root of (the number of
    occurrences of each node, clipped below at one). -/
abbrev normOf (r : (⟨S1000000, .i32⟩ : BufTy).Contents (Elt Ideal)) : (⟨S100000, .f32⟩ : BufTy).Contents (Elt Ideal) :=
  Host.rsqrt (F := Ideal) (φ := .f32) (maximumf (F := Ideal) (φ := .f32) (broadcastInDim S100000 ![] bcast_S_S100000 (constant (F := Ideal) S_ .f32 0x3F800000#32))
    (Host.scatterAdd (F := Ideal) (φ := .f32) scatter_S100000_S1000000x1_S1000000_n_0_0_1
      (broadcastInDim S100000 ![] bcast_S_S100000 (constant (F := Ideal) S_ .f32 0x00000000#32))
      (broadcastInDim S1000000x1 ![0] bcast_S1000000_S1000000x1_0 r)
      (broadcastInDim S1000000 ![] bcast_S_S1000000 (constant (F := Ideal) S_ .f32 0x3F800000#32))))

/-- A vector of signed indices with the negative ones wrapped by adding 100000, as a column. -/
abbrev wrapCol (r : (⟨S1000000, .i32⟩ : BufTy).Contents (Elt Ideal)) : (⟨S1000000x1, .i32⟩ : BufTy).Contents (Elt Ideal) :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 100000#32))) r)

/-- The aggregate of a feature array along edges (source column s, destination vector d). -/
abbrev aggOf (feat : (⟨S100000x64, .f32⟩ : BufTy).Contents (Elt Ideal)) (s : (⟨S1000000x1, .i32⟩ : BufTy).Contents (Elt Ideal))
    (d : (⟨S1000000, .i32⟩ : BufTy).Contents (Elt Ideal)) : (⟨S100000x64, .f32⟩ : BufTy).Contents (Elt Ideal) :=
  Host.scatterAdd (F := Ideal) (φ := .f32) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 d)
    (Host.gather gather_S100000x64_S1000000x1_S1000000x64_1_0_n_n_0_1_164 feat s)

theorem norm_src0_def (x3 : (⟨S4x1000000, .i32⟩ : BufTy).Contents (Elt Ideal)) :
    val_main_v17 (F := Ideal) x3 = normOf (row0 x3) := rfl
theorem norm_dst0_def (x4 : (⟨S4x1000000, .i32⟩ : BufTy).Contents (Elt Ideal)) :
    val_main_v19 (F := Ideal) x4 = normOf (row0 x4) := rfl
theorem src_col0_def (x3 : (⟨S4x1000000, .i32⟩ : BufTy).Contents (Elt Ideal)) :
    val_main_v29 (F := Ideal) x3 = wrapCol (row0 x3) := rfl
theorem agg0_def (x0 : (⟨S100000x128, .f32⟩ : BufTy).Contents (Elt Ideal)) (x1 : (⟨S4x128x64, .f32⟩ : BufTy).Contents (Elt Ideal))
    (x3 x4 : (⟨S4x1000000, .i32⟩ : BufTy).Contents (Elt Ideal)) :
    val_main_v33 (F := Ideal) x0 x1 x3 x4
      = Host.scatterAdd (F := Ideal) (φ := .f32) scatter_S100000x64_S1000000x1_S1000000x64_1_0_0_1 (val_main_v31 (F := Ideal)) (val_main_v32 (F := Ideal) x4)
          (Host.gather gather_S100000x64_S1000000x1_S1000000x64_1_0_n_n_0_1_164 (val_main_v23 (F := Ideal) x0 x1 x3) (val_main_v29 (F := Ideal) x3)) := rfl
theorem agg0_eq (x0 : (⟨S100000x128, .f32⟩ : BufTy).Contents (Elt Ideal)) (x1 : (⟨S4x128x64, .f32⟩ : BufTy).Contents (Elt Ideal))
    (x3 x4 : (⟨S4x1000000, .i32⟩ : BufTy).Contents (Elt Ideal)) :
    val_main_v33 (F := Ideal) x0 x1 x3 x4
      = aggOf (val_main_v23 (F := Ideal) x0 x1 x3) (wrapCol (row0 x3)) (row0 x4) := rfl

theorem norm_src1_def (x3 : (⟨S4x1000000, .i32⟩ : BufTy).Contents (Elt Ideal)) :
    val_main_v57 (F := Ideal) x3 = normOf (row1 x3) := rfl
theorem norm_dst1_def (x4 : (⟨S4x1000000, .i32⟩ : BufTy).Contents (Elt Ideal)) :
    val_main_v59 (F := Ideal) x4 = normOf (row1 x4) := rfl
theorem src_col1_def (x3 : (⟨S4x1000000, .i32⟩ : BufTy).Contents (Elt Ideal)) :
    val_main_v69 (F := Ideal) x3 = wrapCol (row1 x3) := rfl
theorem agg1_def (x0 : (⟨S100000x128, .f32⟩ : BufTy).Contents (Elt Ideal)) (x1 : (⟨S4x128x64, .f32⟩ : BufTy).Contents (Elt Ideal))
    (x3 x4 : (⟨S4x1000000, .i32⟩ : BufTy).Contents (Elt Ideal)) :
    val_main_v73 (F := Ideal) x0 x1 x3 x4
      = Host.scatterAdd (F := Ideal) (φ := .f32) scatter_S100000x64_S1000000x1_S1000000x64_1_0_0_1 (val_main_v71 (F := Ideal)) (val_main_v72 (F := Ideal) x4)
          (Host.gather gather_S100000x64_S1000000x1_S1000000x64_1_0_n_n_0_1_164 (val_main_v63 (F := Ideal) x0 x1 x3) (val_main_v69 (F := Ideal) x3)) := rfl
theorem agg1_eq (x0 : (⟨S100000x128, .f32⟩ : BufTy).Contents (Elt Ideal)) (x1 : (⟨S4x128x64, .f32⟩ : BufTy).Contents (Elt Ideal))
    (x3 x4 : (⟨S4x1000000, .i32⟩ : BufTy).Contents (Elt Ideal)) :
    val_main_v73 (F := Ideal) x0 x1 x3 x4
      = aggOf (val_main_v63 (F := Ideal) x0 x1 x3) (wrapCol (row1 x3)) (row1 x4) := rfl

theorem norm_src2_def (x3 : (⟨S4x1000000, .i32⟩ : BufTy).Contents (Elt Ideal)) :
    val_main_v97 (F := Ideal) x3 = normOf (row2 x3) := rfl
theorem norm_dst2_def (x4 : (⟨S4x1000000, .i32⟩ : BufTy).Contents (Elt Ideal)) :
    val_main_v99 (F := Ideal) x4 = normOf (row2 x4) := rfl
theorem src_col2_def (x3 : (⟨S4x1000000, .i32⟩ : BufTy).Contents (Elt Ideal)) :
    val_main_v109 (F := Ideal) x3 = wrapCol (row2 x3) := rfl
theorem agg2_def (x0 : (⟨S100000x128, .f32⟩ : BufTy).Contents (Elt Ideal)) (x1 : (⟨S4x128x64, .f32⟩ : BufTy).Contents (Elt Ideal))
    (x3 x4 : (⟨S4x1000000, .i32⟩ : BufTy).Contents (Elt Ideal)) :
    val_main_v113 (F := Ideal) x0 x1 x3 x4
      = Host.scatterAdd (F := Ideal) (φ := .f32) scatter_S100000x64_S1000000x1_S1000000x64_1_0_0_1 (val_main_v111 (F := Ideal)) (val_main_v112 (F := Ideal) x4)
          (Host.gather gather_S100000x64_S1000000x1_S1000000x64_1_0_n_n_0_1_164 (val_main_v103 (F := Ideal) x0 x1 x3) (val_main_v109 (F := Ideal) x3)) := rfl
theorem agg2_eq (x0 : (⟨S100000x128, .f32⟩ : BufTy).Contents (Elt Ideal)) (x1 : (⟨S4x128x64, .f32⟩ : BufTy).Contents (Elt Ideal))
    (x3 x4 : (⟨S4x1000000, .i32⟩ : BufTy).Contents (Elt Ideal)) :
    val_main_v113 (F := Ideal) x0 x1 x3 x4
      = aggOf (val_main_v103 (F := Ideal) x0 x1 x3) (wrapCol (row2 x3)) (row2 x4) := rfl

theorem norm_src3_def (x3 : (⟨S4x1000000, .i32⟩ : BufTy).Contents (Elt Ideal)) :
    val_main_v137 (F := Ideal) x3 = normOf (row3 x3) := rfl
theorem norm_dst3_def (x4 : (⟨S4x1000000, .i32⟩ : BufTy).Contents (Elt Ideal)) :
    val_main_v139 (F := Ideal) x4 = normOf (row3 x4) := rfl
theorem src_col3_def (x3 : (⟨S4x1000000, .i32⟩ : BufTy).Contents (Elt Ideal)) :
    val_main_v149 (F := Ideal) x3 = wrapCol (row3 x3) := rfl
theorem agg3_def (x0 : (⟨S100000x128, .f32⟩ : BufTy).Contents (Elt Ideal)) (x1 : (⟨S4x128x64, .f32⟩ : BufTy).Contents (Elt Ideal))
    (x3 x4 : (⟨S4x1000000, .i32⟩ : BufTy).Contents (Elt Ideal)) :
    val_main_v153 (F := Ideal) x0 x1 x3 x4
      = Host.scatterAdd (F := Ideal) (φ := .f32) scatter_S100000x64_S1000000x1_S1000000x64_1_0_0_1 (val_main_v151 (F := Ideal)) (val_main_v152 (F := Ideal) x4)
          (Host.gather gather_S100000x64_S1000000x1_S1000000x64_1_0_n_n_0_1_164 (val_main_v143 (F := Ideal) x0 x1 x3) (val_main_v149 (F := Ideal) x3)) := rfl
theorem agg3_eq (x0 : (⟨S100000x128, .f32⟩ : BufTy).Contents (Elt Ideal)) (x1 : (⟨S4x128x64, .f32⟩ : BufTy).Contents (Elt Ideal))
    (x3 x4 : (⟨S4x1000000, .i32⟩ : BufTy).Contents (Elt Ideal)) :
    val_main_v153 (F := Ideal) x0 x1 x3 x4
      = aggOf (val_main_v143 (F := Ideal) x0 x1 x3) (wrapCol (row3 x3)) (row3 x4) := rfl

/-! The same statements with nothing abbreviated: each normalisation as one composed term of its index array. -/

theorem norm_src0_term (x3 : (⟨S4x1000000, .i32⟩ : BufTy).Contents (Elt Ideal)) :
    val_main_v17 (F := Ideal) x3
      = Host.rsqrt (F := Ideal) (φ := .f32) (maximumf (F := Ideal) (φ := .f32) (broadcastInDim S100000 ![] bcast_S_S100000 (constant (F := Ideal) S_ .f32 0x3F800000#32))
          (Host.scatterAdd (F := Ideal) (φ := .f32) scatter_S100000_S1000000x1_S1000000_n_0_0_1
            (broadcastInDim S100000 ![] bcast_S_S100000 (constant (F := Ideal) S_ .f32 0x00000000#32))
            (broadcastInDim S1000000x1 ![0] bcast_S1000000_S1000000x1_0
              (shapeCast _ (extractStridedSlice S1x1000000 ![0, 0] x3 slices_S4x1000000_S1x1000000_0_0) shapeCasts_S1x1000000_S1000000))
            (broadcastInDim S1000000 ![] bcast_S_S1000000 (constant (F := Ideal) S_ .f32 0x3F800000#32)))) := rfl
theorem norm_dst0_term (x4 : (⟨S4x1000000, .i32⟩ : BufTy).Contents (Elt Ideal)) :
    val_main_v19 (F := Ideal) x4
      = Host.rsqrt (F := Ideal) (φ := .f32) (maximumf (F := Ideal) (φ := .f32) (broadcastInDim S100000 ![] bcast_S_S100000 (constant (F := Ideal) S_ .f32 0x3F800000#32))
          (Host.scatterAdd (F := Ideal) (φ := .f32) scatter_S100000_S1000000x1_S1000000_n_0_0_1
            (broadcastInDim S100000 ![] bcast_S_S100000 (constant (F := Ideal) S_ .f32 0x00000000#32))
            (broadcastInDim S1000000x1 ![0] bcast_S1000000_S1000000x1_0
              (shapeCast _ (extractStridedSlice S1x1000000 ![0, 0] x4 slices_S4x1000000_S1x1000000_0_0) shapeCasts_S1x1000000_S1000000))
            (broadcastInDim S1000000 ![] bcast_S_S1000000 (constant (F := Ideal) S_ .f32 0x3F800000#32)))) := rfl
theorem zero_init0_def : val_main_v31 (F := Ideal) = broadcastInDim S100000x64 ![] bcast_S_S100000x64 (constant (F := Ideal) S_ .f32 0x00000000#32) := rfl
theorem dst_col0_def (x4 : (⟨S4x1000000, .i32⟩ : BufTy).Contents (Elt Ideal)) :
    val_main_v32 (F := Ideal) x4 = broadcastInDim S1000000x1 ![0] bcast_S1000000_S1000000x1_0 (shapeCast _ (extractStridedSlice S1x1000000 ![0, 0] x4 slices_S4x1000000_S1x1000000_0_0) shapeCasts_S1x1000000_S1000000) := rfl

theorem norm_src1_term (x3 : (⟨S4x1000000, .i32⟩ : BufTy).Contents (Elt Ideal)) :
    val_main_v57 (F := Ideal) x3
      = Host.rsqrt (F := Ideal) (φ := .f32) (maximumf (F := Ideal) (φ := .f32) (broadcastInDim S100000 ![] bcast_S_S100000 (constant (F := Ideal) S_ .f32 0x3F800000#32))
          (Host.scatterAdd (F := Ideal) (φ := .f32) scatter_S100000_S1000000x1_S1000000_n_0_0_1
            (broadcastInDim S100000 ![] bcast_S_S100000 (constant (F := Ideal) S_ .f32 0x00000000#32))
            (broadcastInDim S1000000x1 ![0] bcast_S1000000_S1000000x1_0
              (shapeCast _ (extractStridedSlice S1x1000000 ![1, 0] x3 slices_S4x1000000_S1x1000000_1_0) shapeCasts_S1x1000000_S1000000))
            (broadcastInDim S1000000 ![] bcast_S_S1000000 (constant (F := Ideal) S_ .f32 0x3F800000#32)))) := rfl
theorem norm_dst1_term (x4 : (⟨S4x1000000, .i32⟩ : BufTy).Contents (Elt Ideal)) :
    val_main_v59 (F := Ideal) x4
      = Host.rsqrt (F := Ideal) (φ := .f32) (maximumf (F := Ideal) (φ := .f32) (broadcastInDim S100000 ![] bcast_S_S100000 (constant (F := Ideal) S_ .f32 0x3F800000#32))
          (Host.scatterAdd (F := Ideal) (φ := .f32) scatter_S100000_S1000000x1_S1000000_n_0_0_1
            (broadcastInDim S100000 ![] bcast_S_S100000 (constant (F := Ideal) S_ .f32 0x00000000#32))
            (broadcastInDim S1000000x1 ![0] bcast_S1000000_S1000000x1_0
              (shapeCast _ (extractStridedSlice S1x1000000 ![1, 0] x4 slices_S4x1000000_S1x1000000_1_0) shapeCasts_S1x1000000_S1000000))
            (broadcastInDim S1000000 ![] bcast_S_S1000000 (constant (F := Ideal) S_ .f32 0x3F800000#32)))) := rfl
theorem zero_init1_def : val_main_v71 (F := Ideal) = broadcastInDim S100000x64 ![] bcast_S_S100000x64 (constant (F := Ideal) S_ .f32 0x00000000#32) := rfl
theorem dst_col1_def (x4 : (⟨S4x1000000, .i32⟩ : BufTy).Contents (Elt Ideal)) :
    val_main_v72 (F := Ideal) x4 = broadcastInDim S1000000x1 ![0] bcast_S1000000_S1000000x1_0 (shapeCast _ (extractStridedSlice S1x1000000 ![1, 0] x4 slices_S4x1000000_S1x1000000_1_0) shapeCasts_S1x1000000_S1000000) := rfl

theorem norm_src2_term (x3 : (⟨S4x1000000, .i32⟩ : BufTy).Contents (Elt Ideal)) :
    val_main_v97 (F := Ideal) x3
      = Host.rsqrt (F := Ideal) (φ := .f32) (maximumf (F := Ideal) (φ := .f32) (broadcastInDim S100000 ![] bcast_S_S100000 (constant (F := Ideal) S_ .f32 0x3F800000#32))
          (Host.scatterAdd (F := Ideal) (φ := .f32) scatter_S100000_S1000000x1_S1000000_n_0_0_1
            (broadcastInDim S100000 ![] bcast_S_S100000 (constant (F := Ideal) S_ .f32 0x00000000#32))
            (broadcastInDim S1000000x1 ![0] bcast_S1000000_S1000000x1_0
              (shapeCast _ (extractStridedSlice S1x1000000 ![2, 0] x3 slices_S4x1000000_S1x1000000_2_0) shapeCasts_S1x1000000_S1000000))
            (broadcastInDim S1000000 ![] bcast_S_S1000000 (constant (F := Ideal) S_ .f32 0x3F800000#32)))) := rfl
theorem norm_dst2_term (x4 : (⟨S4x1000000, .i32⟩ : BufTy).Contents (Elt Ideal)) :
    val_main_v99 (F := Ideal) x4
      = Host.rsqrt (F := Ideal) (φ := .f32) (maximumf (F := Ideal) (φ := .f32) (broadcastInDim S100000 ![] bcast_S_S100000 (constant (F := Ideal) S_ .f32 0x3F800000#32))
          (Host.scatterAdd (F := Ideal) (φ := .f32) scatter_S100000_S1000000x1_S1000000_n_0_0_1
            (broadcastInDim S100000 ![] bcast_S_S100000 (constant (F := Ideal) S_ .f32 0x00000000#32))
            (broadcastInDim S1000000x1 ![0] bcast_S1000000_S1000000x1_0
              (shapeCast _ (extractStridedSlice S1x1000000 ![2, 0] x4 slices_S4x1000000_S1x1000000_2_0) shapeCasts_S1x1000000_S1000000))
            (broadcastInDim S1000000 ![] bcast_S_S1000000 (constant (F := Ideal) S_ .f32 0x3F800000#32)))) := rfl
theorem zero_init2_def : val_main_v111 (F := Ideal) = broadcastInDim S100000x64 ![] bcast_S_S100000x64 (constant (F := Ideal) S_ .f32 0x00000000#32) := rfl
theorem dst_col2_def (x4 : (⟨S4x1000000, .i32⟩ : BufTy).Contents (Elt Ideal)) :
    val_main_v112 (F := Ideal) x4 = broadcastInDim S1000000x1 ![0] bcast_S1000000_S1000000x1_0 (shapeCast _ (extractStridedSlice S1x1000000 ![2, 0] x4 slices_S4x1000000_S1x1000000_2_0) shapeCasts_S1x1000000_S1000000) := rfl

theorem norm_src3_term (x3 : (⟨S4x1000000, .i32⟩ : BufTy).Contents (Elt Ideal)) :
    val_main_v137 (F := Ideal) x3
      = Host.rsqrt (F := Ideal) (φ := .f32) (maximumf (F := Ideal) (φ := .f32) (broadcastInDim S100000 ![] bcast_S_S100000 (constant (F := Ideal) S_ .f32 0x3F800000#32))
          (Host.scatterAdd (F := Ideal) (φ := .f32) scatter_S100000_S1000000x1_S1000000_n_0_0_1
            (broadcastInDim S100000 ![] bcast_S_S100000 (constant (F := Ideal) S_ .f32 0x00000000#32))
            (broadcastInDim S1000000x1 ![0] bcast_S1000000_S1000000x1_0
              (shapeCast _ (extractStridedSlice S1x1000000 ![3, 0] x3 slices_S4x1000000_S1x1000000_3_0) shapeCasts_S1x1000000_S1000000))
            (broadcastInDim S1000000 ![] bcast_S_S1000000 (constant (F := Ideal) S_ .f32 0x3F800000#32)))) := rfl
theorem norm_dst3_term (x4 : (⟨S4x1000000, .i32⟩ : BufTy).Contents (Elt Ideal)) :
    val_main_v139 (F := Ideal) x4
      = Host.rsqrt (F := Ideal) (φ := .f32) (maximumf (F := Ideal) (φ := .f32) (broadcastInDim S100000 ![] bcast_S_S100000 (constant (F := Ideal) S_ .f32 0x3F800000#32))
          (Host.scatterAdd (F := Ideal) (φ := .f32) scatter_S100000_S1000000x1_S1000000_n_0_0_1
            (broadcastInDim S100000 ![] bcast_S_S100000 (constant (F := Ideal) S_ .f32 0x00000000#32))
            (broadcastInDim S1000000x1 ![0] bcast_S1000000_S1000000x1_0
              (shapeCast _ (extractStridedSlice S1x1000000 ![3, 0] x4 slices_S4x1000000_S1x1000000_3_0) shapeCasts_S1x1000000_S1000000))
            (broadcastInDim S1000000 ![] bcast_S_S1000000 (constant (F := Ideal) S_ .f32 0x3F800000#32)))) := rfl
theorem zero_init3_def : val_main_v151 (F := Ideal) = broadcastInDim S100000x64 ![] bcast_S_S100000x64 (constant (F := Ideal) S_ .f32 0x00000000#32) := rfl
theorem dst_col3_def (x4 : (⟨S4x1000000, .i32⟩ : BufTy).Contents (Elt Ideal)) :
    val_main_v152 (F := Ideal) x4 = broadcastInDim S1000000x1 ![0] bcast_S1000000_S1000000x1_0 (shapeCast _ (extractStridedSlice S1x1000000 ![3, 0] x4 slices_S4x1000000_S1x1000000_3_0) shapeCasts_S1x1000000_S1000000) := rfl

end Cert.ReferenceIdeal.RefValue
-- ==== Proof.Val.Stretch.lean ====
import proofs.«169069_j12051678233154_1_alg».proof.Proof.KI.Run
import Idealize.ShloMosaic.Lib.StableHlo.Run
import Idealize.ShloMosaic.PureOps.Ideal.Laws

/-! The seventeen stretches of host operations before the projection launch, one at a time, from arbitrary
    contents: which buffers a stretch leaves alone, and what it writes into the degree counts, their clipped
    values, the normalisations and the unit constants, as terms of the contents it starts from. -/

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.Hand

variable (Wv : Valuation τ sig (Elt Ideal))

/-! ## A buffer a stretch does not write keeps its contents -/

theorem keep0 (r : Ref sig .tc) (h : ∀ y ∈ [main_cst, main_v0, main_v1, main_v2, main_cst_0, main_v3, main_v4, main_v5, main_v6, main_v7, main_cst_1, main_v8, main_v9, main_v10, main_cst_2], r ≠ y) :
    StableHlo.after (hostOps0 (F := Ideal)) Wv (Proc.devRef .tc r) = Wv (Proc.devRef .tc r) :=
  StableHlo.after_of_forall_not_mem (b := (Proc.devRef .tc r)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep1 (r : Ref sig .tc) (h : ∀ y ∈ [main_call0_v0, main_call0_v1, main_v11], r ≠ y) :
    StableHlo.after (hostOps0_1 (F := Ideal)) Wv (Proc.devRef .tc r) = Wv (Proc.devRef .tc r) :=
  StableHlo.after_of_forall_not_mem (b := (Proc.devRef .tc r)) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep2 (r : Ref sig .tc) (h : ∀ y ∈ [main_v12, main_cst_3], r ≠ y) :
    StableHlo.after (hostOps0_2 (F := Ideal)) Wv (Proc.devRef .tc r) = Wv (Proc.devRef .tc r) :=
  StableHlo.after_of_forall_not_mem (b := (Proc.devRef .tc r)) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep3 (r : Ref sig .tc) (h : ∀ y ∈ [main_call1_v0, main_call1_v1, main_v13], r ≠ y) :
    StableHlo.after (hostOps0_3 (F := Ideal)) Wv (Proc.devRef .tc r) = Wv (Proc.devRef .tc r) :=
  StableHlo.after_of_forall_not_mem (b := (Proc.devRef .tc r)) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep4 (r : Ref sig .tc) (h : ∀ y ∈ [main_v14, main_cst_4, main_v15, main_v16, main_v17, main_cst_5, main_v18, main_v19, main_v20, main_v21, main_v22, main_cst_6, main_v23, main_v24, main_v25, main_cst_7], r ≠ y) :
    StableHlo.after (hostOps0_4 (F := Ideal)) Wv (Proc.devRef .tc r) = Wv (Proc.devRef .tc r) :=
  StableHlo.after_of_forall_not_mem (b := (Proc.devRef .tc r)) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep5 (r : Ref sig .tc) (h : ∀ y ∈ [main_call2_v0, main_call2_v1, main_v26], r ≠ y) :
    StableHlo.after (hostOps0_5 (F := Ideal)) Wv (Proc.devRef .tc r) = Wv (Proc.devRef .tc r) :=
  StableHlo.after_of_forall_not_mem (b := (Proc.devRef .tc r)) _ _ (List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep6 (r : Ref sig .tc) (h : ∀ y ∈ [main_v27, main_cst_8], r ≠ y) :
    StableHlo.after (hostOps0_6 (F := Ideal)) Wv (Proc.devRef .tc r) = Wv (Proc.devRef .tc r) :=
  StableHlo.after_of_forall_not_mem (b := (Proc.devRef .tc r)) _ _ (List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep7 (r : Ref sig .tc) (h : ∀ y ∈ [main_call3_v0, main_call3_v1, main_v28], r ≠ y) :
    StableHlo.after (hostOps0_7 (F := Ideal)) Wv (Proc.devRef .tc r) = Wv (Proc.devRef .tc r) :=
  StableHlo.after_of_forall_not_mem (b := (Proc.devRef .tc r)) _ _ (List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep8 (r : Ref sig .tc) (h : ∀ y ∈ [main_v29, main_cst_9, main_v30, main_v31, main_v32, main_cst_10, main_v33, main_v34, main_v35, main_v36, main_v37, main_cst_11, main_v38, main_v39, main_v40, main_cst_12], r ≠ y) :
    StableHlo.after (hostOps0_8 (F := Ideal)) Wv (Proc.devRef .tc r) = Wv (Proc.devRef .tc r) :=
  StableHlo.after_of_forall_not_mem (b := (Proc.devRef .tc r)) _ _ (List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep9 (r : Ref sig .tc) (h : ∀ y ∈ [main_call4_v0, main_call4_v1, main_v41], r ≠ y) :
    StableHlo.after (hostOps0_9 (F := Ideal)) Wv (Proc.devRef .tc r) = Wv (Proc.devRef .tc r) :=
  StableHlo.after_of_forall_not_mem (b := (Proc.devRef .tc r)) _ _ (List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep10 (r : Ref sig .tc) (h : ∀ y ∈ [main_v42, main_cst_13], r ≠ y) :
    StableHlo.after (hostOps0_10 (F := Ideal)) Wv (Proc.devRef .tc r) = Wv (Proc.devRef .tc r) :=
  StableHlo.after_of_forall_not_mem (b := (Proc.devRef .tc r)) _ _ (List.forall_iff_forall_mem.mp (by
    simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep11 (r : Ref sig .tc) (h : ∀ y ∈ [main_call5_v0, main_call5_v1, main_v43], r ≠ y) :
    StableHlo.after (hostOps0_11 (F := Ideal)) Wv (Proc.devRef .tc r) = Wv (Proc.devRef .tc r) :=
  StableHlo.after_of_forall_not_mem (b := (Proc.devRef .tc r)) _ _ (List.forall_iff_forall_mem.mp (by
    simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep12 (r : Ref sig .tc) (h : ∀ y ∈ [main_v44, main_cst_14, main_v45, main_v46, main_v47, main_cst_15, main_v48, main_v49, main_v50, main_v51, main_v52, main_cst_16, main_v53, main_v54, main_v55, main_cst_17], r ≠ y) :
    StableHlo.after (hostOps0_12 (F := Ideal)) Wv (Proc.devRef .tc r) = Wv (Proc.devRef .tc r) :=
  StableHlo.after_of_forall_not_mem (b := (Proc.devRef .tc r)) _ _ (List.forall_iff_forall_mem.mp (by
    simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep13 (r : Ref sig .tc) (h : ∀ y ∈ [main_call6_v0, main_call6_v1, main_v56], r ≠ y) :
    StableHlo.after (hostOps0_13 (F := Ideal)) Wv (Proc.devRef .tc r) = Wv (Proc.devRef .tc r) :=
  StableHlo.after_of_forall_not_mem (b := (Proc.devRef .tc r)) _ _ (List.forall_iff_forall_mem.mp (by
    simp only [hostOps0_13, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep14 (r : Ref sig .tc) (h : ∀ y ∈ [main_v57, main_cst_18], r ≠ y) :
    StableHlo.after (hostOps0_14 (F := Ideal)) Wv (Proc.devRef .tc r) = Wv (Proc.devRef .tc r) :=
  StableHlo.after_of_forall_not_mem (b := (Proc.devRef .tc r)) _ _ (List.forall_iff_forall_mem.mp (by
    simp only [hostOps0_14, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep15 (r : Ref sig .tc) (h : ∀ y ∈ [main_call7_v0, main_call7_v1, main_v58], r ≠ y) :
    StableHlo.after (hostOps0_15 (F := Ideal)) Wv (Proc.devRef .tc r) = Wv (Proc.devRef .tc r) :=
  StableHlo.after_of_forall_not_mem (b := (Proc.devRef .tc r)) _ _ (List.forall_iff_forall_mem.mp (by
    simp only [hostOps0_15, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

theorem keep16 (r : Ref sig .tc) (h : ∀ y ∈ [main_v59, main_v60, main_v61, main_v62, main_v63, main_v64, main_v65, main_v66, main_v67, main_v68, main_v69, main_v70, main_v71], r ≠ y) :
    StableHlo.after (hostOps0_16 (F := Ideal)) Wv (Proc.devRef .tc r) = Wv (Proc.devRef .tc r) :=
  StableHlo.after_of_forall_not_mem (b := (Proc.devRef .tc r)) _ _ (List.forall_iff_forall_mem.mp (by
    simp only [hostOps0_16, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (h _ (by decide))))

/-! ## What a stretch writes -/

/-- Edge type 0: the source and destination degree counts, and the unit constant, after their stretch. -/
theorem cntS0 : StableHlo.after (hostOps0 (F := Ideal)) Wv (Proc.devRef .tc main_v5)
    = Host.scatterAdd (F := Ideal) (φ := .f32) scatter_S100000_S1000000x1_S1000000_n_0_0_1
      (broadcastInDim S100000 ![] bcast_S_S100000 (constant (F := Ideal) S_ .f32 0x00000000#32))
      (broadcastInDim S1000000x1 ![0] bcast_S1000000_S1000000x1_0 (shapeCast _ (extractStridedSlice S1x1000000 ![0, 0] (Wv (Proc.devRef .tc main_arg3)) slices_S4x1000000_S1x1000000_0_0) shapeCasts_S1x1000000_S1000000))
      (broadcastInDim S1000000 ![] bcast_S_S1000000 (constant (F := Ideal) S_ .f32 0x3F800000#32)) := by
  after_results <;> rfl
theorem cntD0 : StableHlo.after (hostOps0 (F := Ideal)) Wv (Proc.devRef .tc main_v10)
    = Host.scatterAdd (F := Ideal) (φ := .f32) scatter_S100000_S1000000x1_S1000000_n_0_0_1
      (broadcastInDim S100000 ![] bcast_S_S100000 (constant (F := Ideal) S_ .f32 0x00000000#32))
      (broadcastInDim S1000000x1 ![0] bcast_S1000000_S1000000x1_0 (shapeCast _ (extractStridedSlice S1x1000000 ![0, 0] (Wv (Proc.devRef .tc main_arg4)) slices_S4x1000000_S1x1000000_0_0) shapeCasts_S1x1000000_S1000000))
      (broadcastInDim S1000000 ![] bcast_S_S1000000 (constant (F := Ideal) S_ .f32 0x3F800000#32)) := by
  after_results <;> rfl
theorem oneA0 : StableHlo.after (hostOps0 (F := Ideal)) Wv (Proc.devRef .tc main_cst_2) = (constant (F := Ideal) S_ .f32 0x3F800000#32) := by
  after_results <;> rfl
/-- Edge type 0: the source count clipped below at one. -/
theorem clipS0 : StableHlo.after (hostOps0_1 (F := Ideal)) Wv (Proc.devRef .tc main_v11)
    = maximumf (F := Ideal) (φ := .f32) (broadcastInDim S100000 ![] bcast_S_S100000 (Wv (Proc.devRef .tc main_cst_2))) (Wv (Proc.devRef .tc main_v5)) := by
  after_results <;> rfl
/-- Edge type 0: the source normalisation, and the next unit constant. -/
theorem normS0 : StableHlo.after (hostOps0_2 (F := Ideal)) Wv (Proc.devRef .tc main_v12) = Host.rsqrt (F := Ideal) (φ := .f32) (Wv (Proc.devRef .tc main_v11)) := by
  after_results <;> rfl
theorem oneB0 : StableHlo.after (hostOps0_2 (F := Ideal)) Wv (Proc.devRef .tc main_cst_3) = (constant (F := Ideal) S_ .f32 0x3F800000#32) := by
  after_results <;> rfl
/-- Edge type 0: the destination count clipped below at one. -/
theorem clipD0 : StableHlo.after (hostOps0_3 (F := Ideal)) Wv (Proc.devRef .tc main_v13)
    = maximumf (F := Ideal) (φ := .f32) (broadcastInDim S100000 ![] bcast_S_S100000 (Wv (Proc.devRef .tc main_cst_3))) (Wv (Proc.devRef .tc main_v10)) := by
  after_results <;> rfl
/-- Edge type 0: the destination normalisation. -/
theorem normD0 : StableHlo.after (hostOps0_4 (F := Ideal)) Wv (Proc.devRef .tc main_v14) = Host.rsqrt (F := Ideal) (φ := .f32) (Wv (Proc.devRef .tc main_v13)) := by
  after_results <;> rfl

/-- Edge type 1: the source and destination degree counts, and the unit constant, after their stretch. -/
theorem cntS1 : StableHlo.after (hostOps0_4 (F := Ideal)) Wv (Proc.devRef .tc main_v20)
    = Host.scatterAdd (F := Ideal) (φ := .f32) scatter_S100000_S1000000x1_S1000000_n_0_0_1
      (broadcastInDim S100000 ![] bcast_S_S100000 (constant (F := Ideal) S_ .f32 0x00000000#32))
      (broadcastInDim S1000000x1 ![0] bcast_S1000000_S1000000x1_0 (shapeCast _ (extractStridedSlice S1x1000000 ![1, 0] (Wv (Proc.devRef .tc main_arg3)) slices_S4x1000000_S1x1000000_1_0) shapeCasts_S1x1000000_S1000000))
      (broadcastInDim S1000000 ![] bcast_S_S1000000 (constant (F := Ideal) S_ .f32 0x3F800000#32)) := by
  after_results <;> rfl
theorem cntD1 : StableHlo.after (hostOps0_4 (F := Ideal)) Wv (Proc.devRef .tc main_v25)
    = Host.scatterAdd (F := Ideal) (φ := .f32) scatter_S100000_S1000000x1_S1000000_n_0_0_1
      (broadcastInDim S100000 ![] bcast_S_S100000 (constant (F := Ideal) S_ .f32 0x00000000#32))
      (broadcastInDim S1000000x1 ![0] bcast_S1000000_S1000000x1_0 (shapeCast _ (extractStridedSlice S1x1000000 ![1, 0] (Wv (Proc.devRef .tc main_arg4)) slices_S4x1000000_S1x1000000_1_0) shapeCasts_S1x1000000_S1000000))
      (broadcastInDim S1000000 ![] bcast_S_S1000000 (constant (F := Ideal) S_ .f32 0x3F800000#32)) := by
  after_results <;> rfl
theorem oneA1 : StableHlo.after (hostOps0_4 (F := Ideal)) Wv (Proc.devRef .tc main_cst_7) = (constant (F := Ideal) S_ .f32 0x3F800000#32) := by
  after_results <;> rfl
/-- Edge type 1: the source count clipped below at one. -/
theorem clipS1 : StableHlo.after (hostOps0_5 (F := Ideal)) Wv (Proc.devRef .tc main_v26)
    = maximumf (F := Ideal) (φ := .f32) (broadcastInDim S100000 ![] bcast_S_S100000 (Wv (Proc.devRef .tc main_cst_7))) (Wv (Proc.devRef .tc main_v20)) := by
  after_results <;> rfl
/-- Edge type 1: the source normalisation, and the next unit constant. -/
theorem normS1 : StableHlo.after (hostOps0_6 (F := Ideal)) Wv (Proc.devRef .tc main_v27) = Host.rsqrt (F := Ideal) (φ := .f32) (Wv (Proc.devRef .tc main_v26)) := by
  after_results <;> rfl
theorem oneB1 : StableHlo.after (hostOps0_6 (F := Ideal)) Wv (Proc.devRef .tc main_cst_8) = (constant (F := Ideal) S_ .f32 0x3F800000#32) := by
  after_results <;> rfl
/-- Edge type 1: the destination count clipped below at one. -/
theorem clipD1 : StableHlo.after (hostOps0_7 (F := Ideal)) Wv (Proc.devRef .tc main_v28)
    = maximumf (F := Ideal) (φ := .f32) (broadcastInDim S100000 ![] bcast_S_S100000 (Wv (Proc.devRef .tc main_cst_8))) (Wv (Proc.devRef .tc main_v25)) := by
  after_results <;> rfl
/-- Edge type 1: the destination normalisation. -/
theorem normD1 : StableHlo.after (hostOps0_8 (F := Ideal)) Wv (Proc.devRef .tc main_v29) = Host.rsqrt (F := Ideal) (φ := .f32) (Wv (Proc.devRef .tc main_v28)) := by
  after_results <;> rfl

/-- Edge type 2: the source and destination degree counts, and the unit constant, after their stretch. -/
theorem cntS2 : StableHlo.after (hostOps0_8 (F := Ideal)) Wv (Proc.devRef .tc main_v35)
    = Host.scatterAdd (F := Ideal) (φ := .f32) scatter_S100000_S1000000x1_S1000000_n_0_0_1
      (broadcastInDim S100000 ![] bcast_S_S100000 (constant (F := Ideal) S_ .f32 0x00000000#32))
      (broadcastInDim S1000000x1 ![0] bcast_S1000000_S1000000x1_0 (shapeCast _ (extractStridedSlice S1x1000000 ![2, 0] (Wv (Proc.devRef .tc main_arg3)) slices_S4x1000000_S1x1000000_2_0) shapeCasts_S1x1000000_S1000000))
      (broadcastInDim S1000000 ![] bcast_S_S1000000 (constant (F := Ideal) S_ .f32 0x3F800000#32)) := by
  after_results <;> rfl
theorem cntD2 : StableHlo.after (hostOps0_8 (F := Ideal)) Wv (Proc.devRef .tc main_v40)
    = Host.scatterAdd (F := Ideal) (φ := .f32) scatter_S100000_S1000000x1_S1000000_n_0_0_1
      (broadcastInDim S100000 ![] bcast_S_S100000 (constant (F := Ideal) S_ .f32 0x00000000#32))
      (broadcastInDim S1000000x1 ![0] bcast_S1000000_S1000000x1_0 (shapeCast _ (extractStridedSlice S1x1000000 ![2, 0] (Wv (Proc.devRef .tc main_arg4)) slices_S4x1000000_S1x1000000_2_0) shapeCasts_S1x1000000_S1000000))
      (broadcastInDim S1000000 ![] bcast_S_S1000000 (constant (F := Ideal) S_ .f32 0x3F800000#32)) := by
  after_results <;> rfl
theorem oneA2 : StableHlo.after (hostOps0_8 (F := Ideal)) Wv (Proc.devRef .tc main_cst_12) = (constant (F := Ideal) S_ .f32 0x3F800000#32) := by
  after_results <;> rfl
/-- Edge type 2: the source count clipped below at one. -/
theorem clipS2 : StableHlo.after (hostOps0_9 (F := Ideal)) Wv (Proc.devRef .tc main_v41)
    = maximumf (F := Ideal) (φ := .f32) (broadcastInDim S100000 ![] bcast_S_S100000 (Wv (Proc.devRef .tc main_cst_12))) (Wv (Proc.devRef .tc main_v35)) := by
  after_results <;> rfl
/-- Edge type 2: the source normalisation, and the next unit constant. -/
theorem normS2 : StableHlo.after (hostOps0_10 (F := Ideal)) Wv (Proc.devRef .tc main_v42) = Host.rsqrt (F := Ideal) (φ := .f32) (Wv (Proc.devRef .tc main_v41)) := by
  after_results <;> rfl
theorem oneB2 : StableHlo.after (hostOps0_10 (F := Ideal)) Wv (Proc.devRef .tc main_cst_13) = (constant (F := Ideal) S_ .f32 0x3F800000#32) := by
  after_results <;> rfl
/-- Edge type 2: the destination count clipped below at one. -/
theorem clipD2 : StableHlo.after (hostOps0_11 (F := Ideal)) Wv (Proc.devRef .tc main_v43)
    = maximumf (F := Ideal) (φ := .f32) (broadcastInDim S100000 ![] bcast_S_S100000 (Wv (Proc.devRef .tc main_cst_13))) (Wv (Proc.devRef .tc main_v40)) := by
  after_results <;> rfl
/-- Edge type 2: the destination normalisation. -/
theorem normD2 : StableHlo.after (hostOps0_12 (F := Ideal)) Wv (Proc.devRef .tc main_v44) = Host.rsqrt (F := Ideal) (φ := .f32) (Wv (Proc.devRef .tc main_v43)) := by
  after_results <;> rfl

/-- Edge type 3: the source and destination degree counts, and the unit constant, after their stretch. -/
theorem cntS3 : StableHlo.after (hostOps0_12 (F := Ideal)) Wv (Proc.devRef .tc main_v50)
    = Host.scatterAdd (F := Ideal) (φ := .f32) scatter_S100000_S1000000x1_S1000000_n_0_0_1
      (broadcastInDim S100000 ![] bcast_S_S100000 (constant (F := Ideal) S_ .f32 0x00000000#32))
      (broadcastInDim S1000000x1 ![0] bcast_S1000000_S1000000x1_0 (shapeCast _ (extractStridedSlice S1x1000000 ![3, 0] (Wv (Proc.devRef .tc main_arg3)) slices_S4x1000000_S1x1000000_3_0) shapeCasts_S1x1000000_S1000000))
      (broadcastInDim S1000000 ![] bcast_S_S1000000 (constant (F := Ideal) S_ .f32 0x3F800000#32)) := by
  after_results <;> rfl
theorem cntD3 : StableHlo.after (hostOps0_12 (F := Ideal)) Wv (Proc.devRef .tc main_v55)
    = Host.scatterAdd (F := Ideal) (φ := .f32) scatter_S100000_S1000000x1_S1000000_n_0_0_1
      (broadcastInDim S100000 ![] bcast_S_S100000 (constant (F := Ideal) S_ .f32 0x00000000#32))
      (broadcastInDim S1000000x1 ![0] bcast_S1000000_S1000000x1_0 (shapeCast _ (extractStridedSlice S1x1000000 ![3, 0] (Wv (Proc.devRef .tc main_arg4)) slices_S4x1000000_S1x1000000_3_0) shapeCasts_S1x1000000_S1000000))
      (broadcastInDim S1000000 ![] bcast_S_S1000000 (constant (F := Ideal) S_ .f32 0x3F800000#32)) := by
  after_results <;> rfl
theorem oneA3 : StableHlo.after (hostOps0_12 (F := Ideal)) Wv (Proc.devRef .tc main_cst_17) = (constant (F := Ideal) S_ .f32 0x3F800000#32) := by
  after_results <;> rfl
/-- Edge type 3: the source count clipped below at one. -/
theorem clipS3 : StableHlo.after (hostOps0_13 (F := Ideal)) Wv (Proc.devRef .tc main_v56)
    = maximumf (F := Ideal) (φ := .f32) (broadcastInDim S100000 ![] bcast_S_S100000 (Wv (Proc.devRef .tc main_cst_17))) (Wv (Proc.devRef .tc main_v50)) := by
  after_results <;> rfl
/-- Edge type 3: the source normalisation, and the next unit constant. -/
theorem normS3 : StableHlo.after (hostOps0_14 (F := Ideal)) Wv (Proc.devRef .tc main_v57) = Host.rsqrt (F := Ideal) (φ := .f32) (Wv (Proc.devRef .tc main_v56)) := by
  after_results <;> rfl
theorem oneB3 : StableHlo.after (hostOps0_14 (F := Ideal)) Wv (Proc.devRef .tc main_cst_18) = (constant (F := Ideal) S_ .f32 0x3F800000#32) := by
  after_results <;> rfl
/-- Edge type 3: the destination count clipped below at one. -/
theorem clipD3 : StableHlo.after (hostOps0_15 (F := Ideal)) Wv (Proc.devRef .tc main_v58)
    = maximumf (F := Ideal) (φ := .f32) (broadcastInDim S100000 ![] bcast_S_S100000 (Wv (Proc.devRef .tc main_cst_18))) (Wv (Proc.devRef .tc main_v55)) := by
  after_results <;> rfl

/-- The stacked source normalisations: the four, each as a row, concatenated and given a trailing unit axis. -/
theorem stackS : StableHlo.after (hostOps0_16 (F := Ideal)) Wv (Proc.devRef .tc main_v65)
    = broadcastInDim S4x100000x1 ![0, 1] bcast_S4x100000_S4x100000x1_0_1
        (concatenate S4x100000 0 [⟨S1x100000, broadcastInDim S1x100000 ![1] bcast_S100000_S1x100000_1 (Wv (Proc.devRef .tc main_v12))⟩, ⟨S1x100000, broadcastInDim S1x100000 ![1] bcast_S100000_S1x100000_1 (Wv (Proc.devRef .tc main_v27))⟩,
          ⟨S1x100000, broadcastInDim S1x100000 ![1] bcast_S100000_S1x100000_1 (Wv (Proc.devRef .tc main_v42))⟩, ⟨S1x100000, broadcastInDim S1x100000 ![1] bcast_S100000_S1x100000_1 (Wv (Proc.devRef .tc main_v57))⟩]
          concatenates_S1x100000_S1x100000_S1x100000_S1x100000_S4x100000_d0) := by
  after_results <;> rfl
/-- The stacked destination normalisations; the last edge type's is computed in this stretch. -/
theorem stackD : StableHlo.after (hostOps0_16 (F := Ideal)) Wv (Proc.devRef .tc main_v71)
    = broadcastInDim S4x100000x1 ![0, 1] bcast_S4x100000_S4x100000x1_0_1
        (concatenate S4x100000 0 [⟨S1x100000, broadcastInDim S1x100000 ![1] bcast_S100000_S1x100000_1 (Wv (Proc.devRef .tc main_v14))⟩, ⟨S1x100000, broadcastInDim S1x100000 ![1] bcast_S100000_S1x100000_1 (Wv (Proc.devRef .tc main_v29))⟩,
          ⟨S1x100000, broadcastInDim S1x100000 ![1] bcast_S100000_S1x100000_1 (Wv (Proc.devRef .tc main_v44))⟩, ⟨S1x100000, broadcastInDim S1x100000 ![1] bcast_S100000_S1x100000_1 (Host.rsqrt (F := Ideal) (φ := .f32) (Wv (Proc.devRef .tc main_v58)))⟩]
          concatenates_S1x100000_S1x100000_S1x100000_S1x100000_S4x100000_d0) := by
  after_results <;> rfl

end Cert.KernelIdeal.Val
-- ==== Proof.Val.HostK.lean ====
import proofs.«169069_j12051678233154_1_alg».proof.Proof.KI.Run
import proofs.«169069_j12051678233154_1_alg».proof.Proof.Ref.Opaque
import proofs.«169069_j12051678233154_1_alg».proof.Proof.Val.Stretch
import Idealize.ShloMosaic.Lib.Pipeline.Value
import Idealize.ShloMosaic.Lib.ValueIdx
import Idealize.ShloMosaic.Lib.StableHlo.Run

/-! The stacked source normalisations the projection launch is entered with, read at an index: row k, node n
    of the stack is the reciprocal square root of node n's clipped out-degree count for edge type k — the same
    term of the source index array as the reference's normalisation. -/

set_option maxRecDepth 16384

noncomputable section

namespace Cert.KernelIdeal.Val

open Idealize.ShloMosaic Idealize.ShloMosaic.TcCoe Idealize.SL.Sem Idealize.ShloMosaic.StableHlo Idealize.ShloMosaic.ValueIdx
open Cert.KernelIdeal Cert.KernelIdeal.Gen Cert.KernelIdeal.Hand

variable (m : (ℓ : Loc nD τ sig) → Buf (Elt Ideal) ℓ) (ρ : Dev nD → PrngReg)

/-- The source normalisation of edge type 0, as the last stretch before the projection launch finds it: written once,
    left alone by every later stretch, and the reference's term of the source index array as launched. -/
theorem nsrc0 (c : Dev nD) :
    W16 (F := Ideal) m ρ c (Proc.devRef .tc main_v12) = Cert.ReferenceIdeal.RefValue.normOf (Cert.ReferenceIdeal.RefValue.row0 (m ((c : Thread nD τ).loc main_arg3))) := by
  dsimp only [W16, W15, W14, W13, W12, W11, W10, W9, W8, W7, W6, W5, W4, W3, W2, W1]
  rw [keep15 _ main_v12 (by decide), keep14 _ main_v12 (by decide), keep13 _ main_v12 (by decide), keep12 _ main_v12 (by decide), keep11 _ main_v12 (by decide), keep10 _ main_v12 (by decide), keep9 _ main_v12 (by decide), keep8 _ main_v12 (by decide), keep7 _ main_v12 (by decide), keep6 _ main_v12 (by decide), keep5 _ main_v12 (by decide), keep4 _ main_v12 (by decide), keep3 _ main_v12 (by decide),
    normS0, clipS0, oneA0, cntS0]
  rfl

/-- The source normalisation of edge type 1, as the last stretch before the projection launch finds it: written once,
    left alone by every later stretch, and the reference's term of the source index array as launched. -/
theorem nsrc1 (c : Dev nD) :
    W16 (F := Ideal) m ρ c (Proc.devRef .tc main_v27) = Cert.ReferenceIdeal.RefValue.normOf (Cert.ReferenceIdeal.RefValue.row1 (m ((c : Thread nD τ).loc main_arg3))) := by
  dsimp only [W16, W15, W14, W13, W12, W11, W10, W9, W8, W7, W6, W5, W4, W3, W2, W1]
  rw [keep15 _ main_v27 (by decide), keep14 _ main_v27 (by decide), keep13 _ main_v27 (by decide), keep12 _ main_v27 (by decide), keep11 _ main_v27 (by decide), keep10 _ main_v27 (by decide), keep9 _ main_v27 (by decide), keep8 _ main_v27 (by decide), keep7 _ main_v27 (by decide),
    normS1, clipS1, oneA1, cntS1,
    keep3 _ main_arg3 (by decide), keep2 _ main_arg3 (by decide), keep1 _ main_arg3 (by decide), keep0 _ main_arg3 (by decide)]
  rfl

/-- The source normalisation of edge type 2, as the last stretch before the projection launch finds it: written once,
    left alone by every later stretch, and the reference's term of the source index array as launched. -/
theorem nsrc2 (c : Dev nD) :
    W16 (F := Ideal) m ρ c (Proc.devRef .tc main_v42) = Cert.ReferenceIdeal.RefValue.normOf (Cert.ReferenceIdeal.RefValue.row2 (m ((c : Thread nD τ).loc main_arg3))) := by
  dsimp only [W16, W15, W14, W13, W12, W11, W10, W9, W8, W7, W6, W5, W4, W3, W2, W1]
  rw [keep15 _ main_v42 (by decide), keep14 _ main_v42 (by decide), keep13 _ main_v42 (by decide), keep12 _ main_v42 (by decide), keep11 _ main_v42 (by decide),
    normS2, clipS2, oneA2, cntS2,
    keep7 _ main_arg3 (by decide), keep6 _ main_arg3 (by decide), keep5 _ main_arg3 (by decide), keep4 _ main_arg3 (by decide), keep3 _ main_arg3 (by decide), keep2 _ main_arg3 (by decide), keep1 _ main_arg3 (by decide), keep0 _ main_arg3 (by decide)]
  rfl

/-- The source normalisation of edge type 3, as the last stretch before the projection launch finds it: written once,
    left alone by every later stretch, and the reference's term of the source index array as launched. -/
theorem nsrc3 (c : Dev nD) :
    W16 (F := Ideal) m ρ c (Proc.devRef .tc main_v57) = Cert.ReferenceIdeal.RefValue.normOf (Cert.ReferenceIdeal.RefValue.row3 (m ((c : Thread nD τ).loc main_arg3))) := by
  dsimp only [W16, W15, W14, W13, W12, W11, W10, W9, W8, W7, W6, W5, W4, W3, W2, W1]
  rw [keep15 _ main_v57 (by decide),
    normS3, clipS3, oneA3, cntS3,
    keep11 _ main_arg3 (by decide), keep10 _ main_arg3 (by decide), keep9 _ main_arg3 (by decide), keep8 _ main_arg3 (by decide), keep7 _ main_arg3 (by decide), keep6 _ main_arg3 (by decide), keep5 _ main_arg3 (by decide), keep4 _ main_arg3 (by decide), keep3 _ main_arg3 (by decide), keep2 _ main_arg3 (by decide), keep1 _ main_arg3 (by decide), keep0 _ main_arg3 (by decide)]
  rfl

/-- Row 0, node n of the stacked source normalisations is edge type 0's source normalisation of node n. -/
theorem ns_at_0 (c : Dev nD) (n : Fin 100000) :
    W17 (F := Ideal) m ρ c (Proc.devRef .tc main_v65) (ix3 (0 : Fin 4) n (0 : Fin 1))
      = Cert.ReferenceIdeal.RefValue.normOf (Cert.ReferenceIdeal.RefValue.row0 (m ((c : Thread nD τ).loc main_arg3))) (ix1 n) := by
  have hs := stackS (W16 (F := Ideal) m ρ c)
  have hv : W17 (F := Ideal) m ρ c (Proc.devRef .tc main_v65) = _ := hs
  rw [hv, nsrc0, nsrc1, nsrc2, nsrc3]
  -- the trailing unit axis, then piece 0 of the stack at (0, n), then the row given a leading unit axis
  refine (broadcastInDim_apply (s := S4x100000) (t := S4x100000x1) ![0, 1] bcast_S4x100000_S4x100000x1_0_1 _ (ix3 (0 : Fin 4) n (0 : Fin 1)) (ix2 (0 : Fin 4) n)
    (fun a => match a with
      | ⟨0, _⟩ => rfl
      | ⟨1, _⟩ => rfl)).trans ?_
  refine (concatenate_apply_piece (0 : Fin S4x100000.rank) _ _ (ix2 (0 : Fin 4) n) 0 (by show 0 < 4; decide) S1x100000 _ rfl rfl 0 rfl
    (ix2 (0 : Fin 1) n)
    (fun b hb => match b with
      | ⟨0, _⟩ => (hb (Fin.ext rfl)).elim
      | ⟨1, _⟩ => rfl) rfl).trans ?_
  exact broadcastInDim_apply (s := S100000) (t := S1x100000) ![1] bcast_S100000_S1x100000_1 _ (ix2 (0 : Fin 1) n) (ix1 n)
    (fun a => match a with
      | ⟨0, _⟩ => rfl)

/-- Row 1, node n of the stacked source normalisations is edge type 1's source normalisation of node n. -/
theorem ns_at_1 (c : Dev nD) (n : Fin 100000) :
    W17 (F := Ideal) m ρ c (Proc.devRef .tc main_v65) (ix3 (1 : Fin 4) n (0 : Fin 1))
      = Cert.ReferenceIdeal.RefValue.normOf (Cert.ReferenceIdeal.RefValue.row1 (m ((c : Thread nD τ).loc main_arg3))) (ix1 n) := by
  have hs := stackS (W16 (F := Ideal) m ρ c)
  have hv : W17 (F := Ideal) m ρ c (Proc.devRef .tc main_v65) = _ := hs
  rw [hv, nsrc0, nsrc1, nsrc2, nsrc3]
  -- the trailing unit axis, then piece 1 of the stack at (0, n), then the row given a leading unit axis
  refine (broadcastInDim_apply (s := S4x100000) (t := S4x100000x1) ![0, 1] bcast_S4x100000_S4x100000x1_0_1 _ (ix3 (1 : Fin 4) n (0 : Fin 1)) (ix2 (1 : Fin 4) n)
    (fun a => match a with
      | ⟨0, _⟩ => rfl
      | ⟨1, _⟩ => rfl)).trans ?_
  refine (concatenate_apply_piece (0 : Fin S4x100000.rank) _ _ (ix2 (1 : Fin 4) n) 1 (by show 1 < 4; decide) S1x100000 _ rfl rfl 1 rfl
    (ix2 (0 : Fin 1) n)
    (fun b hb => match b with
      | ⟨0, _⟩ => (hb (Fin.ext rfl)).elim
      | ⟨1, _⟩ => rfl) rfl).trans ?_
  exact broadcastInDim_apply (s := S100000) (t := S1x100000) ![1] bcast_S100000_S1x100000_1 _ (ix2 (0 : Fin 1) n) (ix1 n)
    (fun a => match a with
      | ⟨0, _⟩ => rfl)

/-- Row 2, node n of the stacked source normalisations is edge type 2's source normalisation of node n. -/
theorem ns_at_2 (c : Dev nD) (n : Fin 100000) :
    W17 (F := Ideal) m ρ c (Proc.devRef .tc main_v65) (ix3 (2 : Fin 4) n (0 : Fin 1))
      = Cert.ReferenceIdeal.RefValue.normOf (Cert.ReferenceIdeal.RefValue.row2 (m ((c : Thread nD τ).loc main_arg3))) (ix1 n) := by
  have hs := stackS (W16 (F := Ideal) m ρ c)
  have hv : W17 (F := Ideal) m ρ c (Proc.devRef .tc main_v65) = _ := hs
  rw [hv, nsrc0, nsrc1, nsrc2, nsrc3]
  -- the trailing unit axis, then piece 2 of the stack at (0, n), then the row given a leading unit axis
  refine (broadcastInDim_apply (s := S4x100000) (t := S4x100000x1) ![0, 1] bcast_S4x100000_S4x100000x1_0_1 _ (ix3 (2 : Fin 4) n (0 : Fin 1)) (ix2 (2 : Fin 4) n)
    (fun a => match a with
      | ⟨0, _⟩ => rfl
      | ⟨1, _⟩ => rfl)).trans ?_
  refine (concatenate_apply_piece (0 : Fin S4x100000.rank) _ _ (ix2 (2 : Fin 4) n) 2 (by show 2 < 4; decide) S1x100000 _ rfl rfl 2 rfl
    (ix2 (0 : Fin 1) n)
    (fun b hb => match b with
      | ⟨0, _⟩ => (hb (Fin.ext rfl)).elim
      | ⟨1, _⟩ => rfl) rfl).trans ?_
  exact broadcastInDim_apply (s := S100000) (t := S1x100000) ![1] bcast_S100000_S1x100000_1 _ (ix2 (0 : Fin 1) n) (ix1 n)
    (fun a => match a with
      | ⟨0, _⟩ => rfl)

/-- Row 3, node n of the stacked source normalisations is edge type 3's source normalisation of node n. -/
theorem ns_at_3 (c : Dev nD) (n : Fin 100000) :
    W17 (F := Ideal) m ρ c (Proc.devRef .tc main_v65) (ix3 (3 : Fin 4) n (0 : Fin 1))
      = Cert.ReferenceIdeal.RefValue.normOf (Cert.ReferenceIdeal.RefValue.row3 (m ((c : Thread nD τ).loc main_arg3))) (ix1 n) := by
  have hs := stackS (W16 (F := Ideal) m ρ c)
  have hv : W17 (F := Ideal) m ρ c (Proc.devRef .tc main_v65) = _ := hs
  rw [hv, nsrc0, nsrc1, nsrc2, nsrc3]
  -- the trailing unit axis, then piece 3 of the stack at (0, n), then the row given a leading unit axis
  refine (broadcastInDim_apply (s := S4x100000) (t := S4x100000x1) ![0, 1] bcast_S4x100000_S4x100000x1_0_1 _ (ix3 (3 : Fin 4) n (0 : Fin 1)) (ix2 (3 : Fin 4) n)
    (fun a => match a with
      | ⟨0, _⟩ => rfl
      | ⟨1, _⟩ => rfl)).trans ?_
  refine (concatenate_apply_piece (0 : Fin S4x100000.rank) _ _ (ix2 (3 : Fin 4) n) 3 (by show 3 < 4; decide) S1x100000 _ rfl rfl 3 rfl
    (ix2 (0 : Fin 1) n)
    (fun b hb => match b with
      | ⟨0, _⟩ => (hb (Fin.ext rfl)).elim
      | ⟨1, _⟩ => rfl) rfl).trans ?_
  exact broadcastInDim_apply (s := S100000) (t := S1x100000) ![1] bcast_S100000_S1x100000_1 _ (ix2 (0 : Fin 1) n) (ix1 n)
    (fun a => match a with
      | ⟨0, _⟩ => rfl)

end Cert.KernelIdeal.Val
-- ==== Proof.Val.HostAgg.lean ====
/-
  The kernel program's host stretch between its two launches, its aggregate half, at the extended reals.

  Between the feature launch and the combine launch the program runs 81 host operations: for each of the four edge
  types k, slab k of the feature product (a [4,100000,64] array) is cast to a matrix; row k of the source index array
  has its negative entries wrapped by adding 100000 and is made a column; the matrix's rows are gathered at those
  indices; the gathered rows are scatter-added, at row k of the destination index array, into a zero matrix; the
  result is given a leading unit axis; and the four results are concatenated along that axis into the aggregate array.
  So the aggregate array read at (k, n, e) is that scatter-add of that gather, read at (n, e) — stated over the
  reference side's own names for the row of an index array, the wrapped column and the aggregate, with slab k of the
  feature product read by coordinates. The buffer contents before the stretch are kept as one variable throughout,
  so the earlier part of the run is never unfolded.
-/
import proofs.«169069_j12051678233154_1_alg».proof.Proof.KI.Run
import proofs.«169069_j12051678233154_1_alg».proof.Proof.Ref.Opaque
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section
namespace Cert.KernelIdeal.Val
open Idealize.ShloMosaic Idealize.ShloMosaic.TcCoe Idealize.SL.Sem Idealize.ShloMosaic.StableHlo Idealize.ShloMosaic.ValueIdx
open Cert.KernelIdeal Cert.KernelIdeal.Gen Cert.KernelIdeal.Hand

variable (m : (ℓ : Loc nD τ sig) → Buf (Elt Ideal) ℓ) (ρ : Dev nD → PrngReg)

set_option maxHeartbeats 4000000 in
/-- Edge type 0's slab of the aggregate array, read at (0, n, e): the scatter-add, over the destination indices (row 0 of
    the destination index array), of the rows of slab 0 of the feature product gathered at the wrapped source
    indices (row 0 of the source index array), read at (n, e). -/
theorem agg_at_0 (c : Dev nD) (n : Fin 100000) (e : Fin 64) :
    W19 (F := Ideal) m ρ c (Proc.devRef .tc main_v141) (ix3 (0 : Fin 4) n e)
      = Cert.ReferenceIdeal.RefValue.aggOf
          (fun i : Cert.ReferenceIdeal.S100000x64.Idx => W18 (F := Ideal) m ρ c (Proc.devRef .tc main_v72) (ix3 (0 : Fin 4) (i 0) (i 1)))
          (Cert.ReferenceIdeal.RefValue.wrapCol (Cert.ReferenceIdeal.RefValue.row0 (m ((c : Thread nD τ).loc main_arg3))))
          (Cert.ReferenceIdeal.RefValue.row0 (m ((c : Thread nD τ).loc main_arg4))) (ix2 n e) := by
  have h3 : W18 (F := Ideal) m ρ c (Proc.devRef .tc main_arg3) = m ((c : Thread nD τ).loc main_arg3) :=
    (W18_arg m ρ 3 c).trans ((W17_arg m ρ 3 c).trans rfl)
  have h4 : W18 (F := Ideal) m ρ c (Proc.devRef .tc main_arg4) = m ((c : Thread nD τ).loc main_arg4) :=
    (W18_arg m ρ 4 c).trans ((W17_arg m ρ 4 c).trans rfl)
  rw [← h3, ← h4]
  show StableHlo.after hostOps1 (W18 (F := Ideal) m ρ c) (Proc.devRef .tc main_v141) (ix3 (0 : Fin 4) n e) = _
  generalize W18 (F := Ideal) m ρ c = Wv
  -- the host stretch's results, each at its own reference (the four-operand concatenation by its own lemma)
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  -- the concatenation at (0, n, e) is piece 0 at (0, n, e)
  refine (concatenate_apply_piece (0 : Fin S4x100000x64.rank) _ _ (ix3 (0 : Fin 4) n e) 0 (by show 0 < 4; decide) S1x100000x64 _ rfl rfl 0 rfl
    (ix3 (0 : Fin 1) n e)
    (fun b hb => match b with
      | ⟨0, _⟩ => (hb (Fin.ext rfl)).elim
      | ⟨1, _⟩ => rfl
      | ⟨2, _⟩ => rfl) rfl).trans ?_
  -- the piece is the slab's aggregate given a leading unit axis
  refine (broadcastInDim_apply (s := S100000x64) (t := S1x100000x64) ![1, 2] bcast_S100000x64_S1x100000x64_1_2 _ (ix3 (0 : Fin 1) n e) (ix2 n e)
    (fun a => match a with
      | ⟨0, _⟩ => rfl
      | ⟨1, _⟩ => rfl)).trans ?_
  -- slab 0 of the feature product, cast to a matrix, read by coordinates
  have hfeat : (fun i => shapeCast main_v74.ty.shape
        (extractStridedSlice S1x100000x64 ![0, 0, 0] (Wv (Proc.devRef .tc main_v72)) slices_S4x100000x64_S1x100000x64_0_0_0)
        shapeCasts_S1x100000x64_S100000x64 i)
      = fun i : S100000x64.Idx => Wv (Proc.devRef .tc main_v72) (ix3 (0 : Fin 4) (i 0) (i 1)) := by
    funext i
    exact (congrArg (shapeCast S100000x64 _ shapeCasts_S1x100000x64_S100000x64) (eq_ix2 i)).trans
      ((shapeCast_1ab_ab_apply _ _ (i 0) (i 1)).trans
        (extractStridedSlice_apply _ _ _ _ (ix3 (0 : Fin 4) (i 0) (i 1)) fun a => match a with
          | ⟨0, _⟩ => rfl
          | ⟨1, _⟩ => (Nat.zero_add _).symm
          | ⟨2, _⟩ => (Nat.zero_add _).symm))
  rw [hfeat]
  rfl

set_option maxHeartbeats 4000000 in
/-- Edge type 1's slab of the aggregate array, read at (1, n, e): the scatter-add, over the destination indices (row 1 of
    the destination index array), of the rows of slab 1 of the feature product gathered at the wrapped source
    indices (row 1 of the source index array), read at (n, e). -/
theorem agg_at_1 (c : Dev nD) (n : Fin 100000) (e : Fin 64) :
    W19 (F := Ideal) m ρ c (Proc.devRef .tc main_v141) (ix3 (1 : Fin 4) n e)
      = Cert.ReferenceIdeal.RefValue.aggOf
          (fun i : Cert.ReferenceIdeal.S100000x64.Idx => W18 (F := Ideal) m ρ c (Proc.devRef .tc main_v72) (ix3 (1 : Fin 4) (i 0) (i 1)))
          (Cert.ReferenceIdeal.RefValue.wrapCol (Cert.ReferenceIdeal.RefValue.row1 (m ((c : Thread nD τ).loc main_arg3))))
          (Cert.ReferenceIdeal.RefValue.row1 (m ((c : Thread nD τ).loc main_arg4))) (ix2 n e) := by
  have h3 : W18 (F := Ideal) m ρ c (Proc.devRef .tc main_arg3) = m ((c : Thread nD τ).loc main_arg3) :=
    (W18_arg m ρ 3 c).trans ((W17_arg m ρ 3 c).trans rfl)
  have h4 : W18 (F := Ideal) m ρ c (Proc.devRef .tc main_arg4) = m ((c : Thread nD τ).loc main_arg4) :=
    (W18_arg m ρ 4 c).trans ((W17_arg m ρ 4 c).trans rfl)
  rw [← h3, ← h4]
  show StableHlo.after hostOps1 (W18 (F := Ideal) m ρ c) (Proc.devRef .tc main_v141) (ix3 (1 : Fin 4) n e) = _
  generalize W18 (F := Ideal) m ρ c = Wv
  -- the host stretch's results, each at its own reference (the four-operand concatenation by its own lemma)
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  -- the concatenation at (1, n, e) is piece 1 at (0, n, e)
  refine (concatenate_apply_piece (0 : Fin S4x100000x64.rank) _ _ (ix3 (1 : Fin 4) n e) 1 (by show 1 < 4; decide) S1x100000x64 _ rfl rfl 1 rfl
    (ix3 (0 : Fin 1) n e)
    (fun b hb => match b with
      | ⟨0, _⟩ => (hb (Fin.ext rfl)).elim
      | ⟨1, _⟩ => rfl
      | ⟨2, _⟩ => rfl) rfl).trans ?_
  -- the piece is the slab's aggregate given a leading unit axis
  refine (broadcastInDim_apply (s := S100000x64) (t := S1x100000x64) ![1, 2] bcast_S100000x64_S1x100000x64_1_2 _ (ix3 (0 : Fin 1) n e) (ix2 n e)
    (fun a => match a with
      | ⟨0, _⟩ => rfl
      | ⟨1, _⟩ => rfl)).trans ?_
  -- slab 1 of the feature product, cast to a matrix, read by coordinates
  have hfeat : (fun i => shapeCast main_v90.ty.shape
        (extractStridedSlice S1x100000x64 ![1, 0, 0] (Wv (Proc.devRef .tc main_v72)) slices_S4x100000x64_S1x100000x64_1_0_0)
        shapeCasts_S1x100000x64_S100000x64 i)
      = fun i : S100000x64.Idx => Wv (Proc.devRef .tc main_v72) (ix3 (1 : Fin 4) (i 0) (i 1)) := by
    funext i
    exact (congrArg (shapeCast S100000x64 _ shapeCasts_S1x100000x64_S100000x64) (eq_ix2 i)).trans
      ((shapeCast_1ab_ab_apply _ _ (i 0) (i 1)).trans
        (extractStridedSlice_apply _ _ _ _ (ix3 (1 : Fin 4) (i 0) (i 1)) fun a => match a with
          | ⟨0, _⟩ => rfl
          | ⟨1, _⟩ => (Nat.zero_add _).symm
          | ⟨2, _⟩ => (Nat.zero_add _).symm))
  rw [hfeat]
  rfl

set_option maxHeartbeats 4000000 in
/-- Edge type 2's slab of the aggregate array, read at (2, n, e): the scatter-add, over the destination indices (row 2 of
    the destination index array), of the rows of slab 2 of the feature product gathered at the wrapped source
    indices (row 2 of the source index array), read at (n, e). -/
theorem agg_at_2 (c : Dev nD) (n : Fin 100000) (e : Fin 64) :
    W19 (F := Ideal) m ρ c (Proc.devRef .tc main_v141) (ix3 (2 : Fin 4) n e)
      = Cert.ReferenceIdeal.RefValue.aggOf
          (fun i : Cert.ReferenceIdeal.S100000x64.Idx => W18 (F := Ideal) m ρ c (Proc.devRef .tc main_v72) (ix3 (2 : Fin 4) (i 0) (i 1)))
          (Cert.ReferenceIdeal.RefValue.wrapCol (Cert.ReferenceIdeal.RefValue.row2 (m ((c : Thread nD τ).loc main_arg3))))
          (Cert.ReferenceIdeal.RefValue.row2 (m ((c : Thread nD τ).loc main_arg4))) (ix2 n e) := by
  have h3 : W18 (F := Ideal) m ρ c (Proc.devRef .tc main_arg3) = m ((c : Thread nD τ).loc main_arg3) :=
    (W18_arg m ρ 3 c).trans ((W17_arg m ρ 3 c).trans rfl)
  have h4 : W18 (F := Ideal) m ρ c (Proc.devRef .tc main_arg4) = m ((c : Thread nD τ).loc main_arg4) :=
    (W18_arg m ρ 4 c).trans ((W17_arg m ρ 4 c).trans rfl)
  rw [← h3, ← h4]
  show StableHlo.after hostOps1 (W18 (F := Ideal) m ρ c) (Proc.devRef .tc main_v141) (ix3 (2 : Fin 4) n e) = _
  generalize W18 (F := Ideal) m ρ c = Wv
  -- the host stretch's results, each at its own reference (the four-operand concatenation by its own lemma)
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  -- the concatenation at (2, n, e) is piece 2 at (0, n, e)
  refine (concatenate_apply_piece (0 : Fin S4x100000x64.rank) _ _ (ix3 (2 : Fin 4) n e) 2 (by show 2 < 4; decide) S1x100000x64 _ rfl rfl 2 rfl
    (ix3 (0 : Fin 1) n e)
    (fun b hb => match b with
      | ⟨0, _⟩ => (hb (Fin.ext rfl)).elim
      | ⟨1, _⟩ => rfl
      | ⟨2, _⟩ => rfl) rfl).trans ?_
  -- the piece is the slab's aggregate given a leading unit axis
  refine (broadcastInDim_apply (s := S100000x64) (t := S1x100000x64) ![1, 2] bcast_S100000x64_S1x100000x64_1_2 _ (ix3 (0 : Fin 1) n e) (ix2 n e)
    (fun a => match a with
      | ⟨0, _⟩ => rfl
      | ⟨1, _⟩ => rfl)).trans ?_
  -- slab 2 of the feature product, cast to a matrix, read by coordinates
  have hfeat : (fun i => shapeCast main_v106.ty.shape
        (extractStridedSlice S1x100000x64 ![2, 0, 0] (Wv (Proc.devRef .tc main_v72)) slices_S4x100000x64_S1x100000x64_2_0_0)
        shapeCasts_S1x100000x64_S100000x64 i)
      = fun i : S100000x64.Idx => Wv (Proc.devRef .tc main_v72) (ix3 (2 : Fin 4) (i 0) (i 1)) := by
    funext i
    exact (congrArg (shapeCast S100000x64 _ shapeCasts_S1x100000x64_S100000x64) (eq_ix2 i)).trans
      ((shapeCast_1ab_ab_apply _ _ (i 0) (i 1)).trans
        (extractStridedSlice_apply _ _ _ _ (ix3 (2 : Fin 4) (i 0) (i 1)) fun a => match a with
          | ⟨0, _⟩ => rfl
          | ⟨1, _⟩ => (Nat.zero_add _).symm
          | ⟨2, _⟩ => (Nat.zero_add _).symm))
  rw [hfeat]
  rfl

set_option maxHeartbeats 4000000 in
/-- Edge type 3's slab of the aggregate array, read at (3, n, e): the scatter-add, over the destination indices (row 3 of
    the destination index array), of the rows of slab 3 of the feature product gathered at the wrapped source
    indices (row 3 of the source index array), read at (n, e). -/
theorem agg_at_3 (c : Dev nD) (n : Fin 100000) (e : Fin 64) :
    W19 (F := Ideal) m ρ c (Proc.devRef .tc main_v141) (ix3 (3 : Fin 4) n e)
      = Cert.ReferenceIdeal.RefValue.aggOf
          (fun i : Cert.ReferenceIdeal.S100000x64.Idx => W18 (F := Ideal) m ρ c (Proc.devRef .tc main_v72) (ix3 (3 : Fin 4) (i 0) (i 1)))
          (Cert.ReferenceIdeal.RefValue.wrapCol (Cert.ReferenceIdeal.RefValue.row3 (m ((c : Thread nD τ).loc main_arg3))))
          (Cert.ReferenceIdeal.RefValue.row3 (m ((c : Thread nD τ).loc main_arg4))) (ix2 n e) := by
  have h3 : W18 (F := Ideal) m ρ c (Proc.devRef .tc main_arg3) = m ((c : Thread nD τ).loc main_arg3) :=
    (W18_arg m ρ 3 c).trans ((W17_arg m ρ 3 c).trans rfl)
  have h4 : W18 (F := Ideal) m ρ c (Proc.devRef .tc main_arg4) = m ((c : Thread nD τ).loc main_arg4) :=
    (W18_arg m ρ 4 c).trans ((W17_arg m ρ 4 c).trans rfl)
  rw [← h3, ← h4]
  show StableHlo.after hostOps1 (W18 (F := Ideal) m ρ c) (Proc.devRef .tc main_v141) (ix3 (3 : Fin 4) n e) = _
  generalize W18 (F := Ideal) m ρ c = Wv
  -- the host stretch's results, each at its own reference (the four-operand concatenation by its own lemma)
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  -- the concatenation at (3, n, e) is piece 3 at (0, n, e)
  refine (concatenate_apply_piece (0 : Fin S4x100000x64.rank) _ _ (ix3 (3 : Fin 4) n e) 3 (by show 3 < 4; decide) S1x100000x64 _ rfl rfl 3 rfl
    (ix3 (0 : Fin 1) n e)
    (fun b hb => match b with
      | ⟨0, _⟩ => (hb (Fin.ext rfl)).elim
      | ⟨1, _⟩ => rfl
      | ⟨2, _⟩ => rfl) rfl).trans ?_
  -- the piece is the slab's aggregate given a leading unit axis
  refine (broadcastInDim_apply (s := S100000x64) (t := S1x100000x64) ![1, 2] bcast_S100000x64_S1x100000x64_1_2 _ (ix3 (0 : Fin 1) n e) (ix2 n e)
    (fun a => match a with
      | ⟨0, _⟩ => rfl
      | ⟨1, _⟩ => rfl)).trans ?_
  -- slab 3 of the feature product, cast to a matrix, read by coordinates
  have hfeat : (fun i => shapeCast main_v122.ty.shape
        (extractStridedSlice S1x100000x64 ![3, 0, 0] (Wv (Proc.devRef .tc main_v72)) slices_S4x100000x64_S1x100000x64_3_0_0)
        shapeCasts_S1x100000x64_S100000x64 i)
      = fun i : S100000x64.Idx => Wv (Proc.devRef .tc main_v72) (ix3 (3 : Fin 4) (i 0) (i 1)) := by
    funext i
    exact (congrArg (shapeCast S100000x64 _ shapeCasts_S1x100000x64_S100000x64) (eq_ix2 i)).trans
      ((shapeCast_1ab_ab_apply _ _ (i 0) (i 1)).trans
        (extractStridedSlice_apply _ _ _ _ (ix3 (3 : Fin 4) (i 0) (i 1)) fun a => match a with
          | ⟨0, _⟩ => rfl
          | ⟨1, _⟩ => (Nat.zero_add _).symm
          | ⟨2, _⟩ => (Nat.zero_add _).symm))
  rw [hfeat]
  rfl

end Cert.KernelIdeal.Val
end
-- ==== Proof.Val.HostNd.lean ====
/-
  The kernel program's host side before its first launch, its destination-normalisation half, at the extended reals.

  Before the feature launch the program computes, for each of the four edge types k, the destination degree count (a
  scatter-add of ones, at row k of the destination index array, into zeros), clips it below at one, and takes the
  reciprocal square root; it then gives each of the four vectors a leading unit axis, concatenates them along it and
  appends a trailing unit axis: the normalisation column the combine launch reads through its second window. So that
  column read at (k, n, 0) is the reference's normalisation of row k of the destination index array, read at n; and
  neither the feature launch nor the host stretch between the two launches writes it.

  The host side is 17 stretches of operations; each needed fact is stated per stretch over an arbitrary valuation of
  the buffers before it (what the stretch computes for one buffer, or that it leaves a buffer alone), and the facts
  are chained along the run's boundary valuations.
-/
import proofs.«169069_j12051678233154_1_alg».proof.Proof.KI.Run
import proofs.«169069_j12051678233154_1_alg».proof.Proof.Ref.Opaque
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section
namespace Cert.KernelIdeal.Val
open Idealize.ShloMosaic Idealize.ShloMosaic.TcCoe Idealize.SL.Sem Idealize.ShloMosaic.StableHlo Idealize.ShloMosaic.ValueIdx
open Cert.KernelIdeal Cert.KernelIdeal.Gen Cert.KernelIdeal.Hand

variable (m : (ℓ : Loc nD τ sig) → Buf (Elt Ideal) ℓ) (ρ : Dev nD → PrngReg)

/-- A buffer none of a stretch's operations writes holds after the stretch what it held before: the stretch's writes
    listed, each a different reference. -/
macro "keep_after" ops:ident : tactic =>
  `(tactic| exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))))

namespace Nd

/-! ### Edge type 0: the destination degree count, its clip below at one, its reciprocal square root -/

/-- The degree count: a scatter-add of ones, at row 0 of the destination index array, into zeros. -/
theorem deg_0 (Wv : Valuation τ sig (Elt Ideal)) :
    StableHlo.after hostOps0 Wv (Proc.devRef .tc main_v10)
      = Host.scatterAdd (F := Ideal) (φ := .f32) scatter_S100000_S1000000x1_S1000000_n_0_0_1
          (broadcastInDim S100000 ![] bcast_S_S100000 (constant (F := Ideal) S_ .f32 0x00000000#32))
          (broadcastInDim S1000000x1 ![0] bcast_S1000000_S1000000x1_0
            (shapeCast S1000000 (extractStridedSlice S1x1000000 ![0, 0] (Wv (Proc.devRef .tc main_arg4)) slices_S4x1000000_S1x1000000_0_0) shapeCasts_S1x1000000_S1000000))
          (broadcastInDim S1000000 ![] bcast_S_S1000000 (constant (F := Ideal) S_ .f32 0x3F800000#32)) := by
  after_results
  rfl
theorem keep1_v10 (Wv : Valuation τ sig (Elt Ideal)) :
    StableHlo.after hostOps0_1 Wv (Proc.devRef .tc main_v10) = Wv (Proc.devRef .tc main_v10) := by keep_after hostOps0_1
theorem keep2_v10 (Wv : Valuation τ sig (Elt Ideal)) :
    StableHlo.after hostOps0_2 Wv (Proc.devRef .tc main_v10) = Wv (Proc.devRef .tc main_v10) := by keep_after hostOps0_2
/-- The clip's lower bound: the constant one. -/
theorem cst_0 (Wv : Valuation τ sig (Elt Ideal)) :
    StableHlo.after hostOps0_2 Wv (Proc.devRef .tc main_cst_3) = constant (F := Ideal) S_ .f32 0x3F800000#32 := by
  after_results
/-- The clip: the larger of one and the count. -/
theorem clip_0 (Wv : Valuation τ sig (Elt Ideal)) :
    StableHlo.after hostOps0_3 Wv (Proc.devRef .tc main_v13)
      = maximumf (F := Ideal) (φ := .f32) (broadcastInDim S100000 ![] bcast_S_S100000 (Wv (Proc.devRef .tc main_cst_3))) (Wv (Proc.devRef .tc main_v10)) := by
  after_results
  rfl
/-- The normalisation: the reciprocal square root of the clipped count. -/
theorem rsqrt_0 (Wv : Valuation τ sig (Elt Ideal)) :
    StableHlo.after hostOps0_4 Wv (Proc.devRef .tc main_v14) = Host.rsqrt (F := Ideal) (φ := .f32) (Wv (Proc.devRef .tc main_v13)) := by
  after_results
theorem keep5_v14 (Wv : Valuation τ sig (Elt Ideal)) :
    StableHlo.after hostOps0_5 Wv (Proc.devRef .tc main_v14) = Wv (Proc.devRef .tc main_v14) := by keep_after hostOps0_5
theorem keep6_v14 (Wv : Valuation τ sig (Elt Ideal)) :
    StableHlo.after hostOps0_6 Wv (Proc.devRef .tc main_v14) = Wv (Proc.devRef .tc main_v14) := by keep_after hostOps0_6
theorem keep7_v14 (Wv : Valuation τ sig (Elt Ideal)) :
    StableHlo.after hostOps0_7 Wv (Proc.devRef .tc main_v14) = Wv (Proc.devRef .tc main_v14) := by keep_after hostOps0_7
theorem keep8_v14 (Wv : Valuation τ sig (Elt Ideal)) :
    StableHlo.after hostOps0_8 Wv (Proc.devRef .tc main_v14) = Wv (Proc.devRef .tc main_v14) := by keep_after hostOps0_8
theorem keep9_v14 (Wv : Valuation τ sig (Elt Ideal)) :
    StableHlo.after hostOps0_9 Wv (Proc.devRef .tc main_v14) = Wv (Proc.devRef .tc main_v14) := by keep_after hostOps0_9
theorem keep10_v14 (Wv : Valuation τ sig (Elt Ideal)) :
    StableHlo.after hostOps0_10 Wv (Proc.devRef .tc main_v14) = Wv (Proc.devRef .tc main_v14) := by keep_after hostOps0_10
theorem keep11_v14 (Wv : Valuation τ sig (Elt Ideal)) :
    StableHlo.after hostOps0_11 Wv (Proc.devRef .tc main_v14) = Wv (Proc.devRef .tc main_v14) := by keep_after hostOps0_11
theorem keep12_v14 (Wv : Valuation τ sig (Elt Ideal)) :
    StableHlo.after hostOps0_12 Wv (Proc.devRef .tc main_v14) = Wv (Proc.devRef .tc main_v14) := by keep_after hostOps0_12
theorem keep13_v14 (Wv : Valuation τ sig (Elt Ideal)) :
    StableHlo.after hostOps0_13 Wv (Proc.devRef .tc main_v14) = Wv (Proc.devRef .tc main_v14) := by keep_after hostOps0_13
theorem keep14_v14 (Wv : Valuation τ sig (Elt Ideal)) :
    StableHlo.after hostOps0_14 Wv (Proc.devRef .tc main_v14) = Wv (Proc.devRef .tc main_v14) := by keep_after hostOps0_14
theorem keep15_v14 (Wv : Valuation τ sig (Elt Ideal)) :
    StableHlo.after hostOps0_15 Wv (Proc.devRef .tc main_v14) = Wv (Proc.devRef .tc main_v14) := by keep_after hostOps0_15
/-- The destination index array is as launched when the count is taken. -/
theorem arg4_0 (c : Dev nD) : W0 (F := Ideal) m ρ c (Proc.devRef .tc main_arg4) = m ((c : Thread nD τ).loc main_arg4) :=
  rfl
/-- Edge type 0's destination normalisation, as the stacking stretch finds it, is the reference's, of row 0 of the destination index array. -/
theorem val_0 (c : Dev nD) :
    W16 (F := Ideal) m ρ c (Proc.devRef .tc main_v14)
      = Cert.ReferenceIdeal.RefValue.normOf (Cert.ReferenceIdeal.RefValue.row0 (m ((c : Thread nD τ).loc main_arg4))) := by
  refine (keep15_v14 (W15 m ρ c)).trans ?_
  refine (keep14_v14 (W14 m ρ c)).trans ?_
  refine (keep13_v14 (W13 m ρ c)).trans ?_
  refine (keep12_v14 (W12 m ρ c)).trans ?_
  refine (keep11_v14 (W11 m ρ c)).trans ?_
  refine (keep10_v14 (W10 m ρ c)).trans ?_
  refine (keep9_v14 (W9 m ρ c)).trans ?_
  refine (keep8_v14 (W8 m ρ c)).trans ?_
  refine (keep7_v14 (W7 m ρ c)).trans ?_
  refine (keep6_v14 (W6 m ρ c)).trans ?_
  refine (keep5_v14 (W5 m ρ c)).trans ?_
  refine (rsqrt_0 (W4 m ρ c)).trans ?_
  refine congrArg (Host.rsqrt (F := Ideal) (φ := .f32)) ?_
  refine (clip_0 (W3 m ρ c)).trans ?_
  rw [show W3 (F := Ideal) m ρ c (Proc.devRef .tc main_cst_3) = constant (F := Ideal) S_ .f32 0x3F800000#32 from cst_0 (W2 m ρ c),
    show W3 (F := Ideal) m ρ c (Proc.devRef .tc main_v10) = _ from
      (keep2_v10 (W2 m ρ c)).trans <| (keep1_v10 (W1 m ρ c)).trans <| deg_0 (W0 m ρ c),
    arg4_0 m ρ c]
  rfl
set_option maxHeartbeats 1000000 in
/-- The stacking stretch: the stacked column read at (0, n, 0) is edge type 0's normalisation at n. -/
theorem stack_0 (Wv : Valuation τ sig (Elt Ideal)) (n : Fin 100000) :
    StableHlo.after hostOps0_16 Wv (Proc.devRef .tc main_v71) (ix3 (0 : Fin 4) n (0 : Fin 1)) = Wv (Proc.devRef .tc main_v14) (ix1 n) := by
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  refine (broadcastInDim_apply (s := S4x100000) (t := S4x100000x1) ![0, 1] bcast_S4x100000_S4x100000x1_0_1 _ (ix3 (0 : Fin 4) n (0 : Fin 1)) (ix2 (0 : Fin 4) n)
    (fun a => match a with
      | ⟨0, _⟩ => rfl
      | ⟨1, _⟩ => rfl)).trans ?_
  refine (concatenate_apply_piece (0 : Fin S4x100000.rank) _ _ (ix2 (0 : Fin 4) n) 0 (by show 0 < 4; decide) S1x100000 _ rfl rfl 0 rfl
    (ix2 (0 : Fin 1) n)
    (fun b hb => match b with
      | ⟨0, _⟩ => (hb (Fin.ext rfl)).elim
      | ⟨1, _⟩ => rfl) rfl).trans ?_
  -- the selected piece, at its own reference
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  exact broadcastInDim_apply (s := S100000) (t := S1x100000) ![1] bcast_S100000_S1x100000_1 _ (ix2 (0 : Fin 1) n) (ix1 n)
    (fun a => match a with
      | ⟨0, _⟩ => rfl)

/-! ### Edge type 1: the destination degree count, its clip below at one, its reciprocal square root -/

/-- The degree count: a scatter-add of ones, at row 1 of the destination index array, into zeros. -/
theorem deg_1 (Wv : Valuation τ sig (Elt Ideal)) :
    StableHlo.after hostOps0_4 Wv (Proc.devRef .tc main_v25)
      = Host.scatterAdd (F := Ideal) (φ := .f32) scatter_S100000_S1000000x1_S1000000_n_0_0_1
          (broadcastInDim S100000 ![] bcast_S_S100000 (constant (F := Ideal) S_ .f32 0x00000000#32))
          (broadcastInDim S1000000x1 ![0] bcast_S1000000_S1000000x1_0
            (shapeCast S1000000 (extractStridedSlice S1x1000000 ![1, 0] (Wv (Proc.devRef .tc main_arg4)) slices_S4x1000000_S1x1000000_1_0) shapeCasts_S1x1000000_S1000000))
          (broadcastInDim S1000000 ![] bcast_S_S1000000 (constant (F := Ideal) S_ .f32 0x3F800000#32)) := by
  after_results
  rfl
theorem keep5_v25 (Wv : Valuation τ sig (Elt Ideal)) :
    StableHlo.after hostOps0_5 Wv (Proc.devRef .tc main_v25) = Wv (Proc.devRef .tc main_v25) := by keep_after hostOps0_5
theorem keep6_v25 (Wv : Valuation τ sig (Elt Ideal)) :
    StableHlo.after hostOps0_6 Wv (Proc.devRef .tc main_v25) = Wv (Proc.devRef .tc main_v25) := by keep_after hostOps0_6
/-- The clip's lower bound: the constant one. -/
theorem cst_1 (Wv : Valuation τ sig (Elt Ideal)) :
    StableHlo.after hostOps0_6 Wv (Proc.devRef .tc main_cst_8) = constant (F := Ideal) S_ .f32 0x3F800000#32 := by
  after_results
/-- The clip: the larger of one and the count. -/
theorem clip_1 (Wv : Valuation τ sig (Elt Ideal)) :
    StableHlo.after hostOps0_7 Wv (Proc.devRef .tc main_v28)
      = maximumf (F := Ideal) (φ := .f32) (broadcastInDim S100000 ![] bcast_S_S100000 (Wv (Proc.devRef .tc main_cst_8))) (Wv (Proc.devRef .tc main_v25)) := by
  after_results
  rfl
/-- The normalisation: the reciprocal square root of the clipped count. -/
theorem rsqrt_1 (Wv : Valuation τ sig (Elt Ideal)) :
    StableHlo.after hostOps0_8 Wv (Proc.devRef .tc main_v29) = Host.rsqrt (F := Ideal) (φ := .f32) (Wv (Proc.devRef .tc main_v28)) := by
  after_results
theorem keep9_v29 (Wv : Valuation τ sig (Elt Ideal)) :
    StableHlo.after hostOps0_9 Wv (Proc.devRef .tc main_v29) = Wv (Proc.devRef .tc main_v29) := by keep_after hostOps0_9
theorem keep10_v29 (Wv : Valuation τ sig (Elt Ideal)) :
    StableHlo.after hostOps0_10 Wv (Proc.devRef .tc main_v29) = Wv (Proc.devRef .tc main_v29) := by keep_after hostOps0_10
theorem keep11_v29 (Wv : Valuation τ sig (Elt Ideal)) :
    StableHlo.after hostOps0_11 Wv (Proc.devRef .tc main_v29) = Wv (Proc.devRef .tc main_v29) := by keep_after hostOps0_11
theorem keep12_v29 (Wv : Valuation τ sig (Elt Ideal)) :
    StableHlo.after hostOps0_12 Wv (Proc.devRef .tc main_v29) = Wv (Proc.devRef .tc main_v29) := by keep_after hostOps0_12
theorem keep13_v29 (Wv : Valuation τ sig (Elt Ideal)) :
    StableHlo.after hostOps0_13 Wv (Proc.devRef .tc main_v29) = Wv (Proc.devRef .tc main_v29) := by keep_after hostOps0_13
theorem keep14_v29 (Wv : Valuation τ sig (Elt Ideal)) :
    StableHlo.after hostOps0_14 Wv (Proc.devRef .tc main_v29) = Wv (Proc.devRef .tc main_v29) := by keep_after hostOps0_14
theorem keep15_v29 (Wv : Valuation τ sig (Elt Ideal)) :
    StableHlo.after hostOps0_15 Wv (Proc.devRef .tc main_v29) = Wv (Proc.devRef .tc main_v29) := by keep_after hostOps0_15
/-- The destination index array is as launched when the count is taken. -/
theorem arg4_1 (c : Dev nD) : W4 (F := Ideal) m ρ c (Proc.devRef .tc main_arg4) = m ((c : Thread nD τ).loc main_arg4) :=
  (hostOps0_3_keep 4 _).trans <| (hostOps0_2_keep 4 _).trans <| (hostOps0_1_keep 4 _).trans <| (hostOps0_keep 4 _).trans <| rfl
/-- Edge type 1's destination normalisation, as the stacking stretch finds it, is the reference's, of row 1 of the destination index array. -/
theorem val_1 (c : Dev nD) :
    W16 (F := Ideal) m ρ c (Proc.devRef .tc main_v29)
      = Cert.ReferenceIdeal.RefValue.normOf (Cert.ReferenceIdeal.RefValue.row1 (m ((c : Thread nD τ).loc main_arg4))) := by
  refine (keep15_v29 (W15 m ρ c)).trans ?_
  refine (keep14_v29 (W14 m ρ c)).trans ?_
  refine (keep13_v29 (W13 m ρ c)).trans ?_
  refine (keep12_v29 (W12 m ρ c)).trans ?_
  refine (keep11_v29 (W11 m ρ c)).trans ?_
  refine (keep10_v29 (W10 m ρ c)).trans ?_
  refine (keep9_v29 (W9 m ρ c)).trans ?_
  refine (rsqrt_1 (W8 m ρ c)).trans ?_
  refine congrArg (Host.rsqrt (F := Ideal) (φ := .f32)) ?_
  refine (clip_1 (W7 m ρ c)).trans ?_
  rw [show W7 (F := Ideal) m ρ c (Proc.devRef .tc main_cst_8) = constant (F := Ideal) S_ .f32 0x3F800000#32 from cst_1 (W6 m ρ c),
    show W7 (F := Ideal) m ρ c (Proc.devRef .tc main_v25) = _ from
      (keep6_v25 (W6 m ρ c)).trans <| (keep5_v25 (W5 m ρ c)).trans <| deg_1 (W4 m ρ c),
    arg4_1 m ρ c]
  rfl
set_option maxHeartbeats 1000000 in
/-- The stacking stretch: the stacked column read at (1, n, 0) is edge type 1's normalisation at n. -/
theorem stack_1 (Wv : Valuation τ sig (Elt Ideal)) (n : Fin 100000) :
    StableHlo.after hostOps0_16 Wv (Proc.devRef .tc main_v71) (ix3 (1 : Fin 4) n (0 : Fin 1)) = Wv (Proc.devRef .tc main_v29) (ix1 n) := by
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  refine (broadcastInDim_apply (s := S4x100000) (t := S4x100000x1) ![0, 1] bcast_S4x100000_S4x100000x1_0_1 _ (ix3 (1 : Fin 4) n (0 : Fin 1)) (ix2 (1 : Fin 4) n)
    (fun a => match a with
      | ⟨0, _⟩ => rfl
      | ⟨1, _⟩ => rfl)).trans ?_
  refine (concatenate_apply_piece (0 : Fin S4x100000.rank) _ _ (ix2 (1 : Fin 4) n) 1 (by show 1 < 4; decide) S1x100000 _ rfl rfl 1 rfl
    (ix2 (0 : Fin 1) n)
    (fun b hb => match b with
      | ⟨0, _⟩ => (hb (Fin.ext rfl)).elim
      | ⟨1, _⟩ => rfl) rfl).trans ?_
  -- the selected piece, at its own reference
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  exact broadcastInDim_apply (s := S100000) (t := S1x100000) ![1] bcast_S100000_S1x100000_1 _ (ix2 (0 : Fin 1) n) (ix1 n)
    (fun a => match a with
      | ⟨0, _⟩ => rfl)

/-! ### Edge type 2: the destination degree count, its clip below at one, its reciprocal square root -/

/-- The degree count: a scatter-add of ones, at row 2 of the destination index array, into zeros. -/
theorem deg_2 (Wv : Valuation τ sig (Elt Ideal)) :
    StableHlo.after hostOps0_8 Wv (Proc.devRef .tc main_v40)
      = Host.scatterAdd (F := Ideal) (φ := .f32) scatter_S100000_S1000000x1_S1000000_n_0_0_1
          (broadcastInDim S100000 ![] bcast_S_S100000 (constant (F := Ideal) S_ .f32 0x00000000#32))
          (broadcastInDim S1000000x1 ![0] bcast_S1000000_S1000000x1_0
            (shapeCast S1000000 (extractStridedSlice S1x1000000 ![2, 0] (Wv (Proc.devRef .tc main_arg4)) slices_S4x1000000_S1x1000000_2_0) shapeCasts_S1x1000000_S1000000))
          (broadcastInDim S1000000 ![] bcast_S_S1000000 (constant (F := Ideal) S_ .f32 0x3F800000#32)) := by
  after_results
  rfl
theorem keep9_v40 (Wv : Valuation τ sig (Elt Ideal)) :
    StableHlo.after hostOps0_9 Wv (Proc.devRef .tc main_v40) = Wv (Proc.devRef .tc main_v40) := by keep_after hostOps0_9
theorem keep10_v40 (Wv : Valuation τ sig (Elt Ideal)) :
    StableHlo.after hostOps0_10 Wv (Proc.devRef .tc main_v40) = Wv (Proc.devRef .tc main_v40) := by keep_after hostOps0_10
/-- The clip's lower bound: the constant one. -/
theorem cst_2 (Wv : Valuation τ sig (Elt Ideal)) :
    StableHlo.after hostOps0_10 Wv (Proc.devRef .tc main_cst_13) = constant (F := Ideal) S_ .f32 0x3F800000#32 := by
  after_results
/-- The clip: the larger of one and the count. -/
theorem clip_2 (Wv : Valuation τ sig (Elt Ideal)) :
    StableHlo.after hostOps0_11 Wv (Proc.devRef .tc main_v43)
      = maximumf (F := Ideal) (φ := .f32) (broadcastInDim S100000 ![] bcast_S_S100000 (Wv (Proc.devRef .tc main_cst_13))) (Wv (Proc.devRef .tc main_v40)) := by
  after_results
  rfl
/-- The normalisation: the reciprocal square root of the clipped count. -/
theorem rsqrt_2 (Wv : Valuation τ sig (Elt Ideal)) :
    StableHlo.after hostOps0_12 Wv (Proc.devRef .tc main_v44) = Host.rsqrt (F := Ideal) (φ := .f32) (Wv (Proc.devRef .tc main_v43)) := by
  after_results
theorem keep13_v44 (Wv : Valuation τ sig (Elt Ideal)) :
    StableHlo.after hostOps0_13 Wv (Proc.devRef .tc main_v44) = Wv (Proc.devRef .tc main_v44) := by keep_after hostOps0_13
theorem keep14_v44 (Wv : Valuation τ sig (Elt Ideal)) :
    StableHlo.after hostOps0_14 Wv (Proc.devRef .tc main_v44) = Wv (Proc.devRef .tc main_v44) := by keep_after hostOps0_14
theorem keep15_v44 (Wv : Valuation τ sig (Elt Ideal)) :
    StableHlo.after hostOps0_15 Wv (Proc.devRef .tc main_v44) = Wv (Proc.devRef .tc main_v44) := by keep_after hostOps0_15
/-- The destination index array is as launched when the count is taken. -/
theorem arg4_2 (c : Dev nD) : W8 (F := Ideal) m ρ c (Proc.devRef .tc main_arg4) = m ((c : Thread nD τ).loc main_arg4) :=
  (hostOps0_7_keep 4 _).trans <| (hostOps0_6_keep 4 _).trans <| (hostOps0_5_keep 4 _).trans <| (hostOps0_4_keep 4 _).trans <| (hostOps0_3_keep 4 _).trans <| (hostOps0_2_keep 4 _).trans <| (hostOps0_1_keep 4 _).trans <| (hostOps0_keep 4 _).trans <| rfl
/-- Edge type 2's destination normalisation, as the stacking stretch finds it, is the reference's, of row 2 of the destination index array. -/
theorem val_2 (c : Dev nD) :
    W16 (F := Ideal) m ρ c (Proc.devRef .tc main_v44)
      = Cert.ReferenceIdeal.RefValue.normOf (Cert.ReferenceIdeal.RefValue.row2 (m ((c : Thread nD τ).loc main_arg4))) := by
  refine (keep15_v44 (W15 m ρ c)).trans ?_
  refine (keep14_v44 (W14 m ρ c)).trans ?_
  refine (keep13_v44 (W13 m ρ c)).trans ?_
  refine (rsqrt_2 (W12 m ρ c)).trans ?_
  refine congrArg (Host.rsqrt (F := Ideal) (φ := .f32)) ?_
  refine (clip_2 (W11 m ρ c)).trans ?_
  rw [show W11 (F := Ideal) m ρ c (Proc.devRef .tc main_cst_13) = constant (F := Ideal) S_ .f32 0x3F800000#32 from cst_2 (W10 m ρ c),
    show W11 (F := Ideal) m ρ c (Proc.devRef .tc main_v40) = _ from
      (keep10_v40 (W10 m ρ c)).trans <| (keep9_v40 (W9 m ρ c)).trans <| deg_2 (W8 m ρ c),
    arg4_2 m ρ c]
  rfl
set_option maxHeartbeats 1000000 in
/-- The stacking stretch: the stacked column read at (2, n, 0) is edge type 2's normalisation at n. -/
theorem stack_2 (Wv : Valuation τ sig (Elt Ideal)) (n : Fin 100000) :
    StableHlo.after hostOps0_16 Wv (Proc.devRef .tc main_v71) (ix3 (2 : Fin 4) n (0 : Fin 1)) = Wv (Proc.devRef .tc main_v44) (ix1 n) := by
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  refine (broadcastInDim_apply (s := S4x100000) (t := S4x100000x1) ![0, 1] bcast_S4x100000_S4x100000x1_0_1 _ (ix3 (2 : Fin 4) n (0 : Fin 1)) (ix2 (2 : Fin 4) n)
    (fun a => match a with
      | ⟨0, _⟩ => rfl
      | ⟨1, _⟩ => rfl)).trans ?_
  refine (concatenate_apply_piece (0 : Fin S4x100000.rank) _ _ (ix2 (2 : Fin 4) n) 2 (by show 2 < 4; decide) S1x100000 _ rfl rfl 2 rfl
    (ix2 (0 : Fin 1) n)
    (fun b hb => match b with
      | ⟨0, _⟩ => (hb (Fin.ext rfl)).elim
      | ⟨1, _⟩ => rfl) rfl).trans ?_
  -- the selected piece, at its own reference
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  exact broadcastInDim_apply (s := S100000) (t := S1x100000) ![1] bcast_S100000_S1x100000_1 _ (ix2 (0 : Fin 1) n) (ix1 n)
    (fun a => match a with
      | ⟨0, _⟩ => rfl)

/-! ### Edge type 3: the destination degree count, its clip below at one, its reciprocal square root -/

/-- The degree count: a scatter-add of ones, at row 3 of the destination index array, into zeros. -/
theorem deg_3 (Wv : Valuation τ sig (Elt Ideal)) :
    StableHlo.after hostOps0_12 Wv (Proc.devRef .tc main_v55)
      = Host.scatterAdd (F := Ideal) (φ := .f32) scatter_S100000_S1000000x1_S1000000_n_0_0_1
          (broadcastInDim S100000 ![] bcast_S_S100000 (constant (F := Ideal) S_ .f32 0x00000000#32))
          (broadcastInDim S1000000x1 ![0] bcast_S1000000_S1000000x1_0
            (shapeCast S1000000 (extractStridedSlice S1x1000000 ![3, 0] (Wv (Proc.devRef .tc main_arg4)) slices_S4x1000000_S1x1000000_3_0) shapeCasts_S1x1000000_S1000000))
          (broadcastInDim S1000000 ![] bcast_S_S1000000 (constant (F := Ideal) S_ .f32 0x3F800000#32)) := by
  after_results
  rfl
theorem keep13_v55 (Wv : Valuation τ sig (Elt Ideal)) :
    StableHlo.after hostOps0_13 Wv (Proc.devRef .tc main_v55) = Wv (Proc.devRef .tc main_v55) := by keep_after hostOps0_13
theorem keep14_v55 (Wv : Valuation τ sig (Elt Ideal)) :
    StableHlo.after hostOps0_14 Wv (Proc.devRef .tc main_v55) = Wv (Proc.devRef .tc main_v55) := by keep_after hostOps0_14
/-- The clip's lower bound: the constant one. -/
theorem cst_3 (Wv : Valuation τ sig (Elt Ideal)) :
    StableHlo.after hostOps0_14 Wv (Proc.devRef .tc main_cst_18) = constant (F := Ideal) S_ .f32 0x3F800000#32 := by
  after_results
/-- The clip: the larger of one and the count. -/
theorem clip_3 (Wv : Valuation τ sig (Elt Ideal)) :
    StableHlo.after hostOps0_15 Wv (Proc.devRef .tc main_v58)
      = maximumf (F := Ideal) (φ := .f32) (broadcastInDim S100000 ![] bcast_S_S100000 (Wv (Proc.devRef .tc main_cst_18))) (Wv (Proc.devRef .tc main_v55)) := by
  after_results
  rfl
/-- The normalisation: the reciprocal square root of the clipped count. -/
theorem rsqrt_3 (Wv : Valuation τ sig (Elt Ideal)) :
    StableHlo.after hostOps0_16 Wv (Proc.devRef .tc main_v59) = Host.rsqrt (F := Ideal) (φ := .f32) (Wv (Proc.devRef .tc main_v58)) := by
  after_results
/-- The destination index array is as launched when the count is taken. -/
theorem arg4_3 (c : Dev nD) : W12 (F := Ideal) m ρ c (Proc.devRef .tc main_arg4) = m ((c : Thread nD τ).loc main_arg4) :=
  (hostOps0_11_keep 4 _).trans <| (hostOps0_10_keep 4 _).trans <| (hostOps0_9_keep 4 _).trans <| (hostOps0_8_keep 4 _).trans <| (hostOps0_7_keep 4 _).trans <| (hostOps0_6_keep 4 _).trans <| (hostOps0_5_keep 4 _).trans <| (hostOps0_4_keep 4 _).trans <| (hostOps0_3_keep 4 _).trans <| (hostOps0_2_keep 4 _).trans <| (hostOps0_1_keep 4 _).trans <| (hostOps0_keep 4 _).trans <| rfl
/-- Edge type 3's destination normalisation's clipped count, as the stacking stretch finds it, is the reference's, of row 3 of the destination index array. -/
theorem val_3 (c : Dev nD) :
    Host.rsqrt (F := Ideal) (φ := .f32) (W16 (F := Ideal) m ρ c (Proc.devRef .tc main_v58))
      = Cert.ReferenceIdeal.RefValue.normOf (Cert.ReferenceIdeal.RefValue.row3 (m ((c : Thread nD τ).loc main_arg4))) := by
  refine congrArg (Host.rsqrt (F := Ideal) (φ := .f32)) ?_
  refine (clip_3 (W15 m ρ c)).trans ?_
  rw [show W15 (F := Ideal) m ρ c (Proc.devRef .tc main_cst_18) = constant (F := Ideal) S_ .f32 0x3F800000#32 from cst_3 (W14 m ρ c),
    show W15 (F := Ideal) m ρ c (Proc.devRef .tc main_v55) = _ from
      (keep14_v55 (W14 m ρ c)).trans <| (keep13_v55 (W13 m ρ c)).trans <| deg_3 (W12 m ρ c),
    arg4_3 m ρ c]
  rfl
set_option maxHeartbeats 1000000 in
/-- The stacking stretch: the stacked column read at (3, n, 0) is edge type 3's normalisation at n. -/
theorem stack_3 (Wv : Valuation τ sig (Elt Ideal)) (n : Fin 100000) :
    StableHlo.after hostOps0_16 Wv (Proc.devRef .tc main_v71) (ix3 (3 : Fin 4) n (0 : Fin 1)) = Host.rsqrt (F := Ideal) (φ := .f32) (Wv (Proc.devRef .tc main_v58)) (ix1 n) := by
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  refine (broadcastInDim_apply (s := S4x100000) (t := S4x100000x1) ![0, 1] bcast_S4x100000_S4x100000x1_0_1 _ (ix3 (3 : Fin 4) n (0 : Fin 1)) (ix2 (3 : Fin 4) n)
    (fun a => match a with
      | ⟨0, _⟩ => rfl
      | ⟨1, _⟩ => rfl)).trans ?_
  refine (concatenate_apply_piece (0 : Fin S4x100000.rank) _ _ (ix2 (3 : Fin 4) n) 3 (by show 3 < 4; decide) S1x100000 _ rfl rfl 3 rfl
    (ix2 (0 : Fin 1) n)
    (fun b hb => match b with
      | ⟨0, _⟩ => (hb (Fin.ext rfl)).elim
      | ⟨1, _⟩ => rfl) rfl).trans ?_
  -- the selected piece, at its own reference
  simp (disch := decide) only [after_cons, after_nil, nullary_result', unary_result', binary_result', ternary_result', quaternary_result', reshape_result', nary_result', Matrix.cons_val, unaryIndexed_result', binaryIndexed_result', nullary_result_ne', unary_result_ne', binary_result_ne', ternary_result_ne', quaternary_result_ne', reshape_result_ne', nary_result_ne', unaryIndexed_result_ne', binaryIndexed_result_ne']
  exact broadcastInDim_apply (s := S100000) (t := S1x100000) ![1] bcast_S100000_S1x100000_1 _ (ix2 (0 : Fin 1) n) (ix1 n)
    (fun a => match a with
      | ⟨0, _⟩ => rfl)

end Nd

/-- The destination normalisation column the combine launch reads, at (0, n, 0): the reference's normalisation of row 0
    of the destination index array, at n. -/
theorem nd_at_0 (c : Dev nD) (n : Fin 100000) :
    W17 (F := Ideal) m ρ c (Proc.devRef .tc main_v71) (ix3 (0 : Fin 4) n (0 : Fin 1))
      = Cert.ReferenceIdeal.RefValue.normOf (Cert.ReferenceIdeal.RefValue.row0 (m ((c : Thread nD τ).loc main_arg4))) (ix1 n) :=
  (Nd.stack_0 (W16 m ρ c) n).trans (congrFun (Nd.val_0 m ρ c) (ix1 n))

/-- The destination normalisation column the combine launch reads, at (1, n, 0): the reference's normalisation of row 1
    of the destination index array, at n. -/
theorem nd_at_1 (c : Dev nD) (n : Fin 100000) :
    W17 (F := Ideal) m ρ c (Proc.devRef .tc main_v71) (ix3 (1 : Fin 4) n (0 : Fin 1))
      = Cert.ReferenceIdeal.RefValue.normOf (Cert.ReferenceIdeal.RefValue.row1 (m ((c : Thread nD τ).loc main_arg4))) (ix1 n) :=
  (Nd.stack_1 (W16 m ρ c) n).trans (congrFun (Nd.val_1 m ρ c) (ix1 n))

/-- The destination normalisation column the combine launch reads, at (2, n, 0): the reference's normalisation of row 2
    of the destination index array, at n. -/
theorem nd_at_2 (c : Dev nD) (n : Fin 100000) :
    W17 (F := Ideal) m ρ c (Proc.devRef .tc main_v71) (ix3 (2 : Fin 4) n (0 : Fin 1))
      = Cert.ReferenceIdeal.RefValue.normOf (Cert.ReferenceIdeal.RefValue.row2 (m ((c : Thread nD τ).loc main_arg4))) (ix1 n) :=
  (Nd.stack_2 (W16 m ρ c) n).trans (congrFun (Nd.val_2 m ρ c) (ix1 n))

/-- The destination normalisation column the combine launch reads, at (3, n, 0): the reference's normalisation of row 3
    of the destination index array, at n. -/
theorem nd_at_3 (c : Dev nD) (n : Fin 100000) :
    W17 (F := Ideal) m ρ c (Proc.devRef .tc main_v71) (ix3 (3 : Fin 4) n (0 : Fin 1))
      = Cert.ReferenceIdeal.RefValue.normOf (Cert.ReferenceIdeal.RefValue.row3 (m ((c : Thread nD τ).loc main_arg4))) (ix1 n) :=
  (Nd.stack_3 (W16 m ρ c) n).trans (congrFun (Nd.val_3 m ρ c) (ix1 n))

/-- The host stretch between the two launches does not write the normalisation column, nor does the feature launch. -/
theorem nd_keep (c : Dev nD) :
    W19 (F := Ideal) m ρ c (Proc.devRef .tc main_v71) = W17 m ρ c (Proc.devRef .tc main_v71) :=
  (show StableHlo.after hostOps1 (W18 (F := Ideal) m ρ c) (Proc.devRef .tc main_v71) = W18 m ρ c (Proc.devRef .tc main_v71) by keep_after hostOps1).trans
    (W18_of_ne m ρ c main_v71 (by decide))

end Cert.KernelIdeal.Val
end
-- ==== Proof.Ref.At.lean ====
import proofs.«169069_j12051678233154_1_alg».proof.Proof.Gen.ReferenceIdeal.Read
import Idealize.ShloMosaic.Lib.ValueIdx

/-! The reference program read at an index: each of its four feature products is a sum over the 128 input
    features of (input element times the source normalisation) times the weight, and the result is the
    left-nested sum, from the zero word, of (aggregate times destination normalisation plus bias) over the
    four edge types. -/

noncomputable section

namespace Cert.ReferenceIdeal.RefValue

open Cert.ReferenceIdeal Cert.ReferenceIdeal.Read Idealize.ShloMosaic Idealize.ShloMosaic.ValueIdx

/-- Left operand of the contraction for edge type 0: row n, column j of the scaled input. -/
theorem lidx0 (n : Fin 100000) (e : Fin 64) (j : Fin 128) :
    lidx_main_v23 (ix2 n e) j = ix2 n j :=
  funext fun a => Fin.ext (by match a with | ⟨0, _⟩ => rfl | ⟨1, _⟩ => rfl)

/-- The source normalisation is read at the row alone. -/
theorem nidx0 (n : Fin 100000) (j : Fin 128) :
    idx_main_v20 (idx_main_v21 (ix2 n j)) = ix1 n :=
  funext fun a => Fin.ext (by match a with | ⟨0, _⟩ => rfl)

/-- Right operand of the contraction for edge type 0: slab 0, row j, column e of the weights. -/
theorem ridx0 (n : Fin 100000) (e : Fin 64) (j : Fin 128) :
    idx_main_v1 (idx_main_v2 (ridx_main_v23 (ix2 n e) j)) = ix3 (0 : Fin 4) j e :=
  funext fun a => Fin.ext (by
    have hj : j.val < 128 := j.isLt
    have he : e.val < 64 := e.isLt
    match a with
    | ⟨0, _⟩ => rfl
    | ⟨1, _⟩ => show (j.val * 64 + e.val) / 64 % 128 = j.val; omega
    | ⟨2, _⟩ => show (j.val * 64 + e.val) % 64 = e.val; omega)

theorem feat0_at (x0 : (⟨S100000x128, .f32⟩ : BufTy).Contents (Elt Ideal)) (x1 : (⟨S4x128x64, .f32⟩ : BufTy).Contents (Elt Ideal))
    (x3 : (⟨S4x1000000, .i32⟩ : BufTy).Contents (Elt Ideal)) (n : Fin 100000) (e : Fin 64) :
    val_main_v23 (F := Ideal) x0 x1 x3 (ix2 n e)
      = ∑ j : Fin 128, (x0 (ix2 n j) * val_main_v17 (F := Ideal) x3 (ix1 n)) * x1 (ix3 (0 : Fin 4) j e) := by
  rw [val_main_v23_apply]
  refine Finset.sum_congr rfl fun j _ => ?_
  rw [val_main_v22_apply, val_main_v21_apply, val_main_v20_apply, val_main_v2_apply, val_main_v1_apply,
    lidx0, nidx0, ridx0]
  rfl

/-- Left operand of the contraction for edge type 1: row n, column j of the scaled input. -/
theorem lidx1 (n : Fin 100000) (e : Fin 64) (j : Fin 128) :
    lidx_main_v63 (ix2 n e) j = ix2 n j :=
  funext fun a => Fin.ext (by match a with | ⟨0, _⟩ => rfl | ⟨1, _⟩ => rfl)

/-- The source normalisation is read at the row alone. -/
theorem nidx1 (n : Fin 100000) (j : Fin 128) :
    idx_main_v60 (idx_main_v61 (ix2 n j)) = ix1 n :=
  funext fun a => Fin.ext (by match a with | ⟨0, _⟩ => rfl)

/-- Right operand of the contraction for edge type 1: slab 1, row j, column e of the weights. -/
theorem ridx1 (n : Fin 100000) (e : Fin 64) (j : Fin 128) :
    idx_main_v41 (idx_main_v42 (ridx_main_v63 (ix2 n e) j)) = ix3 (1 : Fin 4) j e :=
  funext fun a => Fin.ext (by
    have hj : j.val < 128 := j.isLt
    have he : e.val < 64 := e.isLt
    match a with
    | ⟨0, _⟩ => rfl
    | ⟨1, _⟩ => show (j.val * 64 + e.val) / 64 % 128 = j.val; omega
    | ⟨2, _⟩ => show (j.val * 64 + e.val) % 64 = e.val; omega)

theorem feat1_at (x0 : (⟨S100000x128, .f32⟩ : BufTy).Contents (Elt Ideal)) (x1 : (⟨S4x128x64, .f32⟩ : BufTy).Contents (Elt Ideal))
    (x3 : (⟨S4x1000000, .i32⟩ : BufTy).Contents (Elt Ideal)) (n : Fin 100000) (e : Fin 64) :
    val_main_v63 (F := Ideal) x0 x1 x3 (ix2 n e)
      = ∑ j : Fin 128, (x0 (ix2 n j) * val_main_v57 (F := Ideal) x3 (ix1 n)) * x1 (ix3 (1 : Fin 4) j e) := by
  rw [val_main_v63_apply]
  refine Finset.sum_congr rfl fun j _ => ?_
  rw [val_main_v62_apply, val_main_v61_apply, val_main_v60_apply, val_main_v42_apply, val_main_v41_apply,
    lidx1, nidx1, ridx1]
  rfl

/-- Left operand of the contraction for edge type 2: row n, column j of the scaled input. -/
theorem lidx2 (n : Fin 100000) (e : Fin 64) (j : Fin 128) :
    lidx_main_v103 (ix2 n e) j = ix2 n j :=
  funext fun a => Fin.ext (by match a with | ⟨0, _⟩ => rfl | ⟨1, _⟩ => rfl)

/-- The source normalisation is read at the row alone. -/
theorem nidx2 (n : Fin 100000) (j : Fin 128) :
    idx_main_v100 (idx_main_v101 (ix2 n j)) = ix1 n :=
  funext fun a => Fin.ext (by match a with | ⟨0, _⟩ => rfl)

/-- Right operand of the contraction for edge type 2: slab 2, row j, column e of the weights. -/
theorem ridx2 (n : Fin 100000) (e : Fin 64) (j : Fin 128) :
    idx_main_v81 (idx_main_v82 (ridx_main_v103 (ix2 n e) j)) = ix3 (2 : Fin 4) j e :=
  funext fun a => Fin.ext (by
    have hj : j.val < 128 := j.isLt
    have he : e.val < 64 := e.isLt
    match a with
    | ⟨0, _⟩ => rfl
    | ⟨1, _⟩ => show (j.val * 64 + e.val) / 64 % 128 = j.val; omega
    | ⟨2, _⟩ => show (j.val * 64 + e.val) % 64 = e.val; omega)

theorem feat2_at (x0 : (⟨S100000x128, .f32⟩ : BufTy).Contents (Elt Ideal)) (x1 : (⟨S4x128x64, .f32⟩ : BufTy).Contents (Elt Ideal))
    (x3 : (⟨S4x1000000, .i32⟩ : BufTy).Contents (Elt Ideal)) (n : Fin 100000) (e : Fin 64) :
    val_main_v103 (F := Ideal) x0 x1 x3 (ix2 n e)
      = ∑ j : Fin 128, (x0 (ix2 n j) * val_main_v97 (F := Ideal) x3 (ix1 n)) * x1 (ix3 (2 : Fin 4) j e) := by
  rw [val_main_v103_apply]
  refine Finset.sum_congr rfl fun j _ => ?_
  rw [val_main_v102_apply, val_main_v101_apply, val_main_v100_apply, val_main_v82_apply, val_main_v81_apply,
    lidx2, nidx2, ridx2]
  rfl

/-- Left operand of the contraction for edge type 3: row n, column j of the scaled input. -/
theorem lidx3 (n : Fin 100000) (e : Fin 64) (j : Fin 128) :
    lidx_main_v143 (ix2 n e) j = ix2 n j :=
  funext fun a => Fin.ext (by match a with | ⟨0, _⟩ => rfl | ⟨1, _⟩ => rfl)

/-- The source normalisation is read at the row alone. -/
theorem nidx3 (n : Fin 100000) (j : Fin 128) :
    idx_main_v140 (idx_main_v141 (ix2 n j)) = ix1 n :=
  funext fun a => Fin.ext (by match a with | ⟨0, _⟩ => rfl)

/-- Right operand of the contraction for edge type 3: slab 3, row j, column e of the weights. -/
theorem ridx3 (n : Fin 100000) (e : Fin 64) (j : Fin 128) :
    idx_main_v121 (idx_main_v122 (ridx_main_v143 (ix2 n e) j)) = ix3 (3 : Fin 4) j e :=
  funext fun a => Fin.ext (by
    have hj : j.val < 128 := j.isLt
    have he : e.val < 64 := e.isLt
    match a with
    | ⟨0, _⟩ => rfl
    | ⟨1, _⟩ => show (j.val * 64 + e.val) / 64 % 128 = j.val; omega
    | ⟨2, _⟩ => show (j.val * 64 + e.val) % 64 = e.val; omega)

theorem feat3_at (x0 : (⟨S100000x128, .f32⟩ : BufTy).Contents (Elt Ideal)) (x1 : (⟨S4x128x64, .f32⟩ : BufTy).Contents (Elt Ideal))
    (x3 : (⟨S4x1000000, .i32⟩ : BufTy).Contents (Elt Ideal)) (n : Fin 100000) (e : Fin 64) :
    val_main_v143 (F := Ideal) x0 x1 x3 (ix2 n e)
      = ∑ j : Fin 128, (x0 (ix2 n j) * val_main_v137 (F := Ideal) x3 (ix1 n)) * x1 (ix3 (3 : Fin 4) j e) := by
  rw [val_main_v143_apply]
  refine Finset.sum_congr rfl fun j _ => ?_
  rw [val_main_v142_apply, val_main_v141_apply, val_main_v140_apply, val_main_v122_apply, val_main_v121_apply,
    lidx3, nidx3, ridx3]
  rfl

/-- The destination normalisation of edge type 0 is read at the row alone. -/
theorem didx0 (n : Fin 100000) (e : Fin 64) :
    idx_main_v34 (idx_main_v35 (ix2 n e)) = ix1 n :=
  funext fun a => Fin.ext (by match a with | ⟨0, _⟩ => rfl)

/-- The bias of edge type 0 is read at row 0, column e. -/
theorem bidx0 (n : Fin 100000) (e : Fin 64) :
    idx_main_v3 (idx_main_v4 (idx_main_v37 (idx_main_v38 (ix2 n e)))) = ix2 (0 : Fin 4) e :=
  funext fun a => Fin.ext (by
    have he : e.val < 64 := e.isLt
    match a with
    | ⟨0, _⟩ => rfl
    | ⟨1, _⟩ => show e.val % 64 = e.val; omega)

/-- The destination normalisation of edge type 1 is read at the row alone. -/
theorem didx1 (n : Fin 100000) (e : Fin 64) :
    idx_main_v74 (idx_main_v75 (ix2 n e)) = ix1 n :=
  funext fun a => Fin.ext (by match a with | ⟨0, _⟩ => rfl)

/-- The bias of edge type 1 is read at row 1, column e. -/
theorem bidx1 (n : Fin 100000) (e : Fin 64) :
    idx_main_v43 (idx_main_v44 (idx_main_v77 (idx_main_v78 (ix2 n e)))) = ix2 (1 : Fin 4) e :=
  funext fun a => Fin.ext (by
    have he : e.val < 64 := e.isLt
    match a with
    | ⟨0, _⟩ => rfl
    | ⟨1, _⟩ => show e.val % 64 = e.val; omega)

/-- The destination normalisation of edge type 2 is read at the row alone. -/
theorem didx2 (n : Fin 100000) (e : Fin 64) :
    idx_main_v114 (idx_main_v115 (ix2 n e)) = ix1 n :=
  funext fun a => Fin.ext (by match a with | ⟨0, _⟩ => rfl)

/-- The bias of edge type 2 is read at row 2, column e. -/
theorem bidx2 (n : Fin 100000) (e : Fin 64) :
    idx_main_v83 (idx_main_v84 (idx_main_v117 (idx_main_v118 (ix2 n e)))) = ix2 (2 : Fin 4) e :=
  funext fun a => Fin.ext (by
    have he : e.val < 64 := e.isLt
    match a with
    | ⟨0, _⟩ => rfl
    | ⟨1, _⟩ => show e.val % 64 = e.val; omega)

/-- The destination normalisation of edge type 3 is read at the row alone. -/
theorem didx3 (n : Fin 100000) (e : Fin 64) :
    idx_main_v154 (idx_main_v155 (ix2 n e)) = ix1 n :=
  funext fun a => Fin.ext (by match a with | ⟨0, _⟩ => rfl)

/-- The bias of edge type 3 is read at row 3, column e. -/
theorem bidx3 (n : Fin 100000) (e : Fin 64) :
    idx_main_v123 (idx_main_v124 (idx_main_v157 (idx_main_v158 (ix2 n e)))) = ix2 (3 : Fin 4) e :=
  funext fun a => Fin.ext (by
    have he : e.val < 64 := e.isLt
    match a with
    | ⟨0, _⟩ => rfl
    | ⟨1, _⟩ => show e.val % 64 = e.val; omega)

/-- One edge type's contribution at an index: aggregate times destination normalisation plus bias. -/
theorem term0_at (x0 : (⟨S100000x128, .f32⟩ : BufTy).Contents (Elt Ideal)) (x1 : (⟨S4x128x64, .f32⟩ : BufTy).Contents (Elt Ideal))
    (x2 : (⟨S4x64, .f32⟩ : BufTy).Contents (Elt Ideal)) (x3 x4 : (⟨S4x1000000, .i32⟩ : BufTy).Contents (Elt Ideal)) (n : Fin 100000) (e : Fin 64) :
    val_main_v39 (F := Ideal) x0 x1 x2 x3 x4 (ix2 n e)
      = val_main_v33 (F := Ideal) x0 x1 x3 x4 (ix2 n e) * val_main_v19 (F := Ideal) x4 (ix1 n) + x2 (ix2 (0 : Fin 4) e) := by
  rw [val_main_v39_apply, val_main_v36_apply, val_main_v35_apply, val_main_v34_apply,
    val_main_v38_apply, val_main_v37_apply, val_main_v4_apply, val_main_v3_apply, didx0, bidx0]
  rfl

theorem term1_at (x0 : (⟨S100000x128, .f32⟩ : BufTy).Contents (Elt Ideal)) (x1 : (⟨S4x128x64, .f32⟩ : BufTy).Contents (Elt Ideal))
    (x2 : (⟨S4x64, .f32⟩ : BufTy).Contents (Elt Ideal)) (x3 x4 : (⟨S4x1000000, .i32⟩ : BufTy).Contents (Elt Ideal)) (n : Fin 100000) (e : Fin 64) :
    val_main_v79 (F := Ideal) x0 x1 x2 x3 x4 (ix2 n e)
      = val_main_v73 (F := Ideal) x0 x1 x3 x4 (ix2 n e) * val_main_v59 (F := Ideal) x4 (ix1 n) + x2 (ix2 (1 : Fin 4) e) := by
  rw [val_main_v79_apply, val_main_v76_apply, val_main_v75_apply, val_main_v74_apply,
    val_main_v78_apply, val_main_v77_apply, val_main_v44_apply, val_main_v43_apply, didx1, bidx1]
  rfl

theorem term2_at (x0 : (⟨S100000x128, .f32⟩ : BufTy).Contents (Elt Ideal)) (x1 : (⟨S4x128x64, .f32⟩ : BufTy).Contents (Elt Ideal))
    (x2 : (⟨S4x64, .f32⟩ : BufTy).Contents (Elt Ideal)) (x3 x4 : (⟨S4x1000000, .i32⟩ : BufTy).Contents (Elt Ideal)) (n : Fin 100000) (e : Fin 64) :
    val_main_v119 (F := Ideal) x0 x1 x2 x3 x4 (ix2 n e)
      = val_main_v113 (F := Ideal) x0 x1 x3 x4 (ix2 n e) * val_main_v99 (F := Ideal) x4 (ix1 n) + x2 (ix2 (2 : Fin 4) e) := by
  rw [val_main_v119_apply, val_main_v116_apply, val_main_v115_apply, val_main_v114_apply,
    val_main_v118_apply, val_main_v117_apply, val_main_v84_apply, val_main_v83_apply, didx2, bidx2]
  rfl

theorem term3_at (x0 : (⟨S100000x128, .f32⟩ : BufTy).Contents (Elt Ideal)) (x1 : (⟨S4x128x64, .f32⟩ : BufTy).Contents (Elt Ideal))
    (x2 : (⟨S4x64, .f32⟩ : BufTy).Contents (Elt Ideal)) (x3 x4 : (⟨S4x1000000, .i32⟩ : BufTy).Contents (Elt Ideal)) (n : Fin 100000) (e : Fin 64) :
    val_main_v159 (F := Ideal) x0 x1 x2 x3 x4 (ix2 n e)
      = val_main_v153 (F := Ideal) x0 x1 x3 x4 (ix2 n e) * val_main_v139 (F := Ideal) x4 (ix1 n) + x2 (ix2 (3 : Fin 4) e) := by
  rw [val_main_v159_apply, val_main_v156_apply, val_main_v155_apply, val_main_v154_apply,
    val_main_v158_apply, val_main_v157_apply, val_main_v124_apply, val_main_v123_apply, didx3, bidx3]
  rfl

/-- The result at an index: the left-nested sum, from the zero word, of the four contributions. -/
theorem out_at (x0 : (⟨S100000x128, .f32⟩ : BufTy).Contents (Elt Ideal)) (x1 : (⟨S4x128x64, .f32⟩ : BufTy).Contents (Elt Ideal))
    (x2 : (⟨S4x64, .f32⟩ : BufTy).Contents (Elt Ideal)) (x3 x4 : (⟨S4x1000000, .i32⟩ : BufTy).Contents (Elt Ideal)) (n : Fin 100000) (e : Fin 64) :
    val_main_v160 (F := Ideal) x0 x1 x2 x3 x4 (ix2 n e)
      = ((((Ideal.ofBits .f32 0x00000000#32 : EReal)
            + (val_main_v33 (F := Ideal) x0 x1 x3 x4 (ix2 n e) * val_main_v19 (F := Ideal) x4 (ix1 n) + x2 (ix2 (0 : Fin 4) e)))
            + (val_main_v73 (F := Ideal) x0 x1 x3 x4 (ix2 n e) * val_main_v59 (F := Ideal) x4 (ix1 n) + x2 (ix2 (1 : Fin 4) e)))
            + (val_main_v113 (F := Ideal) x0 x1 x3 x4 (ix2 n e) * val_main_v99 (F := Ideal) x4 (ix1 n) + x2 (ix2 (2 : Fin 4) e)))
            + (val_main_v153 (F := Ideal) x0 x1 x3 x4 (ix2 n e) * val_main_v139 (F := Ideal) x4 (ix1 n) + x2 (ix2 (3 : Fin 4) e)) := by
  rw [val_main_v160_apply, val_main_v120_apply, val_main_v80_apply, val_main_v40_apply, val_main_v0_apply, val_main_cst_apply,
    term0_at, term1_at, term2_at, term3_at]
  rfl

end Cert.ReferenceIdeal.RefValue
-- ==== Proof.Val.Bridge.lean ====
/-
  The two programs compute one function. Read at an index (n, e), the kernel program's result is
  0 + Σ_k (agg_k[n, e] * norm_dst_k[n] + b[k, e]) over the arrays the combine launch is entered with; those arrays are
  the stacked host terms — the destination norms, and for each edge type the accumulation by destination node of the
  rows, gathered by source node, of slice k of the projection launch's output — and slice k of that output is, entry by
  entry, the finite sum Σ_j (h[n, j] * norm_src_k[n]) * W[k, j, e] that the reference's dot_general is. The host terms
  around it are the reference's own operations of equal arguments, so nothing about them is opened.
-/
import proofs.«169069_j12051678233154_1_alg».proof.Proof.KI.Run
import proofs.«169069_j12051678233154_1_alg».proof.Proof.Val.Final0
import proofs.«169069_j12051678233154_1_alg».proof.Proof.Val.Final1
import proofs.«169069_j12051678233154_1_alg».proof.Proof.Val.HostK
import proofs.«169069_j12051678233154_1_alg».proof.Proof.Val.HostAgg
import proofs.«169069_j12051678233154_1_alg».proof.Proof.Val.HostNd
import proofs.«169069_j12051678233154_1_alg».proof.Proof.Ref.At
import proofs.«169069_j12051678233154_1_alg».proof.Proof.Ref.Opaque
import Idealize.ShloMosaic.Lib.Pipeline.Value
import Idealize.ShloMosaic.Lib.ValueIdx

set_option maxRecDepth 16384
set_option maxHeartbeats 1000000

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-- An argument array holds its launch contents at the combine launch's entry. -/
theorem W19_arg (a : Fin 5) (c : Dev nD) :
    W19 m ρ c (Proc.devRef .tc (argRef a)) = m ((c : Thread nD τ).loc (argRef a)) :=
  (hostOps1_keep a _).trans <| (W18_arg m ρ a c).trans <| (W17_arg m ρ a c).trans rfl

theorem W17_arg_launch (a : Fin 5) (c : Dev nD) :
    W17 m ρ c (Proc.devRef .tc (argRef a)) = m ((c : Thread nD τ).loc (argRef a)) :=
  (W17_arg m ρ a c).trans rfl

/-- The projection launch's output array is the stacked projections of the launch contents of h and W and the
    stacked source norms. -/
theorem W18_feat (c : Dev nD) :
    W18 m ρ c (Proc.devRef .tc main_v72)
      = featArr (m ((c : Thread nD τ).loc main_arg0)) (m ((c : Thread nD τ).loc main_arg1)) (W17 m ρ c (Proc.devRef .tc main_v65)) := by
  rw [show W18 m ρ c (Proc.devRef .tc main_v72) = (dat0 (V17 m ρ) c).arrAt 3 cfg0.N from W18_arr m ρ c 3, final0]
  show featArr (W17 m ρ c (Proc.devRef .tc (argRef 0))) (W17 m ρ c (Proc.devRef .tc (argRef 1))) _ = _
  rw [W17_arg_launch m ρ 0 c, W17_arg_launch m ρ 1 c]
  rfl

/-- Slice 0 of the projection output is the reference's feature product of edge type 0. -/
theorem feat_slice_0 (c : Dev nD) :
    (fun i : Cert.ReferenceIdeal.S100000x64.Idx => W18 (F := Ideal) m ρ c (Proc.devRef .tc main_v72) (ix3 (0 : Fin 4) (i 0) (i 1)))
      = Cert.ReferenceIdeal.Read.val_main_v23 (F := Ideal) (m ((c : Thread nD τ).loc main_arg0)) (m ((c : Thread nD τ).loc main_arg1)) (m ((c : Thread nD τ).loc main_arg3)) := by
  funext i
  obtain ⟨n, e, rfl⟩ : ∃ (n : Fin 100000) (e : Fin 64), i = ix2 n e := ⟨i 0, i 1, eq_ix2 i⟩
  refine Eq.trans ?_ (Cert.ReferenceIdeal.RefValue.feat0_at _ _ _ n e).symm
  rw [W18_feat m ρ c]
  show featAt _ _ _ (0 : Fin 4) n e = _
  unfold featAt
  apply Finset.sum_congr rfl
  intro j _
  rw [ns_at_0 m ρ c n, Cert.ReferenceIdeal.RefValue.norm_src0_def]

/-- Slice 1 of the projection output is the reference's feature product of edge type 1. -/
theorem feat_slice_1 (c : Dev nD) :
    (fun i : Cert.ReferenceIdeal.S100000x64.Idx => W18 (F := Ideal) m ρ c (Proc.devRef .tc main_v72) (ix3 (1 : Fin 4) (i 0) (i 1)))
      = Cert.ReferenceIdeal.Read.val_main_v63 (F := Ideal) (m ((c : Thread nD τ).loc main_arg0)) (m ((c : Thread nD τ).loc main_arg1)) (m ((c : Thread nD τ).loc main_arg3)) := by
  funext i
  obtain ⟨n, e, rfl⟩ : ∃ (n : Fin 100000) (e : Fin 64), i = ix2 n e := ⟨i 0, i 1, eq_ix2 i⟩
  refine Eq.trans ?_ (Cert.ReferenceIdeal.RefValue.feat1_at _ _ _ n e).symm
  rw [W18_feat m ρ c]
  show featAt _ _ _ (1 : Fin 4) n e = _
  unfold featAt
  apply Finset.sum_congr rfl
  intro j _
  rw [ns_at_1 m ρ c n, Cert.ReferenceIdeal.RefValue.norm_src1_def]

/-- Slice 2 of the projection output is the reference's feature product of edge type 2. -/
theorem feat_slice_2 (c : Dev nD) :
    (fun i : Cert.ReferenceIdeal.S100000x64.Idx => W18 (F := Ideal) m ρ c (Proc.devRef .tc main_v72) (ix3 (2 : Fin 4) (i 0) (i 1)))
      = Cert.ReferenceIdeal.Read.val_main_v103 (F := Ideal) (m ((c : Thread nD τ).loc main_arg0)) (m ((c : Thread nD τ).loc main_arg1)) (m ((c : Thread nD τ).loc main_arg3)) := by
  funext i
  obtain ⟨n, e, rfl⟩ : ∃ (n : Fin 100000) (e : Fin 64), i = ix2 n e := ⟨i 0, i 1, eq_ix2 i⟩
  refine Eq.trans ?_ (Cert.ReferenceIdeal.RefValue.feat2_at _ _ _ n e).symm
  rw [W18_feat m ρ c]
  show featAt _ _ _ (2 : Fin 4) n e = _
  unfold featAt
  apply Finset.sum_congr rfl
  intro j _
  rw [ns_at_2 m ρ c n, Cert.ReferenceIdeal.RefValue.norm_src2_def]

/-- Slice 3 of the projection output is the reference's feature product of edge type 3. -/
theorem feat_slice_3 (c : Dev nD) :
    (fun i : Cert.ReferenceIdeal.S100000x64.Idx => W18 (F := Ideal) m ρ c (Proc.devRef .tc main_v72) (ix3 (3 : Fin 4) (i 0) (i 1)))
      = Cert.ReferenceIdeal.Read.val_main_v143 (F := Ideal) (m ((c : Thread nD τ).loc main_arg0)) (m ((c : Thread nD τ).loc main_arg1)) (m ((c : Thread nD τ).loc main_arg3)) := by
  funext i
  obtain ⟨n, e, rfl⟩ : ∃ (n : Fin 100000) (e : Fin 64), i = ix2 n e := ⟨i 0, i 1, eq_ix2 i⟩
  refine Eq.trans ?_ (Cert.ReferenceIdeal.RefValue.feat3_at _ _ _ n e).symm
  rw [W18_feat m ρ c]
  show featAt _ _ _ (3 : Fin 4) n e = _
  unfold featAt
  apply Finset.sum_congr rfl
  intro j _
  rw [ns_at_3 m ρ c n, Cert.ReferenceIdeal.RefValue.norm_src3_def]

/-- The aggregate of edge type 0 at the combine launch's entry is the reference's: the same gather and accumulation of
    equal feature products along equal index rows. -/
theorem agg_eq_0 (c : Dev nD) (n : Fin 100000) (e : Fin 64) :
    W19 (F := Ideal) m ρ c (Proc.devRef .tc main_v141) (ix3 (0 : Fin 4) n e)
      = Cert.ReferenceIdeal.Read.val_main_v33 (F := Ideal) (m ((c : Thread nD τ).loc main_arg0)) (m ((c : Thread nD τ).loc main_arg1)) (m ((c : Thread nD τ).loc main_arg3)) (m ((c : Thread nD τ).loc main_arg4)) (ix2 n e) := by
  rw [agg_at_0 m ρ c n e, feat_slice_0 m ρ c, Cert.ReferenceIdeal.RefValue.agg0_eq]

/-- The destination norm of edge type 0 at the combine launch's entry is the reference's. -/
theorem nd_eq_0 (c : Dev nD) (n : Fin 100000) :
    W19 (F := Ideal) m ρ c (Proc.devRef .tc main_v71) (ix3 (0 : Fin 4) n (0 : Fin 1))
      = Cert.ReferenceIdeal.Read.val_main_v19 (F := Ideal) (m ((c : Thread nD τ).loc main_arg4)) (ix1 n) := by
  rw [nd_keep m ρ c, nd_at_0 m ρ c n, Cert.ReferenceIdeal.RefValue.norm_dst0_def]

/-- The aggregate of edge type 1 at the combine launch's entry is the reference's: the same gather and accumulation of
    equal feature products along equal index rows. -/
theorem agg_eq_1 (c : Dev nD) (n : Fin 100000) (e : Fin 64) :
    W19 (F := Ideal) m ρ c (Proc.devRef .tc main_v141) (ix3 (1 : Fin 4) n e)
      = Cert.ReferenceIdeal.Read.val_main_v73 (F := Ideal) (m ((c : Thread nD τ).loc main_arg0)) (m ((c : Thread nD τ).loc main_arg1)) (m ((c : Thread nD τ).loc main_arg3)) (m ((c : Thread nD τ).loc main_arg4)) (ix2 n e) := by
  rw [agg_at_1 m ρ c n e, feat_slice_1 m ρ c, Cert.ReferenceIdeal.RefValue.agg1_eq]

/-- The destination norm of edge type 1 at the combine launch's entry is the reference's. -/
theorem nd_eq_1 (c : Dev nD) (n : Fin 100000) :
    W19 (F := Ideal) m ρ c (Proc.devRef .tc main_v71) (ix3 (1 : Fin 4) n (0 : Fin 1))
      = Cert.ReferenceIdeal.Read.val_main_v59 (F := Ideal) (m ((c : Thread nD τ).loc main_arg4)) (ix1 n) := by
  rw [nd_keep m ρ c, nd_at_1 m ρ c n, Cert.ReferenceIdeal.RefValue.norm_dst1_def]

/-- The aggregate of edge type 2 at the combine launch's entry is the reference's: the same gather and accumulation of
    equal feature products along equal index rows. -/
theorem agg_eq_2 (c : Dev nD) (n : Fin 100000) (e : Fin 64) :
    W19 (F := Ideal) m ρ c (Proc.devRef .tc main_v141) (ix3 (2 : Fin 4) n e)
      = Cert.ReferenceIdeal.Read.val_main_v113 (F := Ideal) (m ((c : Thread nD τ).loc main_arg0)) (m ((c : Thread nD τ).loc main_arg1)) (m ((c : Thread nD τ).loc main_arg3)) (m ((c : Thread nD τ).loc main_arg4)) (ix2 n e) := by
  rw [agg_at_2 m ρ c n e, feat_slice_2 m ρ c, Cert.ReferenceIdeal.RefValue.agg2_eq]

/-- The destination norm of edge type 2 at the combine launch's entry is the reference's. -/
theorem nd_eq_2 (c : Dev nD) (n : Fin 100000) :
    W19 (F := Ideal) m ρ c (Proc.devRef .tc main_v71) (ix3 (2 : Fin 4) n (0 : Fin 1))
      = Cert.ReferenceIdeal.Read.val_main_v99 (F := Ideal) (m ((c : Thread nD τ).loc main_arg4)) (ix1 n) := by
  rw [nd_keep m ρ c, nd_at_2 m ρ c n, Cert.ReferenceIdeal.RefValue.norm_dst2_def]

/-- The aggregate of edge type 3 at the combine launch's entry is the reference's: the same gather and accumulation of
    equal feature products along equal index rows. -/
theorem agg_eq_3 (c : Dev nD) (n : Fin 100000) (e : Fin 64) :
    W19 (F := Ideal) m ρ c (Proc.devRef .tc main_v141) (ix3 (3 : Fin 4) n e)
      = Cert.ReferenceIdeal.Read.val_main_v153 (F := Ideal) (m ((c : Thread nD τ).loc main_arg0)) (m ((c : Thread nD τ).loc main_arg1)) (m ((c : Thread nD τ).loc main_arg3)) (m ((c : Thread nD τ).loc main_arg4)) (ix2 n e) := by
  rw [agg_at_3 m ρ c n e, feat_slice_3 m ρ c, Cert.ReferenceIdeal.RefValue.agg3_eq]

/-- The destination norm of edge type 3 at the combine launch's entry is the reference's. -/
theorem nd_eq_3 (c : Dev nD) (n : Fin 100000) :
    W19 (F := Ideal) m ρ c (Proc.devRef .tc main_v71) (ix3 (3 : Fin 4) n (0 : Fin 1))
      = Cert.ReferenceIdeal.Read.val_main_v139 (F := Ideal) (m ((c : Thread nD τ).loc main_arg4)) (ix1 n) := by
  rw [nd_keep m ρ c, nd_at_3 m ρ c n, Cert.ReferenceIdeal.RefValue.norm_dst3_def]

/-- THE BRIDGE. From memories agreeing on the five arguments, the reference's result term is the array the combine
    launch leaves: index by index both are 0 + Σ_k (agg_k * norm_dst_k + b_k), the edge types added in order. -/
theorem bridge (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)) :
    Cert.ReferenceIdeal.Value.res_main_v160 m' c = (dat1 (V19 m ρ) c).arrAt 3 cfg1.N := by
  obtain ⟨h0, h1, h2, h3, h4⟩ := h
  rw [Cert.ReferenceIdeal.Read.val_main_v160_eq m' c, h0, h1, h2, h3, h4, final1]
  funext i
  obtain ⟨n, e, rfl⟩ : ∃ (n : Fin 100000) (e : Fin 64), i = ix2 n e := ⟨i 0, i 1, eq_ix2 i⟩
  rw [Cert.ReferenceIdeal.RefValue.out_at]
  show _ = outAt (W19 m ρ c (Proc.devRef .tc main_v141)) (W19 m ρ c (Proc.devRef .tc main_v71)) (W19 m ρ c (Proc.devRef .tc (argRef 2))) n e
  unfold outAt
  rw [agg_eq_0 m ρ c n e, agg_eq_1 m ρ c n e, agg_eq_2 m ρ c n e, agg_eq_3 m ρ c n e,
    nd_eq_0 m ρ c n, nd_eq_1 m ρ c n, nd_eq_2 m ρ c n, nd_eq_3 m ρ c n, W19_arg m ρ 2 c]
  rfl

end Cert.KernelIdeal.Val

end
-- ==== Proof.lean ====
/-
  A heterogeneous graph convolution: for each of 4 edge types k, with S_k and D_k the source and destination node of
  each edge, norm_src_k = rsqrt(max(1, out-degree)), norm_dst_k = rsqrt(max(1, in-degree)),
  feat_k = (h * norm_src_k[:, None]) @ W_k, agg_k[n] = the sum over the edges into n of feat_k[source], and the result
  is 0 + Σ_k (agg_k * norm_dst_k[:, None] + b_k), the edge types added in order.
  The kernel program batches this as two launches among host operations: all eight norms, stacked; one launch
  computing the four projections block by block on the matrix unit (its operands rounded to bf16, which at the
  extended reals is the identity); the gathers and scatter-adds on the host, stacked; one launch that, per node
  block, zeroes an accumulator at the first edge type and adds agg_k * norm_dst_k + b_k at each. The reference does
  the same per edge type with one dot_general each. At the extended reals both are the same function of the
  arguments, index by index: the projection is the same finite sum, the host terms around it are the same
  operations of equal arguments, and the accumulator's four additions are the reference's four, in the same order
  (only associativity-free re-reading; no law that needs finiteness).
  The frames: the reference's from its run; the kernel program's, at both instances, from the run over its
  segments (Proof/KI/Run.lean, Proof/K/Run.lean).
-/
import proofs.«169069_j12051678233154_1_alg».proof.Defs
import proofs.«169069_j12051678233154_1_alg».proof.Proof.Gen.Kernel
import proofs.«169069_j12051678233154_1_alg».proof.Proof.Gen.KernelIdeal
import proofs.«169069_j12051678233154_1_alg».proof.Proof.Gen.ReferenceIdeal
import proofs.«169069_j12051678233154_1_alg».proof.Proof.Gen.Pre_finite_inputs
import proofs.«169069_j12051678233154_1_alg».proof.Proof.Gen.ReferenceIdeal.Run
import proofs.«169069_j12051678233154_1_alg».proof.Proof.K.Run
import proofs.«169069_j12051678233154_1_alg».proof.Proof.KI.Run
import proofs.«169069_j12051678233154_1_alg».proof.Proof.Val.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same result array: the combine launch's output, read as one function of the
    arguments, is the reference's result term. -/
theorem algebraic : Cert.algebraic_KernelIdeal_ReferenceIdeal := by
  intro m ρ m' ρ' _ hagree
  refine ⟨fun c => (Cert.KernelIdeal.Hand.dat1 (Cert.KernelIdeal.Hand.V19 m ρ) c).arrAt 3 Cert.KernelIdeal.cfg1.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  exact Cert.KernelIdeal.Val.bridge m ρ m' c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
